-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x384x64x64 : Shape := ⟨4, ![16, 384, 64, 64]⟩
abbrev S2304x384 : Shape := ⟨2, ![2304, 384]⟩
abbrev S12x384 : Shape := ⟨2, ![12, 384]⟩
abbrev S12 : Shape := ⟨1, ![12]⟩
abbrev S384x384 : Shape := ⟨2, ![384, 384]⟩
abbrev S384x1536 : Shape := ⟨2, ![384, 1536]⟩
abbrev S_ : Shape := ⟨0, ![]⟩

class Facts : Prop where
  bcast_S_S16x384x64x64 : S_.BroadcastsInDim S16x384x64x64 (![] : Fin 0 → Fin S16x384x64x64.rank)
  reducesTo_S16x384x64x64_S_d0_1_2_3 : S16x384x64x64.ReducesTo [0, 1, 2, 3] S_
  h_S_ : 0 < S_.numel
  bcast_S_S2304x384 : S_.BroadcastsInDim S2304x384 (![] : Fin 0 → Fin S2304x384.rank)
  reducesTo_S2304x384_S_d0_1 : S2304x384.ReducesTo [0, 1] S_
  bcast_S_S12x384 : S_.BroadcastsInDim S12x384 (![] : Fin 0 → Fin S12x384.rank)
  reducesTo_S12x384_S_d0_1 : S12x384.ReducesTo [0, 1] S_
  bcast_S_S12 : S_.BroadcastsInDim S12 (![] : Fin 0 → Fin S12.rank)
  reducesTo_S12_S_d0 : S12.ReducesTo [0] S_
  bcast_S_S384x384 : S_.BroadcastsInDim S384x384 (![] : Fin 0 → Fin S384x384.rank)
  reducesTo_S384x384_S_d0_1 : S384x384.ReducesTo [0, 1] S_
  bcast_S_S384x1536 : S_.BroadcastsInDim S384x1536 (![] : Fin 0 → Fin S384x1536.rank)
  reducesTo_S384x1536_S_d0_1 : S384x1536.ReducesTo [0, 1] S_
  reducesTo_S_S_d : S_.ReducesTo [] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S384x384 .f32) (main_arg5 : FVec F S384x1536 .f32) (main_arg6 : FVec F S_ .f32) (main_arg7 : FVec F S_ .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384x1536 .f32 := Host.absf main_arg5
  let main_cst_8 : FVec F S_ .f32 := constant S_ .f32 0x7F800000#32
  let main_v25 : FVec F S384x1536 .f32 := broadcastInDim S384x1536 ![] bcast_S_S384x1536 main_cst_8
  let main_v26 : IVec S384x1536 1 := cmpf .olt main_v24 main_v25
  let main_c_9 : IVec S_ 1 := constantI S_ 1 1#1
  let main_v27 : IVec S_ 1 := (fun x v => Host.reduce IntOp.andi x v reducesTo_S384x1536_S_d0_1 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_v32 main_v33

def fn {F : FTy → Type} [FloatOps F] (main_arg0 : FVec F S16x384x64x64 .f32) (main_arg1 : FVec F S2304x384 .f32) (main_arg2 : FVec F S12x384 .f32) (main_arg3 : FVec F S12 .f32) (main_arg4 : FVec F S384x384 .f32) (main_arg5 : FVec F S384x1536 .f32) (main_arg6 : FVec F S_ .f32) (main_arg7 : FVec F S_ .f32) : IVec S_ 1 :=
  let main_v0 : FVec F S16x384x64x64 .f32 := Host.absf main_arg0
  let main_cst : FVec F S_ .f32 := constant S_ .f32 0x7F800000#32
  let main_v1 : FVec F S16x384x64x64 .f32 := broadcastInDim S16x384x64x64 ![] bcast_S_S16x384x64x64 main_cst
  let main_v2 : IVec S16x384x64x64 1 := cmpf .olt main_v0 main_v1
  let main_c : IVec S_ 1 := constantI S_ 1 1#1
  let main_v3 : IVec S_ 1 := (fun x v => Host.reduce IntOp.andi x v reducesTo_S16x384x64x64_S_d0_1_2_3 h_S_) main_v2 main_c
  let main_v4 : FVec F S2304x384 .f32 := Host.absf main_arg1
  let main_cst_0 : FVec F S_ .f32 := constant S_ .f32 0x7F800000#32
  let main_v5 : FVec F S2304x384 .f32 := broadcastInDim S2304x384 ![] bcast_S_S2304x384 main_cst_0
  let main_v6 : IVec S2304x384 1 := cmpf .olt main_v4 main_v5
  let main_c_1 : IVec S_ 1 := constantI S_ 1 1#1
  let main_v7 : IVec S_ 1 := (fun x v => Host.reduce IntOp.andi x v reducesTo_S2304x384_S_d0_1 h_S_) main_v6 main_c_1
  let main_v8 : IVec S_ 1 := andi main_v3 main_v7
  let main_v9 : FVec F S12x384 .f32 := Host.absf main_arg2
  let main_cst_2 : FVec F S_ .f32 := constant S_ .f32 0x7F800000#32
  let main_v10 : FVec F S12x384 .f32 := broadcastInDim S12x384 ![] bcast_S_S12x384 main_cst_2
  let main_v11 : IVec S12x384 1 := cmpf .olt main_v9 main_v10
  let main_c_3 : IVec S_ 1 := constantI S_ 1 1#1
  let main_v12 : IVec S_ 1 := (fun x v => Host.reduce IntOp.andi x v reducesTo_S12x384_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_arg7 main_v13 main_v16
-- ==== Kernel.lean ====
abbrev S16x384x64x64 : Shape := ⟨4, ![16, 384, 64, 64]⟩
abbrev S2304x384 : Shape := ⟨2, ![2304, 384]⟩
abbrev S12x384 : Shape := ⟨2, ![12, 384]⟩
abbrev S12 : Shape := ⟨1, ![12]⟩
abbrev S384x384 : Shape := ⟨2, ![384, 384]⟩
abbrev S384x1536 : Shape := ⟨2, ![384, 1536]⟩
abbrev S_ : Shape := ⟨0, ![]⟩
abbrev S1536x384 : Shape := ⟨2, ![1536, 384]⟩
abbrev S384x12 : Shape := ⟨2, ![384, 12]⟩
abbrev S384x128 : Shape := ⟨2, ![384, 128]⟩
abbrev S384x512 : Shape := ⟨2, ![384, 512]⟩
abbrev S1x12 : Shape := ⟨2, ![1, 12]⟩
abbrev S1x1 : Shape := ⟨2, ![1, 1]⟩
abbrev S1x384x8x64 : Shape := ⟨4, ![1, 384, 8, 64]⟩
abbrev S384x8x64 : Shape := ⟨3, ![384, 8, 64]⟩
abbrev S384x1x8x8x8 : Shape := ⟨5, ![384, 1, 8, 8, 8]⟩
abbrev S1x8x8x8x384 : Shape := ⟨5, ![1, 8, 8, 8, 384]⟩
abbrev S8x64x384 : Shape := ⟨3, ![8, 64, 384]⟩
abbrev S512x384 : Shape := ⟨2, ![512, 384]⟩
abbrev S512x512 : Shape := ⟨2, ![512, 512]⟩
abbrev S512x12 : Shape := ⟨2, ![512, 12]⟩
abbrev S512x1536 : Shape := ⟨2, ![512, 1536]⟩
abbrev S8x64x12 : Shape := ⟨3, ![8, 64, 12]⟩
abbrev S8x64x32 : Shape := ⟨3, ![8, 64, 32]⟩
abbrev S8x64x64 : Shape := ⟨3, ![8, 64, 64]⟩
abbrev S8x64 : Shape := ⟨2, ![8, 64]⟩
abbrev S8x64x1 : Shape := ⟨3, ![8, 64, 1]⟩

abbrev nBuf : Space → Nat
  | .hbm => 30
  | .vmem => 12
  | .smem => 0
  | _ => 0

abbrev bufTy : (tb : Table) → Fin (tcTables nBuf tb) → BufTy
  | .hbm, ⟨0, _⟩ => ⟨S16x384x64x64, .f32⟩
  | .hbm, ⟨1, _⟩ => ⟨S2304x384, .f32⟩
  | .hbm, ⟨2, _⟩ => ⟨S12x384, .f32⟩
  | .hbm, ⟨3, _⟩ => ⟨S12, .f32⟩
  | .hbm, ⟨4, _⟩ => ⟨S384x384, .f32⟩
  | .hbm, ⟨5, _⟩ => ⟨S384x1536, .f32⟩
  | .hbm, ⟨6, _⟩ => ⟨S_, .f32⟩
  | .hbm, ⟨7, _⟩ => ⟨S_, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S384x384, .f32⟩
  | .hbm, ⟨12, _⟩ => ⟨S384x384, .bf16⟩
  | .hbm, ⟨13, _⟩ => ⟨S1536x384, .f32⟩
  | .hbm, ⟨14, _⟩ => ⟨S384x1536, .f32⟩
  | .hbm, ⟨15, _⟩ => ⟨S384x1536, .bf16⟩
  | .hbm, ⟨16, _⟩ => ⟨S384x12, .f32⟩
  | .hbm, ⟨17, _⟩ => ⟨S_, .i32⟩
  | .hbm, ⟨18, _⟩ => ⟨S_, .f32⟩
  | .hbm, ⟨19, _⟩ => ⟨S384x128, .f32⟩
  | .hbm, ⟨20, _⟩ => ⟨S384x512, .f32⟩
  | .hbm, ⟨21, _⟩ => ⟨S384x512, .bf16⟩
  | .hbm, ⟨22, _⟩ => ⟨S1x12, .f32⟩
  | .hbm, ⟨23, _⟩ => ⟨S384x384, .f32⟩
  | .hbm, ⟨24, _⟩ => ⟨S384x384, .bf16⟩
  | .hbm, ⟨25, _⟩ => ⟨S1536x384, .f32⟩
  | .hbm, ⟨26, _⟩ => ⟨S1536x384, .bf16⟩
  | .hbm, ⟨27, _⟩ => ⟨S1x1, .f32⟩
  | .hbm, ⟨28, _⟩ => ⟨S1x1, .f32⟩
  | .hbm, ⟨29, _⟩ => ⟨S16x384x64x64, .f32⟩
  | .local _ .vmem, ⟨0, _⟩ => ⟨S1x384x8x64, .f32⟩
  | .local _ .vmem, ⟨1, _⟩ => ⟨S1x384x8x64, .f32⟩
  | .local _ .vmem, ⟨2, _⟩ => ⟨S384x512, .bf16⟩
  | .local _ .vmem, ⟨3, _⟩ => ⟨S384x384, .bf16⟩
  | .local _ .vmem, ⟨4, _⟩ => ⟨S384x1536, .bf16⟩
  | .local _ .vmem, ⟨5, _⟩ => ⟨S1x12, .f32⟩
  | .local _ .vmem, ⟨6, _⟩ => ⟨S384x384, .bf16⟩
  | .local _ .vmem, ⟨7, _⟩ => ⟨S1536x384, .bf16⟩
  | .local _ .vmem, ⟨8, _⟩ => ⟨S1x1, .f32⟩
  | .local _ .vmem, ⟨9, _⟩ => ⟨S1x1, .f32⟩
  | .local _ .vmem, ⟨10, _⟩ => ⟨S1x384x8x64, .f32⟩
  | .local _ .vmem, ⟨11, _⟩ => ⟨S1x384x8x64, .f32⟩
  | _, _ => ⟨S16x384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x384x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S2304x384_S384x384_0_0 : S2304x384.Slices ![0, 0] S384x384
  transposes_S384x384_S384x384_1_0 : S384x384.Transposes [1, 0] S384x384
  slices_S2304x384_S384x384_384_0 : S2304x384.Slices ![384, 0] S384x384
  bitsLt_bf16_f32 : FTy.bits .bf16 < FTy.bits .f32
  slices_S2304x384_S1536x384_768_0 : S2304x384.Slices ![768, 0] S1536x384
  transposes_S1536x384_S384x1536_1_0 : S1536x384.Transposes [1, 0] S384x1536
  transposes_S12x384_S384x12_1_0 : S12x384.Transposes [1, 0] S384x12
  pads_S384x12_S384x128_000_01160 : S384x12.Pads (![0, 0] : Fin 2 → Nat) ![0, 116] ![0, 0] S384x128
  h_S_ : 0 < S_.numel
  concatenates_S384x384_S384x128_S384x512_d1 : Shape.Concatenates [S384x384, S384x128] S384x512 1
  shapeCasts_S12_S1x12 : S12.ShapeCasts S1x12
  transposes_S384x1536_S1536x384_1_0 : S384x1536.Transposes [1, 0] S1536x384
  shapeCasts_S_S1x1 : S_.ShapeCasts S1x1
  inb_S1x384x8x64_S1x384x8x64_0_0_0_0 : ∀ a, (![0, 0, 0, 0] : Fin 4 → Nat) a + S1x384x8x64.size a ≤ S1x384x8x64.size a
  h_S1x384x8x64 : 0 < S1x384x8x64.numel
  shapeCasts_S1x384x8x64_S384x8x64 : S1x384x8x64.ShapeCasts S384x8x64
  shapeCasts_S384x8x64_S384x1x8x8x8 : S384x8x64.ShapeCasts S384x1x8x8x8
  transposes_S384x1x8x8x8_p1_3_2_4_0_S1x8x8x8x384 : S384x1x8x8x8.Transposes [1, 3, 2, 4, 0] S1x8x8x8x384
  shapeCasts_S1x8x8x8x384_S8x64x384 : S1x8x8x8x384.ShapeCasts S8x64x384
  shapeCasts_S8x64x384_S512x384 : S8x64x384.ShapeCasts S512x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384x1536_S384x1536_0_0 : ∀ a, (![0, 0] : Fin 2 → Nat) a + S384x1536.size a ≤ S384x1536.size a
  h_S384x1536 : 0 < S384x1536.numel
  shapeCasts_S384x1536_S384x1536 : S384x1536.ShapeCasts S384x1536
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S1536x384_S1536x384_0_0 : ∀ a, (![0, 0] : Fin 2 → Nat) a + S1536x384.size a ≤ S1536x384.size a
  h_S1536x384 : 0 < S1536x384.numel
  shapeCasts_S1536x384_S1536x384 : S1536x384.ShapeCasts S1536x384
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S512x512_o0_0_S512x384 : S512x512.Slices ![0, 0] S512x384
  slices_S512x512_o0_384_S512x12 : S512x512.Slices ![0, 384] S512x12
  broadcasts_S1x12_S512x12 : S1x12.Broadcasts S512x12
  shapeCasts_S512x384_S8x64x384 : S512x384.ShapeCasts S8x64x384
  shapeCasts_S512x12_S8x64x12 : S512x12.ShapeCasts S8x64x12
  slices_S8x64x384_o0_0_0_S8x64x32 : S8x64x384.Slices ![0, 0, 0] S8x64x32
  reduces_S8x64x64_S8x64 : S8x64x64.Reduces [2] S8x64
  shapeCasts_S8x64_S8x64x1 : S8x64.ShapeCasts S8x64x1
  broadcasts_S8x64x1_S8x64x64 : S8x64x1.Broadcasts S8x64x64
  slices_S8x64x12_o0_0_0_S8x64x1 : S8x64x12.Slices ![0, 0, 0] S8x64x1
  broadcasts_S8x64x1_S8x64x32 : S8x64x1.Broadcasts S8x64x32
  slices_S8x64x384_o0_0_32_S8x64x32 : S8x64x384.Slices ![0, 0, 32] S8x64x32
  slices_S8x64x12_o0_0_1_S8x64x1 : S8x64x12.Slices ![0, 0, 1] S8x64x1
  slices_S8x64x384_o0_0_64_S8x64x32 : S8x64x384.Slices ![0, 0, 64] S8x64x32
  slices_S8x64x12_o0_0_2_S8x64x1 : S8x64x12.Slices ![0, 0, 2] S8x64x1
  slices_S8x64x384_o0_0_96_S8x64x32 : S8x64x384.Slices ![0, 0, 96] S8x64x32
  slices_S8x64x12_o0_0_3_S8x64x1 : S8x64x12.Slices ![0, 0, 3] S8x64x1
  slices_S8x64x384_o0_0_128_S8x64x32 : S8x64x384.Slices ![0, 0, 128] S8x64x32
  slices_S8x64x12_o0_0_4_S8x64x1 : S8x64x12.Slices ![0, 0, 4] S8x64x1
  slices_S8x64x384_o0_0_160_S8x64x32 : S8x64x384.Slices ![0, 0, 160] S8x64x32
  slices_S8x64x12_o0_0_5_S8x64x1 : S8x64x12.Slices ![0, 0, 5] S8x64x1
  slices_S8x64x384_o0_0_192_S8x64x32 : S8x64x384.Slices ![0, 0, 192] S8x64x32
  slices_S8x64x12_o0_0_6_S8x64x1 : S8x64x12.Slices ![0, 0, 6] S8x64x1
  slices_S8x64x384_o0_0_224_S8x64x32 : S8x64x384.Slices ![0, 0, 224] S8x64x32
  slices_S8x64x12_o0_0_7_S8x64x1 : S8x64x12.Slices ![0, 0, 7] S8x64x1
  slices_S8x64x384_o0_0_256_S8x64x32 : S8x64x384.Slices ![0, 0, 256] S8x64x32
  slices_S8x64x12_o0_0_8_S8x64x1 : S8x64x12.Slices ![0, 0, 8] S8x64x1
  slices_S8x64x384_o0_0_288_S8x64x32 : S8x64x384.Slices ![0, 0, 288] S8x64x32
  slices_S8x64x12_o0_0_9_S8x64x1 : S8x64x12.Slices ![0, 0, 9] S8x64x1
  slices_S8x64x384_o0_0_320_S8x64x32 : S8x64x384.Slices ![0, 0, 320] S8x64x32
  slices_S8x64x12_o0_0_10_S8x64x1 : S8x64x12.Slices ![0, 0, 10] S8x64x1
  slices_S8x64x384_o0_0_352_S8x64x32 : S8x64x384.Slices ![0, 0, 352] S8x64x32
  slices_S8x64x12_o0_0_11_S8x64x1 : S8x64x12.Slices ![0, 0, 11] S8x64x1
  concatenates_S8x64x32_S8x64x32_S8x64x32_S8x64x32_S8x64x32_S8x64x32_S8x64x32_S8x64x32_S8x64x32_S8x64x32_S8x64x32_S8x64x32_S8x64x384_d2 : Shape.Concatenates [S8x64x32, S8x64x32, S8x64x32, S8x64x32, S8x64x32, S8x64x32, S8x64x32, S8x64x32, S8x64x32, S8x64x32, S8x64x32, S8x64x32] S8x64x384 2
  shapeCasts_S8x64x384_S1x8x8x8x384 : S8x64x384.ShapeCasts S1x8x8x8x384
  transposes_S1x8x8x8x384_p4_0_2_1_3_S384x1x8x8x8 : S1x8x8x8x384.Transposes [4, 0, 2, 1, 3] S384x1x8x8x8
  shapeCasts_S384x1x8x8x8_S384x8x64 : S384x1x8x8x8.ShapeCasts S384x8x64
  shapeCasts_S384x8x64_S1x384x8x64 : S384x8x64.ShapeCasts S1x384x8x64
  dot_S512x384_S384x512_S512x512_1_0_0_1_n_n_wf : DotDims.WF S512x384 S384x512 S512x512 [1] [0] [0] [1] [] []
  dot_S512x384_S384x384_S512x384_1_0_0_1_n_n_wf : DotDims.WF S512x384 S384x384 S512x384 [1] [0] [0] [1] [] []
  dot_S512x384_S384x1536_S512x1536_1_0_0_1_n_n_wf : DotDims.WF S512x384 S384x1536 S512x1536 [1] [0] [0] [1] [] []
  dot_S512x1536_S1536x384_S512x384_1_0_0_1_n_n_wf : DotDims.WF S512x1536 S1536x384 S512x384 [1] [0] [0] [1] [] []
  dot_S8x64x32_S8x64x32_S8x64x64_2_2_1_1_0_0_wf : DotDims.WF S8x64x32 S8x64x32 S8x64x64 [2] [2] [1] [1] [0] [0]
  dot_S8x64x64_S8x64x32_S8x64x32_2_1_1_2_0_0_wf : DotDims.WF S8x64x64 S8x64x32 S8x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x8x64.size a ≤ S16x384x64x64.size a
  hwx0_0 : ∀ i : grid0.Coords, EltTy.bits .f32 = 32 ∨ (Rect.block (s := S16x384x64x64) S1x384x8x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x1536.size a ≤ S384x1536.size a
  hwx0_3 : ∀ i : grid0.Coords, EltTy.bits .bf16 = 32 ∨ (Rect.block (s := S384x1536) S384x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12.size a ≤ S1x12.size a
  hwx0_4 : ∀ i : grid0.Coords, EltTy.bits .f32 = 32 ∨ (Rect.block (s := S1x12) S1x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .bf16 = 32 ∨ (Rect.block (s := S384x384) S384x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x384.size a ≤ S1536x384.size a
  hwx0_6 : ∀ i : grid0.Coords, EltTy.bits .bf16 = 32 ∨ (Rect.block (s := S1536x384) S1536x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x384x8x64.size a ≤ S16x384x64x64.size a
  hwx0_9 : ∀ i : grid0.Coords, EltTy.bits .f32 = 32 ∨ (Rect.block (s := S16x384x64x64) S1x384x8x64.size (cc0_transform_9 i) (hinb0_9 i)).WholeWords (EltTy.packing .f32)

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x1536_S512x1536_1_0_0_1_n_n : DotDims S512x384 S384x1536 S512x1536 where
  lhsContracting := [1]
  rhsContracting := [0]
  lhsNonContracting := [0]
  rhsNonContracting := [1]
  lhsBatch := []
  rhsBatch := []
  wf := dot_S512x384_S384x1536_S512x1536_1_0_0_1_n_n_wf
def dot_S512x1536_S1536x384_S512x384_1_0_0_1_n_n : DotDims S512x1536 S1536x384 S512x384 where
  lhsContracting := [1]
  rhsContracting := [0]
  lhsNonContracting := [0]
  rhsNonContracting := [1]
  lhsBatch := []
  rhsBatch := []
  wf := dot_S512x1536_S1536x384_S512x384_1_0_0_1_n_n_wf
def dot_S8x64x32_S8x64x32_S8x64x64_2_2_1_1_0_0 : DotDims S8x64x32 S8x64x32 S8x64x64 where
  lhsContracting := [2]
  rhsContracting := [2]
  lhsNonContracting := [1]
  rhsNonContracting := [1]
  lhsBatch := [0]
  rhsBatch := [0]
  wf := dot_S8x64x32_S8x64x32_S8x64x64_2_2_1_1_0_0_wf
def dot_S8x64x64_S8x64x32_S8x64x32_2_1_1_2_0_0 : DotDims S8x64x64 S8x64x32 S8x64x32 where
  lhsContracting := [2]
  rhsContracting := [1]
  lhsNonContracting := [1]
  rhsNonContracting := [2]
  lhsBatch := [0]
  rhsBatch := [0]
  wf := dot_S8x64x64_S8x64x32_S8x64x32_2_1_1_2_0_0_wf

abbrev win0_0 : Pipeline.Window sig grid0 :=
  Pipeline.Window.ofSpec (Memref.whole main_arg0) S1x384x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S384x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1536x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x384x8x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x384x64x64 : Shape := ⟨4, ![16, 384, 64, 64]⟩
abbrev S2304x384 : Shape := ⟨2, ![2304, 384]⟩
abbrev S12x384 : Shape := ⟨2, ![12, 384]⟩
abbrev S12 : Shape := ⟨1, ![12]⟩
abbrev S384x384 : Shape := ⟨2, ![384, 384]⟩
abbrev S384x1536 : Shape := ⟨2, ![384, 1536]⟩
abbrev S_ : Shape := ⟨0, ![]⟩
abbrev S16x384x8x8x8x8 : Shape := ⟨6, ![16, 384, 8, 8, 8, 8]⟩
abbrev S16x8x8x8x8x384 : Shape := ⟨6, ![16, 8, 8, 8, 8, 384]⟩
abbrev S1024x64x384 : Shape := ⟨3, ![1024, 64, 384]⟩
abbrev S1024x64x2304 : Shape := ⟨3, ![1024, 64, 2304]⟩
abbrev S1024x64x1536 : Shape := ⟨3, ![1024, 64, 1536]⟩
abbrev S1024x64x12x32 : Shape := ⟨4, ![1024, 64, 12, 32]⟩
abbrev S1024x12x64x32 : Shape := ⟨4, ![1024, 12, 64, 32]⟩
abbrev S1024x12x64x64 : Shape := ⟨4, ![1024, 12, 64, 64]⟩
abbrev S1024x12x64 : Shape := ⟨3, ![1024, 12, 64]⟩
abbrev S1024x12x64x1 : Shape := ⟨4, ![1024, 12, 64, 1]⟩
abbrev S1024x64x12 : Shape := ⟨3, ![1024, 64, 12]⟩
abbrev S1x1x12 : Shape := ⟨3, ![1, 1, 12]⟩

abbrev nBuf : Space → Nat
  | .hbm => 70
  | .vmem => 0
  | .smem => 0
  | _ => 0

abbrev bufTy : (tb : Table) → Fin (tcTables nBuf tb) → BufTy
  | .hbm, ⟨0, _⟩ => ⟨S16x384x64x64, .f32⟩
  | .hbm, ⟨1, _⟩ => ⟨S2304x384, .f32⟩
  | .hbm, ⟨2, _⟩ => ⟨S12x384, .f32⟩
  | .hbm, ⟨3, _⟩ => ⟨S12, .f32⟩
  | .hbm, ⟨4, _⟩ => ⟨S384x384, .f32⟩
  | .hbm, ⟨5, _⟩ => ⟨S384x1536, .f32⟩
  | .hbm, ⟨6, _⟩ => ⟨S_, .f32⟩
  | .hbm, ⟨7, _⟩ => ⟨S_, .f32⟩
  | .hbm, ⟨8, _⟩ => ⟨S16x384x8x8x8x8, .f32⟩
  | .hbm, ⟨9, _⟩ => ⟨S16x8x8x8x8x384, .f32⟩
  | .hbm, ⟨10, _⟩ => ⟨S1024x64x384, .f32⟩
  | .hbm, ⟨11, _⟩ => ⟨S1024x64x2304, .f32⟩
  | .hbm, ⟨12, _⟩ => ⟨S1024x64x384, .f32⟩
  | .hbm, ⟨13, _⟩ => ⟨S1024x64x384, .f32⟩
  | .hbm, ⟨14, _⟩ => ⟨S1024x64x1536, .f32⟩
  | .hbm, ⟨15, _⟩ => ⟨S1024x64x12x32, .f32⟩
  | .hbm, ⟨16, _⟩ => ⟨S1024x12x64x32, .f32⟩
  | .hbm, ⟨17, _⟩ => ⟨S1024x64x12x32, .f32⟩
  | .hbm, ⟨18, _⟩ => ⟨S1024x12x64x32, .f32⟩
  | .hbm, ⟨19, _⟩ => ⟨S1024x12x64x64, .f32⟩
  | .hbm, ⟨20, _⟩ => ⟨S_, .f32⟩
  | .hbm, ⟨21, _⟩ => ⟨S1024x12x64x64, .f32⟩
  | .hbm, ⟨22, _⟩ => ⟨S1024x12x64x64, .f32⟩
  | .hbm, ⟨23, _⟩ => ⟨S_, .f32⟩
  | .hbm, ⟨24, _⟩ => ⟨S1024x12x64, .f32⟩
  | .hbm, ⟨25, _⟩ => ⟨S_, .f32⟩
  | .hbm, ⟨26, _⟩ => ⟨S1024x12x64, .f32⟩
  | .hbm, ⟨27, _⟩ => ⟨S1024x12x64, .f32⟩
  | .hbm, ⟨28, _⟩ => ⟨S1024x12x64x1, .f32⟩
  | .hbm, ⟨29, _⟩ => ⟨S1024x12x64x64, .f32⟩
  | .hbm, ⟨30, _⟩ => ⟨S1024x12x64x64, .f32⟩
  | .hbm, ⟨31, _⟩ => ⟨S1024x12x64x64, .f32⟩
  | .hbm, ⟨32, _⟩ => ⟨S_, .f32⟩
  | .hbm, ⟨33, _⟩ => ⟨S1024x12x64, .f32⟩
  | .hbm, ⟨34, _⟩ => ⟨S1024x12x64x1, .f32⟩
  | .hbm, ⟨35, _⟩ => ⟨S1024x12x64x64, .f32⟩
  | .hbm, ⟨36, _⟩ => ⟨S1024x12x64x64, .f32⟩
  | .hbm, ⟨37, _⟩ => ⟨S1024x12x64x32, .f32⟩
  | .hbm, ⟨38, _⟩ => ⟨S1024x64x12, .f32⟩
  | .hbm, ⟨39, _⟩ => ⟨S1x1x12, .f32⟩
  | .hbm, ⟨40, _⟩ => ⟨S1024x64x12, .f32⟩
  | .hbm, ⟨41, _⟩ => ⟨S1024x64x12, .f32⟩
  | .hbm, ⟨42, _⟩ => ⟨S1024x12x64, .f32⟩
  | .hbm, ⟨43, _⟩ => ⟨S1024x12x64x1, .f32⟩
  | .hbm, ⟨44, _⟩ => ⟨S1024x12x64x1, .f32⟩
  | .hbm, ⟨45, _⟩ => ⟨S1024x12x64x1, .f32⟩
  | .hbm, ⟨46, _⟩ => ⟨S_, .f32⟩
  | .hbm, ⟨47, _⟩ => ⟨S1024x12x64x1, .f32⟩
  | .hbm, ⟨48, _⟩ => ⟨S1024x12x64x1, .f32⟩
  | .hbm, ⟨49, _⟩ => ⟨S_, .f32⟩
  | .hbm, ⟨50, _⟩ => ⟨S1024x12x64x1, .f32⟩
  | .hbm, ⟨51, _⟩ => ⟨S1024x12x64x1, .f32⟩
  | .hbm, ⟨52, _⟩ => ⟨S1024x12x64x32, .f32⟩
  | .hbm, ⟨53, _⟩ => ⟨S1024x12x64x32, .f32⟩
  | .hbm, ⟨54, _⟩ => ⟨S1024x64x12x32, .f32⟩
  | .hbm, ⟨55, _⟩ => ⟨S1024x64x384, .f32⟩
  | .hbm, ⟨56, _⟩ => ⟨S_, .f32⟩
  | .hbm, ⟨57, _⟩ => ⟨S1024x64x1536, .f32⟩
  | .hbm, ⟨58, _⟩ => ⟨S1024x64x1536, .f32⟩
  | .hbm, ⟨59, _⟩ => ⟨S1024x64x1536, .f32⟩
  | .hbm, ⟨60, _⟩ => ⟨S1024x64x1536, .f32⟩
  | .hbm, ⟨61, _⟩ => ⟨S1024x64x1536, .f32⟩
  | .hbm, ⟨62, _⟩ => ⟨S1024x64x1536, .f32⟩
  | .hbm, ⟨63, _⟩ => ⟨S1024x64x1536, .f32⟩
  | .hbm, ⟨64, _⟩ => ⟨S1024x64x384, .f32⟩
  | .hbm, ⟨65, _⟩ => ⟨S1024x64x384, .f32⟩
  | .hbm, ⟨66, _⟩ => ⟨S1024x64x384, .f32⟩
  | .hbm, ⟨67, _⟩ => ⟨S16x8x8x8x8x384, .f32⟩
  | .hbm, ⟨68, _⟩ => ⟨S16x384x8x8x8x8, .f32⟩
  | .hbm, ⟨69, _⟩ => ⟨S16x384x64x64, .f32⟩
  | _, _ => ⟨S16x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]

class Facts₀ : Prop where
  shapeCasts_S16x384x64x64_S16x384x8x8x8x8 : S16x384x64x64.ShapeCasts S16x384x8x8x8x8
  transposes_S16x384x8x8x8x8_S16x8x8x8x8x384_0_2_4_3_5_1 : S16x384x8x8x8x8.Transposes [0, 2, 4, 3, 5, 1] S16x8x8x8x8x384
  shapeCasts_S16x8x8x8x8x384_S1024x64x384 : S16x8x8x8x8x384.ShapeCasts S1024x64x384
  slices_S1024x64x2304_S1024x64x384_0_0_0 : S1024x64x2304.Slices ![0, 0, 0] S1024x64x384
  slices_S1024x64x2304_S1024x64x384_0_0_384 : S1024x64x2304.Slices ![0, 0, 384] S1024x64x384
  slices_S1024x64x2304_S1024x64x1536_0_0_768 : S1024x64x2304.Slices ![0, 0, 768] S1024x64x1536
  shapeCasts_S1024x64x384_S1024x64x12x32 : S1024x64x384.ShapeCasts S1024x64x12x32
  transposes_S1024x64x12x32_S1024x12x64x32_0_2_1_3 : S1024x64x12x32.Transposes [0, 2, 1, 3] S1024x12x64x32
  bcast_S_S1024x12x64x64 : S_.BroadcastsInDim S1024x12x64x64 (![] : Fin 0 → Fin S1024x12x64x64.rank)
  reducesTo_S1024x12x64x64_S1024x12x64_d3 : S1024x12x64x64.ReducesTo [3] S1024x12x64
  h_S_ : 0 < S_.numel
  bcast_S_S1024x12x64 : S_.BroadcastsInDim S1024x12x64 (![] : Fin 0 → Fin S1024x12x64.rank)
  bcast_S1024x12x64_S1024x12x64x1_0_1_2 : S1024x12x64.BroadcastsInDim S1024x12x64x1 (![0, 1, 2] : Fin 3 → Fin S1024x12x64x1.rank)
  bcast_S1024x12x64x1_S1024x12x64x64_0_1_2_3 : S1024x12x64x1.BroadcastsInDim S1024x12x64x64 (![0, 1, 2, 3] : Fin 4 → Fin S1024x12x64x64.rank)
  bcast_S12_S1x1x12_2 : S12.BroadcastsInDim S1x1x12 (![2] : Fin 1 → Fin S1x1x12.rank)
  bcast_S1x1x12_S1024x64x12_0_1_2 : S1x1x12.BroadcastsInDim S1024x64x12 (![0, 1, 2] : Fin 3 → Fin S1024x64x12.rank)
  transposes_S1024x64x12_S1024x12x64_0_2_1 : S1024x64x12.Transposes [0, 2, 1] S1024x12x64
  bcast_S_S1024x12x64x1 : S_.BroadcastsInDim S1024x12x64x1 (![] : Fin 0 → Fin S1024x12x64x1.rank)
  bcast_S1024x12x64x1_S1024x12x64x32_0_1_2_3 : S1024x12x64x1.BroadcastsInDim S1024x12x64x32 (![0, 1, 2, 3] : Fin 4 → Fin S1024x12x64x32.rank)
  transposes_S1024x12x64x32_S1024x64x12x32_0_2_1_3 : S1024x12x64x32.Transposes [0, 2, 1, 3] S1024x64x12x32
  shapeCasts_S1024x64x12x32_S1024x64x384 : S1024x64x12x32.ShapeCasts S1024x64x384
  bcast_S_S1024x64x1536 : S_.BroadcastsInDim S1024x64x1536 (![] : Fin 0 → Fin S1024x64x1536.rank)
  shapeCasts_S1024x64x384_S16x8x8x8x8x384 : S1024x64x384.ShapeCasts S16x8x8x8x8x384
  transposes_S16x8x8x8x8x384_S16x384x8x8x8x8_0_5_1_3_2_4 : S16x8x8x8x8x384.Transposes [0, 5, 1, 3, 2, 4] S16x384x8x8x8x8
  shapeCasts_S16x384x8x8x8x8_S16x384x64x64 : S16x384x8x8x8x8.ShapeCasts S16x384x64x64
  dot_S1024x64x384_S2304x384_S1024x64x2304_2_1_01_0_n_n_wf : DotDims.WF S1024x64x384 S2304x384 S1024x64x2304 [2] [1] [0, 1] [0] [] []
  dot_S1024x12x64x32_S1024x12x64x32_S1024x12x64x64_3_3_2_2_01_01_wf : DotDims.WF S1024x12x64x32 S1024x12x64x32 S1024x12x64x64 [3] [3] [2] [2] [0, 1] [0, 1]
  dot_S1024x12x64x64_S1024x12x64x32_S1024x12x64x32_3_2_2_3_01_01_wf : DotDims.WF S1024x12x64x64 S1024x12x64x32 S1024x12x64x32 [3] [2] [2] [3] [0, 1] [0, 1]
  dot_S1024x64x384_S12x384_S1024x64x12_2_1_01_0_n_n_wf : DotDims.WF S1024x64x384 S12x384 S1024x64x12 [2] [1] [0, 1] [0] [] []
  dot_S1024x64x384_S384x384_S1024x64x384_2_1_01_0_n_n_wf : DotDims.WF S1024x64x384 S384x384 S1024x64x384 [2] [1] [0, 1] [0] [] []
  dot_S1024x64x1536_S384x1536_S1024x64x384_2_1_01_0_n_n_wf : DotDims.WF S1024x64x1536 S384x1536 S1024x64x384 [2] [1] [0, 1] [0] [] []

variable [Facts₀]

def dot_S1024x64x384_S2304x384_S1024x64x2304_2_1_01_0_n_n : DotDims S1024x64x384 S2304x384 S1024x64x2304 where
  lhsContracting := [2]
  rhsContracting := [1]
  lhsNonContracting := [0, 1]
  rhsNonContracting := [0]
  lhsBatch := []
  rhsBatch := []
  wf := dot_S1024x64x384_S2304x384_S1024x64x2304_2_1_01_0_n_n_wf
def dot_S1024x12x64x32_S1024x12x64x32_S1024x12x64x64_3_3_2_2_01_01 : DotDims S1024x12x64x32 S1024x12x64x32 S1024x12x64x64 where
  lhsContracting := [3]
  rhsContracting := [3]
  lhsNonContracting := [2]
  rhsNonContracting := [2]
  lhsBatch := [0, 1]
  rhsBatch := [0, 1]
  wf := dot_S1024x12x64x32_S1024x12x64x32_S1024x12x64x64_3_3_2_2_01_01_wf
def dot_S1024x12x64x64_S1024x12x64x32_S1024x12x64x32_3_2_2_3_01_01 : DotDims S1024x12x64x64 S1024x12x64x32 S1024x12x64x32 where
  lhsContracting := [3]
  rhsContracting := [2]
  lhsNonContracting := [2]
  rhsNonContracting := [3]
  lhsBatch := [0, 1]
  rhsBatch := [0, 1]
  wf := dot_S1024x12x64x64_S1024x12x64x32_S1024x12x64x32_3_2_2_3_01_01_wf
def dot_S1024x64x384_S12x384_S1024x64x12_2_1_01_0_n_n : DotDims S1024x64x384 S12x384 S1024x64x12 where
  lhsContracting := [2]
  rhsContracting := [1]
  lhsNonContracting := [0, 1]
  rhsNonContracting := [0]
  lhsBatch := []
  rhsBatch := []
  wf := dot_S1024x64x384_S12x384_S1024x64x12_2_1_01_0_n_n_wf
def dot_S1024x64x384_S384x384_S1024x64x384_2_1_01_0_n_n : DotDims S1024x64x384 S384x384 S1024x64x384 where
  lhsContracting := [2]
  rhsContracting := [1]
  lhsNonContracting := [0, 1]
  rhsNonContracting := [0]
  lhsBatch := []
  rhsBatch := []
  wf := dot_S1024x64x384_S384x384_S1024x64x384_2_1_01_0_n_n_wf
def dot_S1024x64x1536_S384x1536_S1024x64x384_2_1_01_0_n_n : DotDims S1024x64x1536 S384x1536 S1024x64x384 where
  lhsContracting := [2]
  rhsContracting := [1]
  lhsNonContracting := [0, 1]
  rhsNonContracting := [0]
  lhsBatch := []
  rhsBatch := []
  wf := dot_S1024x64x1536_S384x1536_S1024x64x384_2_1_01_0_n_n_wf

class Facts : Prop extends Facts₀ where

variable [Facts]
-- ==== Proof.Spec.lean ====
/-
  The function both programs compute, stated once over plain coordinates.

  One 8×8 window of the image holds 64 tokens of 384 channels (`xw n k`). From the window alone:
  * three projections of every token by the rows of the fused weight (`proj`): rows 0–383 give the queries,
    rows 384–767 the keys (which are also the values), rows 768–2303 the feed-forward pre-activations;
  * per head `h` (32 channels `hcol h d`) the scaled scores `score`, their row maximum `smax`, the shifted
    exponentials `pexp`, the row sums `psum`, the normalised weights `attn` and the weighted sum of the values `head`;
  * the gate of head `h` at a token (`gate`: a projection by the gate weight plus the bias), through the logistic function;
  * the feed-forward activation `ffn`: scale · max(·, 0)² + bias;
  * the output `out`: the gated heads through the attention output weight plus the activations through the
    feed-forward output weight.
  `G` reads the whole image: the element (b, c, y, x) is channel `c` of token (y mod 8, x mod 8) of window
  (b, y / 8, x / 8).
-/
import Idealize.ShloMosaic.PureOps.Ideal
import Idealize.ShloMosaic.PureOps.Ideal.Laws
import Idealize.ShloMosaic.Lib.ValueIdx

noncomputable section

namespace Cert.WinAttn

open Idealize.ShloMosaic Idealize.ShloMosaic.ValueIdx

/-! ## One head of one window -/

section Head
variable (Q K : Fin 64 → Fin 384 → EReal)

/-- Channel `d` of head `h` among the 384 channels. -/
def hcol (h : Fin 12) (d : Fin 32) : Fin 384 := ⟨32 * h.val + d.val, by have := h.isLt; have := d.isLt; omega⟩

/-- The scaled score of query token `n` against key token `m`. -/
def score (h : Fin 12) (n m : Fin 64) : EReal :=
  (∑ d : Fin 32, Q n (hcol h d) * K m (hcol h d)) * Ideal.ofBits .f32 0x3E3504F3#32

/-- The largest score of query token `n` (from −∞). -/
def smax (h : Fin 12) (n : Fin 64) : EReal :=
  (Finset.univ : Finset (Fin 64)).fold max (Ideal.ofBits .f32 0xFF800000#32) (fun m => score Q K h n m)

def pexp (h : Fin 12) (n m : Fin 64) : EReal := Ideal.exp (score Q K h n m - smax Q K h n)

def psum (h : Fin 12) (n : Fin 64) : EReal := ∑ m : Fin 64, pexp Q K h n m

def attn (h : Fin 12) (n m : Fin 64) : EReal := Ideal.div (pexp Q K h n m) (psum Q K h n)

/-- The attention output of head `h` at token `n`, channel `d` of the head: the keys are also the values. -/
def head (h : Fin 12) (n : Fin 64) (d : Fin 32) : EReal := ∑ m : Fin 64, attn Q K h n m * K m (hcol h d)

end Head

/-! ## One window -/

section Win
variable (xw : Fin 64 → Fin 384 → EReal)
  (Wf : (⟨2, ![2304, 384]⟩ : Shape).Idx → EReal) (Wg : (⟨2, ![12, 384]⟩ : Shape).Idx → EReal)
  (Bg : (⟨1, ![12]⟩ : Shape).Idx → EReal) (Wa : (⟨2, ![384, 384]⟩ : Shape).Idx → EReal)
  (Wo : (⟨2, ![384, 1536]⟩ : Shape).Idx → EReal) (s6 s7 : EReal)

/-- Token `n` against row `f` of the fused weight. -/
def proj (n : Fin 64) (f : Fin 2304) : EReal := ∑ k : Fin 384, xw n k * Wf (ix2 f k)

def qcol (j : Fin 384) : Fin 2304 := ⟨j.val, by have := j.isLt; omega⟩
def kcol (j : Fin 384) : Fin 2304 := ⟨384 + j.val, by have := j.isLt; omega⟩
def fcol (f : Fin 1536) : Fin 2304 := ⟨768 + f.val, by have := f.isLt; omega⟩

/-- The queries and the keys of the window's tokens. -/
def qT : Fin 64 → Fin 384 → EReal := fun n j => proj xw Wf n (qcol j)
def kT : Fin 64 → Fin 384 → EReal := fun n j => proj xw Wf n (kcol j)

def gate (n : Fin 64) (h : Fin 12) : EReal := (∑ k : Fin 384, xw n k * Wg (ix2 h k)) + Bg (ix1 h)

/-- The head a channel belongs to, and its place in it. -/
def hOf (j : Fin 384) : Fin 12 := ⟨j.val / 32, by have := j.isLt; omega⟩
def dOf (j : Fin 384) : Fin 32 := ⟨j.val % 32, by omega⟩

def gated (n : Fin 64) (j : Fin 384) : EReal :=
  head (qT xw Wf) (kT xw Wf) (hOf j) n (dOf j) * Ideal.logistic (gate xw Wg Bg n (hOf j))

def ffn (n : Fin 64) (f : Fin 1536) : EReal :=
  s6 * (max (proj xw Wf n (fcol f)) (Ideal.ofBits .f32 0x00000000#32) * max (proj xw Wf n (fcol f)) (Ideal.ofBits .f32 0x00000000#32)) + s7

def out (n : Fin 64) (o : Fin 384) : EReal :=
  (∑ j : Fin 384, gated xw Wf Wg Bg n j * Wa (ix2 o j)) + ∑ f : Fin 1536, ffn xw Wf s6 s7 n f * Wo (ix2 o f)

end Win

/-! ## The whole image -/

/-- The tokens of window (b, gy, gx): token `n` is the pixel (8·gy + n / 8, 8·gx + n mod 8). -/
def winTok (X : (⟨4, ![16, 384, 64, 64]⟩ : Shape).Idx → EReal) (b : Fin 16) (gy gx : Fin 8) : Fin 64 → Fin 384 → EReal :=
  fun n c => X (ix4 b c ⟨8 * gy.val + n.val / 8, by have := gy.isLt; have := n.isLt; omega⟩
    ⟨8 * gx.val + n.val % 8, by have := gx.isLt; omega⟩)

/-- The result at pixel coordinates. -/
def outAt (X : (⟨4, ![16, 384, 64, 64]⟩ : Shape).Idx → EReal)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (S6 S7 : (⟨0, ![]⟩ : Shape).Idx → EReal)
    (b : Fin 16) (c : Fin 384) (y x : Fin 64) : EReal :=
  out (winTok X b ⟨y.val / 8, by have := y.isLt; omega⟩ ⟨x.val / 8, by have := x.isLt; omega⟩) Wf Wg Bg Wa Wo (S6 ix0) (S7 ix0)
    ⟨8 * (y.val % 8) + x.val % 8, by omega⟩ c

/-- The result array as one function of the argument arrays. -/
def G (X : (⟨4, ![16, 384, 64, 64]⟩ : Shape).Idx → EReal)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (S6 S7 : (⟨0, ![]⟩ : Shape).Idx → EReal) :
    (⟨4, ![16, 384, 64, 64]⟩ : Shape).Idx → EReal :=
  fun i => outAt X Wf Wg Bg Wa Wo S6 S7 (i 0) (i 1) (i 2) (i 3)

theorem G_ix4 (X : (⟨4, ![16, 384, 64, 64]⟩ : Shape).Idx → EReal)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (S6 S7 : (⟨0, ![]⟩ : Shape).Idx → EReal)
    (b : Fin 16) (c : Fin 384) (y x : Fin 64) :
    G X Wf Wg Bg Wa Wo S6 S7 (ix4 b c y x) = outAt X Wf Wg Bg Wa Wo S6 S7 b c y x := rfl

end Cert.WinAttn

end
-- ==== Proof.RefWin.lean ====
/-
  The tokens of one window, as the reference program lays them out.

  The reference first rearranges the image into 1024 windows of 64 tokens of 384 channels. Everything it computes
  afterwards, up to the rearrangement back into the image, is computed window by window: the element (w, n, ·) of every
  later array depends on the image only through the 64 × 384 entries of window `w`. This module names those entries.
-/
import proofs.«127096_j46669114638476_2_alg».proof.Proof.Gen.ReferenceIdeal.Read
import Idealize.ShloMosaic.Lib.ValueIdx

noncomputable section

namespace Cert.RefSide

open Idealize.ShloMosaic Idealize.ShloMosaic.ValueIdx Cert.ReferenceIdeal Cert.ReferenceIdeal.Read

/-- Channel `k` of token `n` of window `w` of the rearranged image. -/
def xwin (x0 : (⟨S16x384x64x64, .f32⟩ : BufTy).Contents (Elt Ideal)) (w : Fin 1024) : Fin 64 → Fin 384 → EReal :=
  fun n k => val_main_v2 (F := Ideal) x0 (ix3 w n k)

/-- The rearranged image at coordinates is the window's entry. -/
theorem val_main_v2_ix3 (x0 : (⟨S16x384x64x64, .f32⟩ : BufTy).Contents (Elt Ideal)) (w : Fin 1024) (n : Fin 64) (k : Fin 384) :
    val_main_v2 (F := Ideal) x0 (ix3 w n k) = xwin x0 w n k := rfl

end Cert.RefSide

end
-- ==== Proof.RefLayout.lean ====
/-
  The reference's two rearrangements between the image and its windows.

  Going in, the image [16, 384, 64, 64] is cut into 8 × 8 blocks of 8 × 8 pixels, the channel axis is moved last and the
  blocks and their pixels are flattened: token `n` of window `w` is the pixel (8·(w / 8 mod 8) + n / 8, 8·(w mod 8) + n mod 8)
  of image `w / 64` — the specification's `winTok`. Coming out, the same steps are undone: the result at pixel (y, x) of
  image `b` is token 8·(y mod 8) + x mod 8 of window (8·b + y / 8)·8 + x / 8. Each reshape keeps the row-major position.
-/
import proofs.«127096_j46669114638476_2_alg».proof.Proof.Gen.ReferenceIdeal.Read
import proofs.«127096_j46669114638476_2_alg».proof.Proof.Spec
import proofs.«127096_j46669114638476_2_alg».proof.Proof.RefWin
import Idealize.ShloMosaic.Lib.Pipeline.Value
import Idealize.ShloMosaic.Lib.ValueIdx
import Idealize.ShloMosaic.Lib.ValueIdxRank6

noncomputable section

namespace Cert.RefSide

open Idealize.ShloMosaic Idealize.ShloMosaic.ValueIdx Cert.ReferenceIdeal Cert.ReferenceIdeal.Read Cert.WinAttn

/-! ## Into windows -/

section In
variable (x0 : (⟨S16x384x64x64, .f32⟩ : BufTy).Contents (Elt Ideal))

/-- Cutting both pixel axes into 8 blocks of 8. -/
theorem v0_at (b : Fin 16) (c : Fin 384) (gy p1 gx p2 : Fin 8) :
    val_main_v0 (F := Ideal) x0 (ix6 b c gy p1 gx p2)
      = x0 (ix4 b c ⟨8 * gy.val + p1.val, by have := gy.isLt; have := p1.isLt; omega⟩
          ⟨8 * gx.val + p2.val, by have := gx.isLt; have := p2.isLt; omega⟩) := by
  unfold val_main_v0
  refine shapeCast_apply x0 Facts₀.shapeCasts_S16x384x64x64_S16x384x8x8x8x8 (ix6 b c gy p1 gx p2) _ ?_
  rw [Shape.rowMajor_val_four, Shape.rowMajor_val_six]
  show ((b.val * 384 + c.val) * 64 + (8 * gy.val + p1.val)) * 64 + (8 * gx.val + p2.val)
    = ((((b.val * 384 + c.val) * 8 + gy.val) * 8 + p1.val) * 8 + gx.val) * 8 + p2.val
  omega

/-- The channel axis moved last, the two block axes brought together. -/
theorem v1_at (b : Fin 16) (gy gx p1 p2 : Fin 8) (c : Fin 384) :
    val_main_v1 (F := Ideal) x0 (ix6 b gy gx p1 p2 c)
      = x0 (ix4 b c ⟨8 * gy.val + p1.val, by have := gy.isLt; have := p1.isLt; omega⟩
          ⟨8 * gx.val + p2.val, by have := gx.isLt; have := p2.isLt; omega⟩) := by
  rw [val_main_v1_apply]
  have e : idx_main_v1 (ix6 b gy gx p1 p2 c) = ix6 b c gy p1 gx p2 :=
    funext fun a => Fin.ext (by match a with | ⟨0, _⟩ => rfl | ⟨1, _⟩ => rfl | ⟨2, _⟩ => rfl | ⟨3, _⟩ => rfl | ⟨4, _⟩ => rfl | ⟨5, _⟩ => rfl)
  rw [e, v0_at]

/-- Token `n`, channel `k` of window `w` is a pixel of the image. -/
theorem v2_at (w : Fin 1024) (n : Fin 64) (k : Fin 384) :
    val_main_v2 (F := Ideal) x0 (ix3 w n k)
      = x0 (ix4 (⟨w.val / 64, by have := w.isLt; omega⟩ : Fin 16) k
          (⟨8 * (w.val / 8 % 8) + n.val / 8, by have := n.isLt; omega⟩ : Fin 64)
          (⟨8 * (w.val % 8) + n.val % 8, by omega⟩ : Fin 64)) := by
  have hw := w.isLt; have hn := n.isLt
  unfold val_main_v2
  refine (shapeCast_apply (val_main_v1 (F := Ideal) x0) Facts₀.shapeCasts_S16x8x8x8x8x384_S1024x64x384 (ix3 w n k)
    (ix6 (⟨w.val / 64, by omega⟩ : Fin 16) (⟨w.val / 8 % 8, by omega⟩ : Fin 8) (⟨w.val % 8, by omega⟩ : Fin 8)
      (⟨n.val / 8, by omega⟩ : Fin 8) (⟨n.val % 8, by omega⟩ : Fin 8) k) ?_).trans ?_
  · rw [Shape.rowMajor_val_six, Shape.rowMajor_val_three]
    show ((((w.val / 64 * 8 + w.val / 8 % 8) * 8 + w.val % 8) * 8 + n.val / 8) * 8 + n.val % 8) * 384 + k.val
      = (w.val * 64 + n.val) * 384 + k.val
    omega
  · rw [v1_at]

/-- The window's tokens are the specification's. -/
theorem xwin_eq_winTok (w : Fin 1024) :
    xwin x0 w = winTok x0 (⟨w.val / 64, by have := w.isLt; omega⟩ : Fin 16) (⟨w.val / 8 % 8, by omega⟩ : Fin 8)
      (⟨w.val % 8, by omega⟩ : Fin 8) :=
  funext fun n => funext fun k => v2_at x0 w n k

/-- The window that holds pixel (y, x) of image `b`. -/
theorem xwin_at_pixel (b : Fin 16) (y x : Fin 64) :
    xwin x0 (⟨(b.val * 8 + y.val / 8) * 8 + x.val / 8, by have := b.isLt; have := y.isLt; have := x.isLt; omega⟩ : Fin 1024)
      = winTok x0 b (⟨y.val / 8, by have := y.isLt; omega⟩ : Fin 8) (⟨x.val / 8, by have := x.isLt; omega⟩ : Fin 8) := by
  have hb := b.isLt; have hy := y.isLt; have hx := x.isLt
  refine funext fun n => funext fun k => (v2_at x0 _ n k).trans ?_
  unfold winTok
  refine congrArg x0 (funext fun a => Fin.ext ?_)
  match a with
  | ⟨0, _⟩ => show ((b.val * 8 + y.val / 8) * 8 + x.val / 8) / 64 = b.val; omega
  | ⟨1, _⟩ => rfl
  | ⟨2, _⟩ =>
    show 8 * (((b.val * 8 + y.val / 8) * 8 + x.val / 8) / 8 % 8) + n.val / 8 = 8 * (y.val / 8) + n.val / 8; omega
  | ⟨3, _⟩ =>
    show 8 * (((b.val * 8 + y.val / 8) * 8 + x.val / 8) % 8) + n.val % 8 = 8 * (x.val / 8) + n.val % 8; omega

end In

/-! ## Back into the image -/

section Out
variable (x0 : (⟨S16x384x64x64, .f32⟩ : BufTy).Contents (Elt Ideal)) (x1 : (⟨S2304x384, .f32⟩ : BufTy).Contents (Elt Ideal)) (x2 : (⟨S12x384, .f32⟩ : BufTy).Contents (Elt Ideal)) (x3 : (⟨S12, .f32⟩ : BufTy).Contents (Elt Ideal)) (x4 : (⟨S384x384, .f32⟩ : BufTy).Contents (Elt Ideal)) (x5 : (⟨S384x1536, .f32⟩ : BufTy).Contents (Elt Ideal)) (x6 x7 : (⟨S_, .f32⟩ : BufTy).Contents (Elt Ideal))

/-- The window and token axes cut back into blocks and pixels. -/
theorem v51_at (b : Fin 16) (gy gx p1 p2 : Fin 8) (c : Fin 384) :
    val_main_v51 (F := Ideal) x0 x1 x2 x3 x4 x5 x6 x7 (ix6 b gy gx p1 p2 c)
      = val_main_v50 (F := Ideal) x0 x1 x2 x3 x4 x5 x6 x7
          (ix3 (⟨(b.val * 8 + gy.val) * 8 + gx.val, by have := b.isLt; have := gy.isLt; have := gx.isLt; omega⟩ : Fin 1024)
            (⟨8 * p1.val + p2.val, by have := p1.isLt; have := p2.isLt; omega⟩ : Fin 64) c) := by
  unfold val_main_v51
  refine shapeCast_apply (val_main_v50 (F := Ideal) x0 x1 x2 x3 x4 x5 x6 x7) Facts₀.shapeCasts_S1024x64x384_S16x8x8x8x8x384
    (ix6 b gy gx p1 p2 c) _ ?_
  rw [Shape.rowMajor_val_three, Shape.rowMajor_val_six]
  show (((b.val * 8 + gy.val) * 8 + gx.val) * 64 + (8 * p1.val + p2.val)) * 384 + c.val
    = ((((b.val * 8 + gy.val) * 8 + gx.val) * 8 + p1.val) * 8 + p2.val) * 384 + c.val
  omega

/-- The channel axis moved back to second place, blocks and pixels interleaved again. -/
theorem v52_at (b : Fin 16) (c : Fin 384) (gy p1 gx p2 : Fin 8) :
    val_main_v52 (F := Ideal) x0 x1 x2 x3 x4 x5 x6 x7 (ix6 b c gy p1 gx p2)
      = val_main_v50 (F := Ideal) x0 x1 x2 x3 x4 x5 x6 x7
          (ix3 (⟨(b.val * 8 + gy.val) * 8 + gx.val, by have := b.isLt; have := gy.isLt; have := gx.isLt; omega⟩ : Fin 1024)
            (⟨8 * p1.val + p2.val, by have := p1.isLt; have := p2.isLt; omega⟩ : Fin 64) c) := by
  rw [val_main_v52_apply]
  have e : idx_main_v52 (ix6 b c gy p1 gx p2) = ix6 b gy gx p1 p2 c :=
    funext fun a => Fin.ext (by match a with | ⟨0, _⟩ => rfl | ⟨1, _⟩ => rfl | ⟨2, _⟩ => rfl | ⟨3, _⟩ => rfl | ⟨4, _⟩ => rfl | ⟨5, _⟩ => rfl)
  rw [e, v51_at]

/-- The result at pixel (y, x), channel `c` of image `b` is the per-window result at the pixel's window and token. -/
theorem v53_at (b : Fin 16) (c : Fin 384) (y x : Fin 64) :
    val_main_v53 (F := Ideal) x0 x1 x2 x3 x4 x5 x6 x7 (ix4 b c y x)
      = val_main_v50 (F := Ideal) x0 x1 x2 x3 x4 x5 x6 x7
          (ix3 (⟨(b.val * 8 + y.val / 8) * 8 + x.val / 8, by have := b.isLt; have := y.isLt; have := x.isLt; omega⟩ : Fin 1024)
            (⟨8 * (y.val % 8) + x.val % 8, by omega⟩ : Fin 64) c) := by
  have hy := y.isLt; have hx := x.isLt
  unfold val_main_v53
  refine (shapeCast_apply (val_main_v52 (F := Ideal) x0 x1 x2 x3 x4 x5 x6 x7) Facts₀.shapeCasts_S16x384x8x8x8x8_S16x384x64x64
    (ix4 b c y x)
    (ix6 b c (⟨y.val / 8, by omega⟩ : Fin 8) (⟨y.val % 8, by omega⟩ : Fin 8) (⟨x.val / 8, by omega⟩ : Fin 8)
      (⟨x.val % 8, by omega⟩ : Fin 8)) ?_).trans ?_
  · rw [Shape.rowMajor_val_six, Shape.rowMajor_val_four]
    show ((((b.val * 384 + c.val) * 8 + y.val / 8) * 8 + y.val % 8) * 8 + x.val / 8) * 8 + x.val % 8
      = ((b.val * 384 + c.val) * 64 + y.val) * 64 + x.val
    omega
  · rw [v52_at]

end Out

end Cert.RefSide

end
-- ==== Proof.RefHead.lean ====
/-
  The reference's attention, window by window.

  For a window `w` with tokens `xw = xwin x0 w`, the reference's stages read at coordinates are the specification's
  functions of `xw` and the fused weight: the fused projection is `proj`; its first 384 columns, split into 12 heads of
  32 channels, are the queries `qT`, the next 384 the keys `kT` (which are also the values); the scaled products are
  `score`; the row maximum taken from −∞ is `smax`; the shifted exponentials, their row sums and quotients are
  `pexp`, `psum`, `attn`; the weighted sum of the values is `head`.
-/
import proofs.«127096_j46669114638476_2_alg».proof.Proof.Gen.ReferenceIdeal.Read
import proofs.«127096_j46669114638476_2_alg».proof.Proof.Spec
import proofs.«127096_j46669114638476_2_alg».proof.Proof.RefWin
import Idealize.ShloMosaic.Lib.Pipeline.Value
import Idealize.ShloMosaic.Lib.ValueIdx
import Idealize.ShloMosaic.PureOps.Ideal.Laws
import Idealize.ShloMosaic.PureOps.Reduce

noncomputable section

namespace Cert.RefSide

open Idealize.ShloMosaic Idealize.ShloMosaic.ValueIdx Cert.ReferenceIdeal Cert.ReferenceIdeal.Read Cert.WinAttn

section
variable (x0 : (⟨S16x384x64x64, .f32⟩ : BufTy).Contents (Elt Ideal)) (x1 : (⟨S2304x384, .f32⟩ : BufTy).Contents (Elt Ideal)) (w : Fin 1024)

/-! ## The fused projection and its three column ranges -/

/-- The fused projection at (w, n, f): token `n` of the window against row `f` of the fused weight. -/
theorem v3_at (n : Fin 64) (f : Fin 2304) :
    val_main_v3 (F := Ideal) x0 x1 (ix3 w n f) = proj (xwin x0 w) x1 n f := by
  rw [val_main_v3_apply]
  unfold proj
  refine Finset.sum_congr rfl fun k _ => ?_
  have e1 : lidx_main_v3 (ix3 w n f) k = ix3 w n k :=
    funext fun a => Fin.ext (by match a with | ⟨0, _⟩ => rfl | ⟨1, _⟩ => rfl | ⟨2, _⟩ => rfl)
  have e2 : ridx_main_v3 (ix3 w n f) k = ix2 f k :=
    funext fun a => Fin.ext (by match a with | ⟨0, _⟩ => rfl | ⟨1, _⟩ => rfl)
  rw [e1, e2]
  rfl

/-- Columns 0 … 383 of the fused projection. -/
theorem v4_at (n : Fin 64) (j : Fin 384) :
    val_main_v4 (F := Ideal) x0 x1 (ix3 w n j) = proj (xwin x0 w) x1 n (qcol j) := by
  rw [val_main_v4_apply]
  have e : idx_main_v4 (ix3 w n j) = ix3 w n (qcol j) :=
    funext fun a => Fin.ext (by match a with | ⟨0, _⟩ => rfl | ⟨1, _⟩ => rfl | ⟨2, _⟩ => rfl)
  rw [e, v3_at]

/-- Columns 384 … 767 of the fused projection. -/
theorem v5_at (n : Fin 64) (j : Fin 384) :
    val_main_v5 (F := Ideal) x0 x1 (ix3 w n j) = proj (xwin x0 w) x1 n (kcol j) := by
  rw [val_main_v5_apply]
  have e : idx_main_v5 (ix3 w n j) = ix3 w n (kcol j) :=
    funext fun a => Fin.ext (by match a with | ⟨0, _⟩ => rfl | ⟨1, _⟩ => rfl | ⟨2, _⟩ => rfl)
  rw [e, v3_at]

/-- Columns 768 … 2303 of the fused projection. -/
theorem v6_at (n : Fin 64) (f : Fin 1536) :
    val_main_v6 (F := Ideal) x0 x1 (ix3 w n f) = proj (xwin x0 w) x1 n (fcol f) := by
  rw [val_main_v6_apply]
  have e : idx_main_v6 (ix3 w n f) = ix3 w n (fcol f) :=
    funext fun a => Fin.ext (by match a with | ⟨0, _⟩ => rfl | ⟨1, _⟩ => rfl | ⟨2, _⟩ => rfl)
  rw [e, v3_at]

/-! ## Queries and keys by head -/

/-- Splitting 384 channels into 12 heads of 32: the entry (w, n, h, d) of the split is channel 32·h + d. -/
theorem split_heads_idx (idx : S1024x64x12x32.Idx → S1024x64x384.Idx) (n : Fin 64) (h : Fin 12) (d : Fin 32)
    (h0 : (idx (ix4 w n h d) 0).val = (((w.val * 64 + n.val) * 12 + h.val) * 32 + d.val) / 24576)
    (h1 : (idx (ix4 w n h d) 1).val = (((w.val * 64 + n.val) * 12 + h.val) * 32 + d.val) / 384 % 64)
    (h2 : (idx (ix4 w n h d) 2).val = (((w.val * 64 + n.val) * 12 + h.val) * 32 + d.val) % 384) :
    idx (ix4 w n h d) = ix3 w n (hcol h d) := by
  have hw := w.isLt; have hn := n.isLt; have hh := h.isLt; have hd := d.isLt
  refine funext fun a => Fin.ext ?_
  match a with
  | ⟨0, _⟩ => exact h0.trans (by show _ = w.val; omega)
  | ⟨1, _⟩ => exact h1.trans (by show _ = n.val; omega)
  | ⟨2, _⟩ => exact h2.trans (by show _ = 32 * h.val + d.val; omega)

/-- The queries before the head axis is moved forward. -/
theorem v7_at (n : Fin 64) (h : Fin 12) (d : Fin 32) :
    val_main_v7 (F := Ideal) x0 x1 (ix4 w n h d) = qT (xwin x0 w) x1 n (hcol h d) := by
  rw [val_main_v7_apply, split_heads_idx w idx_main_v7 n h d rfl rfl rfl, v4_at]
  rfl

/-- The queries of head `h`. -/
theorem v8_at (h : Fin 12) (n : Fin 64) (d : Fin 32) :
    val_main_v8 (F := Ideal) x0 x1 (ix4 w h n d) = qT (xwin x0 w) x1 n (hcol h d) := by
  rw [val_main_v8_apply]
  have e : idx_main_v8 (ix4 w h n d) = ix4 w n h d :=
    funext fun a => Fin.ext (by match a with | ⟨0, _⟩ => rfl | ⟨1, _⟩ => rfl | ⟨2, _⟩ => rfl | ⟨3, _⟩ => rfl)
  rw [e, v7_at]

/-- The keys before the head axis is moved forward. -/
theorem v9_at (n : Fin 64) (h : Fin 12) (d : Fin 32) :
    val_main_v9 (F := Ideal) x0 x1 (ix4 w n h d) = kT (xwin x0 w) x1 n (hcol h d) := by
  rw [val_main_v9_apply, split_heads_idx w idx_main_v9 n h d rfl rfl rfl, v5_at]
  rfl

/-- The keys (and values) of head `h`. -/
theorem v10_at (h : Fin 12) (n : Fin 64) (d : Fin 32) :
    val_main_v10 (F := Ideal) x0 x1 (ix4 w h n d) = kT (xwin x0 w) x1 n (hcol h d) := by
  rw [val_main_v10_apply]
  have e : idx_main_v10 (ix4 w h n d) = ix4 w n h d :=
    funext fun a => Fin.ext (by match a with | ⟨0, _⟩ => rfl | ⟨1, _⟩ => rfl | ⟨2, _⟩ => rfl | ⟨3, _⟩ => rfl)
  rw [e, v9_at]

/-! ## Scores -/

/-- The products of queries and keys over a head's 32 channels. -/
theorem v11_at (h : Fin 12) (n m : Fin 64) :
    val_main_v11 (F := Ideal) x0 x1 (ix4 w h n m)
      = ∑ d : Fin 32, qT (xwin x0 w) x1 n (hcol h d) * kT (xwin x0 w) x1 m (hcol h d) := by
  rw [val_main_v11_apply]
  refine Finset.sum_congr rfl fun d _ => ?_
  have e1 : lidx_main_v11 (ix4 w h n m) d = ix4 w h n d :=
    funext fun a => Fin.ext (by match a with | ⟨0, _⟩ => rfl | ⟨1, _⟩ => rfl | ⟨2, _⟩ => rfl | ⟨3, _⟩ => rfl)
  have e2 : ridx_main_v11 (ix4 w h n m) d = ix4 w h m d :=
    funext fun a => Fin.ext (by match a with | ⟨0, _⟩ => rfl | ⟨1, _⟩ => rfl | ⟨2, _⟩ => rfl | ⟨3, _⟩ => rfl)
  rw [e1, e2, v8_at, v10_at]

/-- The scaled scores. -/
theorem v13_at (h : Fin 12) (n m : Fin 64) :
    val_main_v13 (F := Ideal) x0 x1 (ix4 w h n m) = score (qT (xwin x0 w) x1) (kT (xwin x0 w) x1) h n m := by
  rw [val_main_v13_apply, v11_at, val_main_v12_apply, val_main_cst_apply]
  rfl

/-! ## The row maximum -/

/-- The maximum over the key axis, folded from the initial value −∞. -/
theorem v14_at (h : Fin 12) (n : Fin 64) :
    val_main_v14 (F := Ideal) x0 x1 (ix3 w h n) = smax (qT (xwin x0 w) x1) (kT (xwin x0 w) x1) h n := by
  unfold val_main_v14
  have hy : ∀ m : Fin 64, val_main_v13 (F := Ideal) x0 x1 (ix4 w h n m) = score (qT (xwin x0 w) x1) (kT (xwin x0 w) x1) h n m := fun m => v13_at x0 x1 w h n m
  generalize val_main_v13 (F := Ideal) x0 x1 = y at hy
  rw [Host.reduce_eq_fold_single (FloatOps.maximumf (F := Ideal) (φ := .f32)) y (val_main_cst_0 (F := Ideal))
    Facts₀.reducesTo_S1024x12x64x64_S1024x12x64_d3 (by decide) Facts₀.h_S_ (ix3 w h n)]
  unfold smax
  refine Finset.fold_congr fun m _ => ?_
  rw [← hy m]
  exact congrArg y (funext fun a => Fin.ext (by match a with | ⟨0, _⟩ => rfl | ⟨1, _⟩ => rfl | ⟨2, _⟩ => rfl | ⟨3, _⟩ => rfl))

/-- Taking the maximum with −∞ once more changes nothing: −∞ is already below the fold that starts from it. -/
theorem v16_at (h : Fin 12) (n : Fin 64) :
    val_main_v16 (F := Ideal) x0 x1 (ix3 w h n) = smax (qT (xwin x0 w) x1) (kT (xwin x0 w) x1) h n := by
  rw [val_main_v16_apply, v14_at, val_main_v15_apply, val_main_cst_1_apply]
  unfold smax
  exact max_eq_right ((Finset.le_fold_max _).mpr (Or.inl le_rfl))

/-- The row maximum repeated along the key axis. -/
theorem v18_at (h : Fin 12) (n m : Fin 64) :
    val_main_v18 (F := Ideal) x0 x1 (ix4 w h n m) = smax (qT (xwin x0 w) x1) (kT (xwin x0 w) x1) h n := by
  rw [val_main_v18_apply, val_main_v17_apply]
  have e : idx_main_v17 (idx_main_v18 (ix4 w h n m)) = ix3 w h n :=
    funext fun a => Fin.ext (by match a with | ⟨0, _⟩ => rfl | ⟨1, _⟩ => rfl | ⟨2, _⟩ => rfl)
  rw [e, v16_at]

/-! ## Exponentials, row sums, weights -/

/-- The shifted exponentials. -/
theorem v20_at (h : Fin 12) (n m : Fin 64) :
    val_main_v20 (F := Ideal) x0 x1 (ix4 w h n m) = pexp (qT (xwin x0 w) x1) (kT (xwin x0 w) x1) h n m := by
  rw [val_main_v20_apply, val_main_v19_apply, v13_at, v18_at]
  rfl

/-- The row sums (the sum's initial value is zero). -/
theorem v21_at (h : Fin 12) (n : Fin 64) :
    val_main_v21 (F := Ideal) x0 x1 (ix3 w h n) = psum (qT (xwin x0 w) x1) (kT (xwin x0 w) x1) h n := by
  rw [val_main_v21_apply, val_main_cst_2_apply]
  unfold psum
  show Ideal.ofBits .f32 0x00000000#32 + _ = _
  rw [Ideal.ofBits_zero_f32, zero_add]
  refine Finset.sum_congr rfl fun m _ => ?_
  have e : idx_main_v21 (ix3 w h n) m = ix4 w h n m :=
    funext fun a => Fin.ext (by match a with | ⟨0, _⟩ => rfl | ⟨1, _⟩ => rfl | ⟨2, _⟩ => rfl | ⟨3, _⟩ => rfl)
  rw [e, v20_at]

/-- The row sum repeated along the key axis. -/
theorem v23_at (h : Fin 12) (n m : Fin 64) :
    val_main_v23 (F := Ideal) x0 x1 (ix4 w h n m) = psum (qT (xwin x0 w) x1) (kT (xwin x0 w) x1) h n := by
  rw [val_main_v23_apply, val_main_v22_apply]
  have e : idx_main_v22 (idx_main_v23 (ix4 w h n m)) = ix3 w h n :=
    funext fun a => Fin.ext (by match a with | ⟨0, _⟩ => rfl | ⟨1, _⟩ => rfl | ⟨2, _⟩ => rfl)
  rw [e, v21_at]

/-- The normalised weights. -/
theorem v24_at (h : Fin 12) (n m : Fin 64) :
    val_main_v24 (F := Ideal) x0 x1 (ix4 w h n m) = attn (qT (xwin x0 w) x1) (kT (xwin x0 w) x1) h n m := by
  rw [val_main_v24_apply, v20_at, v23_at]
  rfl

/-! ## The weighted values -/

/-- The attention output of head `h`: the weights against the keys, which are also the values. -/
theorem v25_at (h : Fin 12) (n : Fin 64) (d : Fin 32) :
    val_main_v25 (F := Ideal) x0 x1 (ix4 w h n d) = head (qT (xwin x0 w) x1) (kT (xwin x0 w) x1) h n d := by
  rw [val_main_v25_apply]
  unfold head
  refine Finset.sum_congr rfl fun m _ => ?_
  have e1 : lidx_main_v25 (ix4 w h n d) m = ix4 w h n m :=
    funext fun a => Fin.ext (by match a with | ⟨0, _⟩ => rfl | ⟨1, _⟩ => rfl | ⟨2, _⟩ => rfl | ⟨3, _⟩ => rfl)
  have e2 : ridx_main_v25 (ix4 w h n d) m = ix4 w h m d :=
    funext fun a => Fin.ext (by match a with | ⟨0, _⟩ => rfl | ⟨1, _⟩ => rfl | ⟨2, _⟩ => rfl | ⟨3, _⟩ => rfl)
  rw [e1, e2, v24_at, v10_at]

end

end Cert.RefSide

end
-- ==== Proof.RefGate.lean ====
/-
  The reference's gate, window by window.

  For a window `w` with tokens `xw = xwin x0 w`: the projection of token `n` by row `h` of the gate weight plus the
  bias is the specification's `gate`; the reference then spells the logistic function out as
  1 / (1 + e^(−x)), with the constant 1 given by its bit pattern, and repeats the result along a head's 32 channels.
-/
import proofs.«127096_j46669114638476_2_alg».proof.Proof.Gen.ReferenceIdeal.Read
import proofs.«127096_j46669114638476_2_alg».proof.Proof.Spec
import proofs.«127096_j46669114638476_2_alg».proof.Proof.RefWin
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.WinAttn

/-- The pattern of the single-precision number one denotes the real number 1. -/
theorem ofBits_one_f32 : Ideal.ofBits .f32 0x3F800000#32 = 1 := by
  simp [Ideal.ofBits, Ideal.ieee, -EReal.coe_mul]; norm_num

section
variable (x0 : (⟨S16x384x64x64, .f32⟩ : BufTy).Contents (Elt Ideal)) (x2 : (⟨S12x384, .f32⟩ : BufTy).Contents (Elt Ideal)) (x3 : (⟨S12, .f32⟩ : BufTy).Contents (Elt Ideal)) (w : Fin 1024)

/-- Token `n` of the window against row `h` of the gate weight. -/
theorem v26_at (n : Fin 64) (h : Fin 12) :
    val_main_v26 (F := Ideal) x0 x2 (ix3 w n h) = ∑ k : Fin 384, xwin x0 w n k * x2 (ix2 h k) := by
  rw [val_main_v26_apply]
  refine Finset.sum_congr rfl fun k _ => ?_
  have e1 : lidx_main_v26 (ix3 w n h) k = ix3 w n k :=
    funext fun a => Fin.ext (by match a with | ⟨0, _⟩ => rfl | ⟨1, _⟩ => rfl | ⟨2, _⟩ => rfl)
  have e2 : ridx_main_v26 (ix3 w n h) k = ix2 h k :=
    funext fun a => Fin.ext (by match a with | ⟨0, _⟩ => rfl | ⟨1, _⟩ => rfl)
  rw [e1, e2]
  rfl

/-- The bias repeated over windows and tokens. -/
theorem v28_at (n : Fin 64) (h : Fin 12) :
    val_main_v28 (F := Ideal) x3 (ix3 w n h) = x3 (ix1 h) := by
  rw [val_main_v28_apply, val_main_v27_apply]
  exact congrArg x3 (funext fun a => Fin.ext (by match a with | ⟨0, _⟩ => rfl))

/-- The gate's pre-activation. -/
theorem v29_at (n : Fin 64) (h : Fin 12) :
    val_main_v29 (F := Ideal) x0 x2 x3 (ix3 w n h) = gate (xwin x0 w) x2 x3 n h := by
  rw [val_main_v29_apply, v26_at, v28_at]
  rfl

/-- The pre-activation with the head axis moved forward and a unit axis appended. -/
theorem v31_at (h : Fin 12) (n : Fin 64) (z : Fin 1) :
    val_main_v31 (F := Ideal) x0 x2 x3 (ix4 w h n z) = gate (xwin x0 w) x2 x3 n h := by
  rw [val_main_v31_apply, val_main_v30_apply]
  have e : idx_main_v30 (idx_main_v31 (ix4 w h n z)) = ix3 w n h :=
    funext fun a => Fin.ext (by match a with | ⟨0, _⟩ => rfl | ⟨1, _⟩ => rfl | ⟨2, _⟩ => rfl)
  rw [e, v29_at]

/-- 1 / (1 + e^(−x)) at the pre-activation is the logistic function of it. -/
theorem v37_at (h : Fin 12) (n : Fin 64) (z : Fin 1) :
    val_main_v37 (F := Ideal) x0 x2 x3 (ix4 w h n z) = Ideal.logistic (gate (xwin x0 w) x2 x3 n h) := by
  rw [val_main_v37_apply, val_main_v36_apply, val_main_cst_4_apply, val_main_v35_apply, val_main_v34_apply,
    val_main_cst_3_apply, val_main_v33_apply, val_main_v32_apply, v31_at]
  show Ideal.div (Ideal.ofBits .f32 0x3F800000#32) (Ideal.ofBits .f32 0x3F800000#32 + Ideal.exp (-(gate (xwin x0 w) x2 x3 n h))) = _
  rw [ofBits_one_f32]
  rfl

/-- The gate repeated along a head's 32 channels. -/
theorem v38_at (h : Fin 12) (n : Fin 64) (d : Fin 32) :
    val_main_v38 (F := Ideal) x0 x2 x3 (ix4 w h n d) = Ideal.logistic (gate (xwin x0 w) x2 x3 n h) := by
  rw [val_main_v38_apply]
  have e : idx_main_v38 (ix4 w h n d) = ix4 w h n (0 : Fin 1) :=
    funext fun a => Fin.ext (by match a with | ⟨0, _⟩ => rfl | ⟨1, _⟩ => rfl | ⟨2, _⟩ => rfl | ⟨3, _⟩ => rfl)
  rw [e, v37_at]

end

end Cert.RefSide

end
-- ==== Proof.RefFfn.lean ====
/-
  The reference's feed-forward activation, window by window.

  For a window `w` with tokens `xw = xwin x0 w`: columns 768 … 2303 of the fused projection go through
  max(·, 0), are squared, scaled by the first scalar argument and shifted by the second — the specification's `ffn`.
-/
import proofs.«127096_j46669114638476_2_alg».proof.Proof.Gen.ReferenceIdeal.Read
import proofs.«127096_j46669114638476_2_alg».proof.Proof.Spec
import proofs.«127096_j46669114638476_2_alg».proof.Proof.RefWin
import proofs.«127096_j46669114638476_2_alg».proof.Proof.RefHead
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.WinAttn

section
variable (x0 : (⟨S16x384x64x64, .f32⟩ : BufTy).Contents (Elt Ideal)) (x1 : (⟨S2304x384, .f32⟩ : BufTy).Contents (Elt Ideal)) (x6 x7 : (⟨S_, .f32⟩ : BufTy).Contents (Elt Ideal)) (w : Fin 1024)

/-- The pre-activation cut off below at zero. -/
theorem v42_at (n : Fin 64) (f : Fin 1536) :
    val_main_v42 (F := Ideal) x0 x1 (ix3 w n f)
      = max (proj (xwin x0 w) x1 n (fcol f)) (Ideal.ofBits .f32 0x00000000#32) := by
  rw [val_main_v42_apply, v6_at, val_main_call0_v0_apply, val_main_call0_cst_apply]
  rfl

/-- Scale · max(·, 0)² + bias, the two scalars read at the scalar shape's one index. -/
theorem v47_at (n : Fin 64) (f : Fin 1536) :
    val_main_v47 (F := Ideal) x0 x1 x6 x7 (ix3 w n f) = ffn (xwin x0 w) x1 (x6 ix0) (x7 ix0) n f := by
  rw [val_main_v47_apply, val_main_v45_apply, val_main_v44_apply, val_main_v43_apply, v42_at, val_main_v46_apply]
  rfl

end

end Cert.RefSide

end
-- ==== Proof.RefSide.lean ====
/-
  The reference's last stage is the specification's function of the eight argument arrays.

  Per window: the heads' outputs times the logistic of the gate, with the head and channel-in-head axes flattened back to
  384 channels, are the specification's `gated`; the two output projections added are `out`. Then the rearrangement back
  into the image puts, at pixel (y, x) of image `b`, token 8·(y mod 8) + x mod 8 of the window that holds the pixel,
  whose tokens are the specification's `winTok`: the result is `G`.
-/
import proofs.«127096_j46669114638476_2_alg».proof.Proof.Gen.ReferenceIdeal.Read
import proofs.«127096_j46669114638476_2_alg».proof.Proof.Spec
import proofs.«127096_j46669114638476_2_alg».proof.Proof.RefWin
import proofs.«127096_j46669114638476_2_alg».proof.Proof.RefLayout
import proofs.«127096_j46669114638476_2_alg».proof.Proof.RefHead
import proofs.«127096_j46669114638476_2_alg».proof.Proof.RefGate
import proofs.«127096_j46669114638476_2_alg».proof.Proof.RefFfn
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.WinAttn

section
variable (x0 : (⟨S16x384x64x64, .f32⟩ : BufTy).Contents (Elt Ideal)) (x1 : (⟨S2304x384, .f32⟩ : BufTy).Contents (Elt Ideal)) (x2 : (⟨S12x384, .f32⟩ : BufTy).Contents (Elt Ideal)) (x3 : (⟨S12, .f32⟩ : BufTy).Contents (Elt Ideal)) (x4 : (⟨S384x384, .f32⟩ : BufTy).Contents (Elt Ideal)) (x5 : (⟨S384x1536, .f32⟩ : BufTy).Contents (Elt Ideal)) (x6 x7 : (⟨S_, .f32⟩ : BufTy).Contents (Elt Ideal)) (w : Fin 1024)

/-! ## The gated heads -/

/-- A head's output times the logistic of its gate. -/
theorem v39_at (h : Fin 12) (n : Fin 64) (d : Fin 32) :
    val_main_v39 (F := Ideal) x0 x1 x2 x3 (ix4 w h n d)
      = head (qT (xwin x0 w) x1) (kT (xwin x0 w) x1) h n d * Ideal.logistic (gate (xwin x0 w) x2 x3 n h) := by
  rw [val_main_v39_apply, v25_at, v38_at]
  rfl

/-- Flattening (head, channel in head) back to 384 channels: channel `j` is channel `j mod 32` of head `j / 32`. -/
theorem v41_at (n : Fin 64) (j : Fin 384) :
    val_main_v41 (F := Ideal) x0 x1 x2 x3 (ix3 w n j) = gated (xwin x0 w) x1 x2 x3 n j := by
  have hw := w.isLt; have hn := n.isLt; have hj := j.isLt
  rw [val_main_v41_apply]
  have e : idx_main_v41 (ix3 w n j) = ix4 w n (hOf j) (dOf j) :=
    funext fun a => Fin.ext (by
      match a with
      | ⟨0, _⟩ => show ((w.val * 64 + n.val) * 384 + j.val) / 24576 = w.val; omega
      | ⟨1, _⟩ => show ((w.val * 64 + n.val) * 384 + j.val) / 384 % 64 = n.val; omega
      | ⟨2, _⟩ => show ((w.val * 64 + n.val) * 384 + j.val) / 32 % 12 = j.val / 32; omega
      | ⟨3, _⟩ => show ((w.val * 64 + n.val) * 384 + j.val) % 32 = j.val % 32; omega)
  rw [e, val_main_v40_apply]
  have e' : idx_main_v40 (ix4 w n (hOf j) (dOf j)) = ix4 w (hOf j) n (dOf j) :=
    funext fun a => Fin.ext (by match a with | ⟨0, _⟩ => rfl | ⟨1, _⟩ => rfl | ⟨2, _⟩ => rfl | ⟨3, _⟩ => rfl)
  rw [e', v39_at]
  rfl

/-! ## The two output projections -/

/-- The per-window result: the gated heads through the attention output weight plus the activations through the
    feed-forward output weight, in the reference's order of the two sums. -/
theorem v50_at (n : Fin 64) (o : Fin 384) :
    val_main_v50 (F := Ideal) x0 x1 x2 x3 x4 x5 x6 x7 (ix3 w n o)
      = out (xwin x0 w) x1 x2 x3 x4 x5 (x6 ix0) (x7 ix0) n o := by
  rw [val_main_v50_apply, val_main_v48_apply, val_main_v49_apply]
  unfold out
  show (∑ j : Fin 384, _) + (∑ f : Fin 1536, _) = _
  refine congrArg₂ (· + ·) (Finset.sum_congr rfl fun j _ => ?_) (Finset.sum_congr rfl fun f _ => ?_)
  · have e1 : lidx_main_v48 (ix3 w n o) j = ix3 w n j :=
      funext fun a => Fin.ext (by match a with | ⟨0, _⟩ => rfl | ⟨1, _⟩ => rfl | ⟨2, _⟩ => rfl)
    have e2 : ridx_main_v48 (ix3 w n o) j = ix2 o j :=
      funext fun a => Fin.ext (by match a with | ⟨0, _⟩ => rfl | ⟨1, _⟩ => rfl)
    rw [e1, e2, v41_at]
  · have e1 : lidx_main_v49 (ix3 w n o) f = ix3 w n f :=
      funext fun a => Fin.ext (by match a with | ⟨0, _⟩ => rfl | ⟨1, _⟩ => rfl | ⟨2, _⟩ => rfl)
    have e2 : ridx_main_v49 (ix3 w n o) f = ix2 o f :=
      funext fun a => Fin.ext (by match a with | ⟨0, _⟩ => rfl | ⟨1, _⟩ => rfl)
    rw [e1, e2, v47_at]

end

/-! ## The whole image -/

/-- The reference's last stage is `G` of the eight argument arrays. -/
theorem ref_eq
    (x0 : (⟨Cert.ReferenceIdeal.S16x384x64x64, .f32⟩ : BufTy).Contents (Elt Ideal)) (x1 : (⟨Cert.ReferenceIdeal.S2304x384, .f32⟩ : BufTy).Contents (Elt Ideal))
    (x2 : (⟨Cert.ReferenceIdeal.S12x384, .f32⟩ : BufTy).Contents (Elt Ideal)) (x3 : (⟨Cert.ReferenceIdeal.S12, .f32⟩ : BufTy).Contents (Elt Ideal))
    (x4 : (⟨Cert.ReferenceIdeal.S384x384, .f32⟩ : BufTy).Contents (Elt Ideal)) (x5 : (⟨Cert.ReferenceIdeal.S384x1536, .f32⟩ : BufTy).Contents (Elt Ideal))
    (x6 x7 : (⟨Cert.ReferenceIdeal.S_, .f32⟩ : BufTy).Contents (Elt Ideal)) :
    Cert.ReferenceIdeal.Read.val_main_v53 (F := Ideal) x0 x1 x2 x3 x4 x5 x6 x7 = Cert.WinAttn.G x0 x1 x2 x3 x4 x5 x6 x7 := by
  funext i
  obtain ⟨b, c, y, x, rfl⟩ : ∃ (b : Fin 16) (c : Fin 384) (y x : Fin 64), i = ix4 b c y x := ⟨i 0, i 1, i 2, i 3, eq_ix4 i⟩
  rw [G_ix4, v53_at, v50_at, xwin_at_pixel]
  rfl

end Cert.RefSide

end
-- ==== Proof.KernelFlat.lean ====
/-
  The token-by-channel stages of the kernel body, read at an index.

  The body lays the block's 8 windows of 64 tokens out as 512 rows of 384 channels (row 64·t + n is token `n`
  of window `t`), multiplies the rows by the weight matrices (queries and gate logits from one product, keys from
  a second, feed-forward pre-activations from a third), applies the squared-rectifier activation and multiplies
  by the feed-forward output weight.
-/
import proofs.«127096_j46669114638476_2_alg».proof.Proof.Gen.KernelIdeal.Skeleton
import proofs.«127096_j46669114638476_2_alg».proof.Proof.Spec
import Idealize.ShloMosaic.Lib.Pipeline.Value
import Idealize.ShloMosaic.Lib.ValueIdx
import Idealize.ShloMosaic.PureOps.Ideal.Laws

noncomputable section

namespace Cert.KernelBody

open Cert.KernelIdeal Cert.KernelIdeal.Gen Idealize.ShloMosaic Idealize.ShloMosaic.ValueIdx Cert.WinAttn

/-- The tokens of window `gx` of the input block: token `n` is the block's pixel (n / 8, 8·gx + n mod 8). -/
def blkTok (x0 : Vec Ideal S1x384x8x64 .f32) (gx : Fin 8) : Fin 64 → Fin 384 → EReal :=
  fun n k => x0 (ix4 0 k ⟨n.val / 8, by have := n.isLt; omega⟩ ⟨8 * gx.val + n.val % 8, by have := gx.isLt; omega⟩)

/-- Row 64·t + n of the 512 rows. -/
def row (t : Fin 8) (n : Fin 64) : Fin 512 := ⟨64 * t.val + n.val, by have := t.isLt; have := n.isLt; omega⟩

/-! ## The block as rows of tokens -/

/-- The block [1, 384, 8, 64] re-laid as [512 tokens, 384 channels]. -/
def tokV (x0 : Vec Ideal S1x384x8x64 .f32) : FVec Ideal S512x384 .f32 :=
  shapeCast S512x384 (shapeCast S8x64x384 (transpose S1x8x8x8x384 [1, 3, 2, 4, 0]
    (shapeCast S384x1x8x8x8 (shapeCast S384x8x64 x0 shapeCasts_S1x384x8x64_S384x8x64) shapeCasts_S384x8x64_S384x1x8x8x8)
    transposes_S384x1x8x8x8_p1_3_2_4_0_S1x8x8x8x384) shapeCasts_S1x8x8x8x384_S8x64x384) shapeCasts_S8x64x384_S512x384

theorem pay3_eq (x0 : Vec Ideal S1x384x8x64 .f32) : k0_pay3 x0 = truncf .bf16 (tokV x0) bitsLt_bf16_f32 := rfl

/-- Row (t, n), channel k of the re-laid block is channel k of token n of window t. -/
theorem tokV_apply (x0 : Vec Ideal S1x384x8x64 .f32) (t : Fin 8) (n : Fin 64) (k : Fin 384) :
    tokV x0 (ix2 (row t n) k) = blkTok x0 t n k := by
  have ht := t.isLt
  have hn := n.isLt
  have hk := k.isLt
  unfold tokV blkTok
  refine (shapeCast_apply _ shapeCasts_S8x64x384_S512x384 (ix2 (row t n) k) (ix3 t n k) (by
    rewrite [Shape.rowMajor_val_three, Shape.rowMajor_val_two]
    show (t.val * 64 + n.val) * 384 + k.val = (64 * t.val + n.val) * 384 + k.val
    omega)).trans ?_
  refine (shapeCast_apply _ shapeCasts_S1x8x8x8x384_S8x64x384 (ix3 t n k)
    (ix5 (0 : Fin 1) t (⟨n.val / 8, by omega⟩ : Fin 8) (⟨n.val % 8, by omega⟩ : Fin 8) k) (by
    rewrite [Shape.rowMajor_val_five, Shape.rowMajor_val_three]
    show (((0 * 8 + t.val) * 8 + n.val / 8) * 8 + n.val % 8) * 384 + k.val = (t.val * 64 + n.val) * 384 + k.val
    omega)).trans ?_
  refine (transpose_apply [1, 3, 2, 4, 0] _ transposes_S384x1x8x8x8_p1_3_2_4_0_S1x8x8x8x384
    (ix5 (0 : Fin 1) t (⟨n.val / 8, by omega⟩ : Fin 8) (⟨n.val % 8, by omega⟩ : Fin 8) k)
    (ix5 k (0 : Fin 1) (⟨n.val / 8, by omega⟩ : Fin 8) t (⟨n.val % 8, by omega⟩ : Fin 8)) (fun b => by
    match b with
    | ⟨0, _⟩ => rfl
    | ⟨1, _⟩ => rfl
    | ⟨2, _⟩ => rfl
    | ⟨3, _⟩ => rfl
    | ⟨4, _⟩ => rfl)).trans ?_
  refine (shapeCast_apply _ shapeCasts_S384x8x64_S384x1x8x8x8
    (ix5 k (0 : Fin 1) (⟨n.val / 8, by omega⟩ : Fin 8) t (⟨n.val % 8, by omega⟩ : Fin 8))
    (ix3 k (⟨n.val / 8, by omega⟩ : Fin 8) (⟨8 * t.val + n.val % 8, by omega⟩ : Fin 64)) (by
    rewrite [Shape.rowMajor_val_three, Shape.rowMajor_val_five]
    show (k.val * 8 + n.val / 8) * 64 + (8 * t.val + n.val % 8) = (((k.val * 1 + 0) * 8 + n.val / 8) * 8 + t.val) * 8 + n.val % 8
    omega)).trans ?_
  exact shapeCast_apply _ shapeCasts_S1x384x8x64_S384x8x64
    (ix3 k (⟨n.val / 8, by omega⟩ : Fin 8) (⟨8 * t.val + n.val % 8, by omega⟩ : Fin 64))
    (ix4 (0 : Fin 1) k (⟨n.val / 8, by omega⟩ : Fin 8) (⟨8 * t.val + n.val % 8, by omega⟩ : Fin 64)) (by
    rewrite [Shape.rowMajor_val_four, Shape.rowMajor_val_three]
    show ((0 * 384 + k.val) * 8 + n.val / 8) * 64 + (8 * t.val + n.val % 8) = (k.val * 8 + n.val / 8) * 64 + (8 * t.val + n.val % 8)
    omega)

/-! ## The four plain matrix products -/

theorem mmQG_lhs (i : S512x512.Idx) (q : dot_S512x384_S384x512_S512x512_1_0_0_1_n_n.contr.Idx) :
    dot_S512x384_S384x512_S512x512_1_0_0_1_n_n.lhsIdx i q = ix2 (i 0) ⟨(q ⟨0, by decide⟩).val, (q ⟨0, by decide⟩).isLt⟩ := by
  funext a
  refine Fin.ext ?_
  match a with
  | ⟨0, _⟩ =>
    show (dot_S512x384_S384x512_S512x512_1_0_0_1_n_n.lhsIdx i q 0).val = (i 0).val
    unfold DotDims.lhsIdx
    rw [dif_neg (show ¬(0 : Fin S512x384.rank) ∈ dot_S512x384_S384x512_S512x512_1_0_0_1_n_n.lhsBatch by decide), dif_pos (show (0 : Fin S512x384.rank) ∈ dot_S512x384_S384x512_S512x512_1_0_0_1_n_n.lhsNonContracting by decide)]
    rfl
  | ⟨1, _⟩ => exact dot_S512x384_S384x512_S512x512_1_0_0_1_n_n.lhsIdx_val_of_single rfl i q

theorem mmQG_rhs (i : S512x512.Idx) (q : dot_S512x384_S384x512_S512x512_1_0_0_1_n_n.contr.Idx) :
    dot_S512x384_S384x512_S512x512_1_0_0_1_n_n.rhsIdx i q = ix2 ⟨(q ⟨0, by decide⟩).val, (q ⟨0, by decide⟩).isLt⟩ (i 1) := by
  funext a
  refine Fin.ext ?_
  match a with
  | ⟨0, _⟩ => exact dot_S512x384_S384x512_S512x512_1_0_0_1_n_n.rhsIdx_val_of_single rfl i q
  | ⟨1, _⟩ =>
    show (dot_S512x384_S384x512_S512x512_1_0_0_1_n_n.rhsIdx i q 1).val = (i 1).val
    unfold DotDims.rhsIdx
    rw [dif_neg (show ¬(1 : Fin S384x512.rank) ∈ dot_S512x384_S384x512_S512x512_1_0_0_1_n_n.rhsBatch by decide), dif_pos (show (1 : Fin S384x512.rank) ∈ dot_S512x384_S384x512_S512x512_1_0_0_1_n_n.rhsNonContracting by decide)]
    rfl

/-- A [512, 384] by [384, 512] product into zero, at (m, j): the sum over k of row m times column j. -/
theorem mmQG_apply {φ₁ φ₂ : FTy} (l : FVec Ideal S512x384 φ₁) (r : FVec Ideal S384x512 φ₂) (m : Fin 512) (j : Fin 512) :
    matmul dot_S512x384_S384x512_S512x512_1_0_0_1_n_n none l r (constant S512x512 .f32 0x00000000#32) (ix2 m j) = ∑ k : Fin 384, l (ix2 m k) * r (ix2 k j) := by
  refine (Ideal.matmul_constant_zero_apply dot_S512x384_S384x512_S512x512_1_0_0_1_n_n none l r (ix2 m j)).trans ?_
  rw [← Equiv.sum_comp (contrEquiv1 dot_S512x384_S384x512_S512x512_1_0_0_1_n_n 384 rfl rfl).symm]
  refine Finset.sum_congr rfl fun k _ => ?_
  have hk := contrEquiv1_symm_val dot_S512x384_S384x512_S512x512_1_0_0_1_n_n 384 rfl rfl k
  have el : dot_S512x384_S384x512_S512x512_1_0_0_1_n_n.lhsIdx (ix2 m j) ((contrEquiv1 dot_S512x384_S384x512_S512x512_1_0_0_1_n_n 384 rfl rfl).symm k) = ix2 m k :=
    (mmQG_lhs _ _).trans (funext fun a => by
      match a with
      | ⟨0, _⟩ => rfl
      | ⟨1, _⟩ => exact Fin.ext hk)
  have er : dot_S512x384_S384x512_S512x512_1_0_0_1_n_n.rhsIdx (ix2 m j) ((contrEquiv1 dot_S512x384_S384x512_S512x512_1_0_0_1_n_n 384 rfl rfl).symm k) = ix2 k j :=
    (mmQG_rhs _ _).trans (funext fun a => by
      match a with
      | ⟨0, _⟩ => exact Fin.ext hk
      | ⟨1, _⟩ => rfl)
  rw [el, er]

theorem mmK_lhs (i : S512x384.Idx) (q : dot_S512x384_S384x384_S512x384_1_0_0_1_n_n.contr.Idx) :
    dot_S512x384_S384x384_S512x384_1_0_0_1_n_n.lhsIdx i q = ix2 (i 0) ⟨(q ⟨0, by decide⟩).val, (q ⟨0, by decide⟩).isLt⟩ := by
  funext a
  refine Fin.ext ?_
  match a with
  | ⟨0, _⟩ =>
    show (dot_S512x384_S384x384_S512x384_1_0_0_1_n_n.lhsIdx i q 0).val = (i 0).val
    unfold DotDims.lhsIdx
    rw [dif_neg (show ¬(0 : Fin S512x384.rank) ∈ dot_S512x384_S384x384_S512x384_1_0_0_1_n_n.lhsBatch by decide), dif_pos (show (0 : Fin S512x384.rank) ∈ dot_S512x384_S384x384_S512x384_1_0_0_1_n_n.lhsNonContracting by decide)]
    rfl
  | ⟨1, _⟩ => exact dot_S512x384_S384x384_S512x384_1_0_0_1_n_n.lhsIdx_val_of_single rfl i q

theorem mmK_rhs (i : S512x384.Idx) (q : dot_S512x384_S384x384_S512x384_1_0_0_1_n_n.contr.Idx) :
    dot_S512x384_S384x384_S512x384_1_0_0_1_n_n.rhsIdx i q = ix2 ⟨(q ⟨0, by decide⟩).val, (q ⟨0, by decide⟩).isLt⟩ (i 1) := by
  funext a
  refine Fin.ext ?_
  match a with
  | ⟨0, _⟩ => exact dot_S512x384_S384x384_S512x384_1_0_0_1_n_n.rhsIdx_val_of_single rfl i q
  | ⟨1, _⟩ =>
    show (dot_S512x384_S384x384_S512x384_1_0_0_1_n_n.rhsIdx i q 1).val = (i 1).val
    unfold DotDims.rhsIdx
    rw [dif_neg (show ¬(1 : Fin S384x384.rank) ∈ dot_S512x384_S384x384_S512x384_1_0_0_1_n_n.rhsBatch by decide), dif_pos (show (1 : Fin S384x384.rank) ∈ dot_S512x384_S384x384_S512x384_1_0_0_1_n_n.rhsNonContracting by decide)]
    rfl

/-- A [512, 384] by [384, 384] product into zero, at (m, j): the sum over k of row m times column j. -/
theorem mmK_apply {φ₁ φ₂ : FTy} (l : FVec Ideal S512x384 φ₁) (r : FVec Ideal S384x384 φ₂) (m : Fin 512) (j : Fin 384) :
    matmul dot_S512x384_S384x384_S512x384_1_0_0_1_n_n none l r (constant S512x384 .f32 0x00000000#32) (ix2 m j) = ∑ k : Fin 384, l (ix2 m k) * r (ix2 k j) := by
  refine (Ideal.matmul_constant_zero_apply dot_S512x384_S384x384_S512x384_1_0_0_1_n_n none l r (ix2 m j)).trans ?_
  rw [← Equiv.sum_comp (contrEquiv1 dot_S512x384_S384x384_S512x384_1_0_0_1_n_n 384 rfl rfl).symm]
  refine Finset.sum_congr rfl fun k _ => ?_
  have hk := contrEquiv1_symm_val dot_S512x384_S384x384_S512x384_1_0_0_1_n_n 384 rfl rfl k
  have el : dot_S512x384_S384x384_S512x384_1_0_0_1_n_n.lhsIdx (ix2 m j) ((contrEquiv1 dot_S512x384_S384x384_S512x384_1_0_0_1_n_n 384 rfl rfl).symm k) = ix2 m k :=
    (mmK_lhs _ _).trans (funext fun a => by
      match a with
      | ⟨0, _⟩ => rfl
      | ⟨1, _⟩ => exact Fin.ext hk)
  have er : dot_S512x384_S384x384_S512x384_1_0_0_1_n_n.rhsIdx (ix2 m j) ((contrEquiv1 dot_S512x384_S384x384_S512x384_1_0_0_1_n_n 384 rfl rfl).symm k) = ix2 k j :=
    (mmK_rhs _ _).trans (funext fun a => by
      match a with
      | ⟨0, _⟩ => exact Fin.ext hk
      | ⟨1, _⟩ => rfl)
  rw [el, er]

theorem mmF_lhs (i : S512x1536.Idx) (q : dot_S512x384_S384x1536_S512x1536_1_0_0_1_n_n.contr.Idx) :
    dot_S512x384_S384x1536_S512x1536_1_0_0_1_n_n.lhsIdx i q = ix2 (i 0) ⟨(q ⟨0, by decide⟩).val, (q ⟨0, by decide⟩).isLt⟩ := by
  funext a
  refine Fin.ext ?_
  match a with
  | ⟨0, _⟩ =>
    show (dot_S512x384_S384x1536_S512x1536_1_0_0_1_n_n.lhsIdx i q 0).val = (i 0).val
    unfold DotDims.lhsIdx
    rw [dif_neg (show ¬(0 : Fin S512x384.rank) ∈ dot_S512x384_S384x1536_S512x1536_1_0_0_1_n_n.lhsBatch by decide), dif_pos (show (0 : Fin S512x384.rank) ∈ dot_S512x384_S384x1536_S512x1536_1_0_0_1_n_n.lhsNonContracting by decide)]
    rfl
  | ⟨1, _⟩ => exact dot_S512x384_S384x1536_S512x1536_1_0_0_1_n_n.lhsIdx_val_of_single rfl i q

theorem mmF_rhs (i : S512x1536.Idx) (q : dot_S512x384_S384x1536_S512x1536_1_0_0_1_n_n.contr.Idx) :
    dot_S512x384_S384x1536_S512x1536_1_0_0_1_n_n.rhsIdx i q = ix2 ⟨(q ⟨0, by decide⟩).val, (q ⟨0, by decide⟩).isLt⟩ (i 1) := by
  funext a
  refine Fin.ext ?_
  match a with
  | ⟨0, _⟩ => exact dot_S512x384_S384x1536_S512x1536_1_0_0_1_n_n.rhsIdx_val_of_single rfl i q
  | ⟨1, _⟩ =>
    show (dot_S512x384_S384x1536_S512x1536_1_0_0_1_n_n.rhsIdx i q 1).val = (i 1).val
    unfold DotDims.rhsIdx
    rw [dif_neg (show ¬(1 : Fin S384x1536.rank) ∈ dot_S512x384_S384x1536_S512x1536_1_0_0_1_n_n.rhsBatch by decide), dif_pos (show (1 : Fin S384x1536.rank) ∈ dot_S512x384_S384x1536_S512x1536_1_0_0_1_n_n.rhsNonContracting by decide)]
    rfl

/-- A [512, 384] by [384, 1536] product into zero, at (m, j): the sum over k of row m times column j. -/
theorem mmF_apply {φ₁ φ₂ : FTy} (l : FVec Ideal S512x384 φ₁) (r : FVec Ideal S384x1536 φ₂) (m : Fin 512) (j : Fin 1536) :
    matmul dot_S512x384_S384x1536_S512x1536_1_0_0_1_n_n none l r (constant S512x1536 .f32 0x00000000#32) (ix2 m j) = ∑ k : Fin 384, l (ix2 m k) * r (ix2 k j) := by
  refine (Ideal.matmul_constant_zero_apply dot_S512x384_S384x1536_S512x1536_1_0_0_1_n_n none l r (ix2 m j)).trans ?_
  rw [← Equiv.sum_comp (contrEquiv1 dot_S512x384_S384x1536_S512x1536_1_0_0_1_n_n 384 rfl rfl).symm]
  refine Finset.sum_congr rfl fun k _ => ?_
  have hk := contrEquiv1_symm_val dot_S512x384_S384x1536_S512x1536_1_0_0_1_n_n 384 rfl rfl k
  have el : dot_S512x384_S384x1536_S512x1536_1_0_0_1_n_n.lhsIdx (ix2 m j) ((contrEquiv1 dot_S512x384_S384x1536_S512x1536_1_0_0_1_n_n 384 rfl rfl).symm k) = ix2 m k :=
    (mmF_lhs _ _).trans (funext fun a => by
      match a with
      | ⟨0, _⟩ => rfl
      | ⟨1, _⟩ => exact Fin.ext hk)
  have er : dot_S512x384_S384x1536_S512x1536_1_0_0_1_n_n.rhsIdx (ix2 m j) ((contrEquiv1 dot_S512x384_S384x1536_S512x1536_1_0_0_1_n_n 384 rfl rfl).symm k) = ix2 k j :=
    (mmF_rhs _ _).trans (funext fun a => by
      match a with
      | ⟨0, _⟩ => exact Fin.ext hk
      | ⟨1, _⟩ => rfl)
  rw [el, er]

theorem mmO_lhs (i : S512x384.Idx) (q : dot_S512x1536_S1536x384_S512x384_1_0_0_1_n_n.contr.Idx) :
    dot_S512x1536_S1536x384_S512x384_1_0_0_1_n_n.lhsIdx i q = ix2 (i 0) ⟨(q ⟨0, by decide⟩).val, (q ⟨0, by decide⟩).isLt⟩ := by
  funext a
  refine Fin.ext ?_
  match a with
  | ⟨0, _⟩ =>
    show (dot_S512x1536_S1536x384_S512x384_1_0_0_1_n_n.lhsIdx i q 0).val = (i 0).val
    unfold DotDims.lhsIdx
    rw [dif_neg (show ¬(0 : Fin S512x1536.rank) ∈ dot_S512x1536_S1536x384_S512x384_1_0_0_1_n_n.lhsBatch by decide), dif_pos (show (0 : Fin S512x1536.rank) ∈ dot_S512x1536_S1536x384_S512x384_1_0_0_1_n_n.lhsNonContracting by decide)]
    rfl
  | ⟨1, _⟩ => exact dot_S512x1536_S1536x384_S512x384_1_0_0_1_n_n.lhsIdx_val_of_single rfl i q

theorem mmO_rhs (i : S512x384.Idx) (q : dot_S512x1536_S1536x384_S512x384_1_0_0_1_n_n.contr.Idx) :
    dot_S512x1536_S1536x384_S512x384_1_0_0_1_n_n.rhsIdx i q = ix2 ⟨(q ⟨0, by decide⟩).val, (q ⟨0, by decide⟩).isLt⟩ (i 1) := by
  funext a
  refine Fin.ext ?_
  match a with
  | ⟨0, _⟩ => exact dot_S512x1536_S1536x384_S512x384_1_0_0_1_n_n.rhsIdx_val_of_single rfl i q
  | ⟨1, _⟩ =>
    show (dot_S512x1536_S1536x384_S512x384_1_0_0_1_n_n.rhsIdx i q 1).val = (i 1).val
    unfold DotDims.rhsIdx
    rw [dif_neg (show ¬(1 : Fin S1536x384.rank) ∈ dot_S512x1536_S1536x384_S512x384_1_0_0_1_n_n.rhsBatch by decide), dif_pos (show (1 : Fin S1536x384.rank) ∈ dot_S512x1536_S1536x384_S512x384_1_0_0_1_n_n.rhsNonContracting by decide)]
    rfl

/-- A [512, 1536] by [1536, 384] product into zero, at (m, j): the sum over k of row m times column j. -/
theorem mmO_apply {φ₁ φ₂ : FTy} (l : FVec Ideal S512x1536 φ₁) (r : FVec Ideal S1536x384 φ₂) (m : Fin 512) (j : Fin 384) :
    matmul dot_S512x1536_S1536x384_S512x384_1_0_0_1_n_n none l r (constant S512x384 .f32 0x00000000#32) (ix2 m j) = ∑ k : Fin 1536, l (ix2 m k) * r (ix2 k j) := by
  refine (Ideal.matmul_constant_zero_apply dot_S512x1536_S1536x384_S512x384_1_0_0_1_n_n none l r (ix2 m j)).trans ?_
  rw [← Equiv.sum_comp (contrEquiv1 dot_S512x1536_S1536x384_S512x384_1_0_0_1_n_n 1536 rfl rfl).symm]
  refine Finset.sum_congr rfl fun k _ => ?_
  have hk := contrEquiv1_symm_val dot_S512x1536_S1536x384_S512x384_1_0_0_1_n_n 1536 rfl rfl k
  have el : dot_S512x1536_S1536x384_S512x384_1_0_0_1_n_n.lhsIdx (ix2 m j) ((contrEquiv1 dot_S512x1536_S1536x384_S512x384_1_0_0_1_n_n 1536 rfl rfl).symm k) = ix2 m k :=
    (mmO_lhs _ _).trans (funext fun a => by
      match a with
      | ⟨0, _⟩ => rfl
      | ⟨1, _⟩ => exact Fin.ext hk)
  have er : dot_S512x1536_S1536x384_S512x384_1_0_0_1_n_n.rhsIdx (ix2 m j) ((contrEquiv1 dot_S512x1536_S1536x384_S512x384_1_0_0_1_n_n 1536 rfl rfl).symm k) = ix2 k j :=
    (mmO_rhs _ _).trans (funext fun a => by
      match a with
      | ⟨0, _⟩ => exact Fin.ext hk
      | ⟨1, _⟩ => rfl)
  rw [el, er]

end Cert.KernelBody

end
-- ==== Proof.KernelStages.lean ====
/-
  The stages of the kernel body between the input block and the heads, each read at a token and a channel, in the
  words of the specification: the queries, keys and gate logits of window `t` of the block are the specification's
  `qT`, `kT` and `gate` of that window's tokens, and the feed-forward branch is the sum over the 1536
  activations `ffn` against the output weight.
-/
import proofs.«127096_j46669114638476_2_alg».proof.Proof.KernelFlat

noncomputable section

namespace Cert.KernelBody

open Cert.KernelIdeal Cert.KernelIdeal.Gen Idealize.ShloMosaic Idealize.ShloMosaic.ValueIdx Cert.WinAttn

variable (x0 : Vec Ideal S1x384x8x64 .f32) (x1 : Vec Ideal S384x512 .bf16) (x2 : Vec Ideal S384x384 .bf16)
  (x3 : Vec Ideal S384x1536 .bf16) (x4 : Vec Ideal S1x12 .f32) (x5 : Vec Ideal S384x384 .bf16)
  (x6 : Vec Ideal S1536x384 .bf16) (x7 x8 : Vec Ideal S1x1 .f32)

/-- The rows of tokens, in the matrix products' element format. -/
theorem pay3_apply (t : Fin 8) (n : Fin 64) (k : Fin 384) : k0_pay3 x0 (ix2 (row t n) k) = blkTok x0 t n k := by
  rw [pay3_eq]
  exact tokV_apply x0 t n k

/-- The fused query-and-gate product. -/
theorem pay7_apply (t : Fin 8) (n : Fin 64) (j : Fin 512) :
    k0_pay7 x0 x1 (ix2 (row t n) j) = ∑ k : Fin 384, blkTok x0 t n k * x1 (ix2 k j) := by
  show matmul dot_S512x384_S384x512_S512x512_1_0_0_1_n_n none (k0_pay3 x0) (shapeCast S384x512 x1 shapeCasts_S384x512_S384x512)
    (constant S512x512 .f32 0x00000000#32) (ix2 (row t n) j) = _
  rw [shapeCast_self, mmQG_apply]
  exact Finset.sum_congr rfl fun k _ => by rw [pay3_apply]

/-- The queries: the first 384 columns. -/
theorem pay8_apply (t : Fin 8) (n : Fin 64) (j : Fin 384) :
    k0_pay8 x0 x1 (ix2 (row t n) j) = ∑ k : Fin 384, blkTok x0 t n k * x1 (ix2 k ⟨j.val, by have := j.isLt; omega⟩) := by
  refine (extractStridedSlice_apply _ (k0_pay7 x0 x1) slices_S512x512_o0_0_S512x384 (ix2 (row t n) j)
    (ix2 (row t n) ⟨j.val, by have := j.isLt; omega⟩) (fun a => by
    match a with
    | ⟨0, _⟩ => show (row t n).val = 0 + (row t n).val; omega
    | ⟨1, _⟩ => show j.val = 0 + j.val; omega)).trans ?_
  exact pay7_apply x0 x1 t n _

/-- The gate logits: columns 384 … 395 plus the bias row. -/
theorem pay9_apply (t : Fin 8) (n : Fin 64) (h : Fin 12) :
    k0_pay9 x0 x1 x4 (ix2 (row t n) h)
      = (∑ k : Fin 384, blkTok x0 t n k * x1 (ix2 k ⟨384 + h.val, by have := h.isLt; omega⟩)) + x4 (ix2 0 h) := by
  show extractStridedSlice S512x12 ![0, 384] (k0_pay7 x0 x1) slices_S512x512_o0_384_S512x12 (ix2 (row t n) h)
    + broadcastTo S512x12 (shapeCast S1x12 x4 shapeCasts_S1x12_S1x12) broadcasts_S1x12_S512x12 (ix2 (row t n) h) = _
  rw [shapeCast_self]
  refine congrArg₂ (· + ·) ?_ ?_
  · refine (extractStridedSlice_apply _ (k0_pay7 x0 x1) slices_S512x512_o0_384_S512x12 (ix2 (row t n) h)
      (ix2 (row t n) ⟨384 + h.val, by have := h.isLt; omega⟩) (fun a => by
      match a with
      | ⟨0, _⟩ => show (row t n).val = 0 + (row t n).val; omega
      | ⟨1, _⟩ => show 384 + h.val = 384 + h.val; rfl)).trans ?_
    exact pay7_apply x0 x1 t n _
  · exact broadcastTo_apply x4 broadcasts_S1x12_S512x12 (ix2 (row t n) h) (ix2 0 h) (fun a => by
      match a with
      | ⟨0, _⟩ => rfl
      | ⟨1, _⟩ => rfl)

/-- The keys. -/
theorem pay10_apply (t : Fin 8) (n : Fin 64) (j : Fin 384) :
    k0_pay10 x0 x2 (ix2 (row t n) j) = ∑ k : Fin 384, blkTok x0 t n k * x2 (ix2 k j) := by
  show matmul dot_S512x384_S384x384_S512x384_1_0_0_1_n_n none (k0_pay3 x0) (shapeCast S384x384 x2 shapeCasts_S384x384_S384x384)
    (constant S512x384 .f32 0x00000000#32) (ix2 (row t n) j) = _
  rw [shapeCast_self, mmK_apply]
  exact Finset.sum_congr rfl fun k _ => by rw [pay3_apply]

/-- The squared rectifier of the feed-forward pre-activations. -/
theorem pay11_apply (t : Fin 8) (n : Fin 64) (f : Fin 1536) :
    k0_pay11 x0 x3 (ix2 (row t n) f)
      = max (∑ k : Fin 384, blkTok x0 t n k * x3 (ix2 k f)) (Ideal.ofBits .f32 0x00000000#32)
        * max (∑ k : Fin 384, blkTok x0 t n k * x3 (ix2 k f)) (Ideal.ofBits .f32 0x00000000#32) := by
  show max (matmul dot_S512x384_S384x1536_S512x1536_1_0_0_1_n_n none (k0_pay3 x0) (shapeCast S384x1536 x3 shapeCasts_S384x1536_S384x1536)
      (constant S512x1536 .f32 0x00000000#32) (ix2 (row t n) f)) (Ideal.ofBits .f32 0x00000000#32)
    * max (matmul dot_S512x384_S384x1536_S512x1536_1_0_0_1_n_n none (k0_pay3 x0) (shapeCast S384x1536 x3 shapeCasts_S384x1536_S384x1536)
      (constant S512x1536 .f32 0x00000000#32) (ix2 (row t n) f)) (Ideal.ofBits .f32 0x00000000#32) = _
  rw [shapeCast_self, mmF_apply]
  have e : (∑ k : Fin 384, k0_pay3 x0 (ix2 (row t n) k) * x3 (ix2 k f)) = ∑ k : Fin 384, blkTok x0 t n k * x3 (ix2 k f) :=
    Finset.sum_congr rfl fun k _ => by rw [pay3_apply]
  rw [e]

/-- The one entry of a [1, 1] array. -/
theorem extract11 (v : Vec Ideal S1x1 .f32) : extractAt ![0, 0] v inpos_S1x1_p0_0 = v (ix2 0 0) := by
  unfold extractAt
  refine congrArg v (funext fun a => ?_)
  match a with
  | ⟨0, _⟩ => rfl
  | ⟨1, _⟩ => rfl

/-- The feed-forward branch: the activations (scale · rectifier² + bias) against the output weight. -/
theorem pay13_apply (t : Fin 8) (n : Fin 64) (o : Fin 384) :
    k0_pay13 (k0_pay5 x6) (k0_pay6 x8) (k0_pay11 x0 x3) (k0_pay12 x7) (ix2 (row t n) o)
      = ∑ f : Fin 1536, (x7 (ix2 0 0) * k0_pay11 x0 x3 (ix2 (row t n) f) + x8 (ix2 0 0)) * x6 (ix2 f o) := by
  show matmul dot_S512x1536_S1536x384_S512x384_1_0_0_1_n_n none
      (truncf .bf16 (addf (mulf (k0_pay12 x7) (k0_pay11 x0 x3)) (broadcast S512x1536 (k0_pay6 x8))) bitsLt_bf16_f32)
      (k0_pay5 x6) (constant S512x384 .f32 0x00000000#32) (ix2 (row t n) o) = _
  rw [mmO_apply]
  refine Finset.sum_congr rfl fun f _ => ?_
  show (extractAt ![0, 0] x7 inpos_S1x1_p0_0 * k0_pay11 x0 x3 (ix2 (row t n) f) + extractAt ![0, 0] x8 inpos_S1x1_p0_0)
    * shapeCast S1536x384 x6 shapeCasts_S1536x384_S1536x384 (ix2 f o) = _
  rw [extract11, extract11, shapeCast_self]

/-- [512, c] rows regrouped as [8 windows, 64 tokens, c]. -/
theorem pay14_apply (v : FVec Ideal S512x384 .f32) (t : Fin 8) (n : Fin 64) (j : Fin 384) :
    k0_pay14 v (ix3 t n j) = v (ix2 (row t n) j) :=
  shapeCast_apply v shapeCasts_S512x384_S8x64x384 (ix3 t n j) (ix2 (row t n) j) (by
    rewrite [Shape.rowMajor_val_two, Shape.rowMajor_val_three]
    show (64 * t.val + n.val) * 384 + j.val = (t.val * 64 + n.val) * 384 + j.val
    omega)

theorem pay15_apply (v : FVec Ideal S512x384 .f32) (t : Fin 8) (n : Fin 64) (j : Fin 384) :
    k0_pay15 v (ix3 t n j) = v (ix2 (row t n) j) :=
  shapeCast_apply v shapeCasts_S512x384_S8x64x384 (ix3 t n j) (ix2 (row t n) j) (by
    rewrite [Shape.rowMajor_val_two, Shape.rowMajor_val_three]
    show (64 * t.val + n.val) * 384 + j.val = (t.val * 64 + n.val) * 384 + j.val
    omega)

theorem pay16_apply (v : FVec Ideal S512x12 .f32) (t : Fin 8) (n : Fin 64) (h : Fin 12) :
    k0_pay16 v (ix3 t n h) = v (ix2 (row t n) h) :=
  shapeCast_apply v shapeCasts_S512x12_S8x64x12 (ix3 t n h) (ix2 (row t n) h) (by
    rewrite [Shape.rowMajor_val_two, Shape.rowMajor_val_three]
    show (64 * t.val + n.val) * 12 + h.val = (t.val * 64 + n.val) * 12 + h.val
    omega)

/-! ## In the words of the specification -/

section Spec
variable (Wf : (⟨2, ![2304, 384]⟩ : Shape).Idx → EReal) (Wg : (⟨2, ![12, 384]⟩ : Shape).Idx → EReal)
  (Bg : (⟨1, ![12]⟩ : Shape).Idx → EReal) (Wo : (⟨2, ![384, 1536]⟩ : Shape).Idx → EReal) (s6 s7 : EReal)

/-- The queries of window `t`. -/
theorem q_eq (h1q : ∀ (k j : Fin 384), x1 (ix2 k ⟨j.val, by have := j.isLt; omega⟩) = Wf (ix2 (qcol j) k)) (t : Fin 8) :
    (fun n j => k0_pay14 (k0_pay8 x0 x1) (ix3 t n j)) = qT (blkTok x0 t) Wf := by
  funext n j
  rw [pay14_apply, pay8_apply]
  unfold qT proj
  exact Finset.sum_congr rfl fun k _ => by rw [h1q]

/-- The keys of window `t`. -/
theorem k_eq (h2 : ∀ k j : Fin 384, x2 (ix2 k j) = Wf (ix2 (kcol j) k)) (t : Fin 8) :
    (fun n j => k0_pay15 (k0_pay10 x0 x2) (ix3 t n j)) = kT (blkTok x0 t) Wf := by
  funext n j
  rw [pay15_apply, pay10_apply]
  unfold kT proj
  exact Finset.sum_congr rfl fun k _ => by rw [h2]

/-- The gate logits of window `t`. -/
theorem g_eq (h1g : ∀ (k : Fin 384) (h : Fin 12), x1 (ix2 k ⟨384 + h.val, by have := h.isLt; omega⟩) = Wg (ix2 h k))
    (h4 : ∀ h : Fin 12, x4 (ix2 0 h) = Bg (ix1 h)) (t : Fin 8) (n : Fin 64) (h : Fin 12) :
    k0_pay16 (k0_pay9 x0 x1 x4) (ix3 t n h) = gate (blkTok x0 t) Wg Bg n h := by
  rw [pay16_apply, pay9_apply]
  unfold gate
  rw [h4]
  exact congrArg (· + Bg (ix1 h)) (Finset.sum_congr rfl fun k _ => by rw [h1g])

/-- The feed-forward branch of window `t`. -/
theorem ff_eq (h3 : ∀ (k : Fin 384) (f : Fin 1536), x3 (ix2 k f) = Wf (ix2 (fcol f) k))
    (h6 : ∀ (f : Fin 1536) (o : Fin 384), x6 (ix2 f o) = Wo (ix2 o f))
    (h7 : x7 (ix2 0 0) = s6) (h8 : x8 (ix2 0 0) = s7) (t : Fin 8) (n : Fin 64) (o : Fin 384) :
    k0_pay13 (k0_pay5 x6) (k0_pay6 x8) (k0_pay11 x0 x3) (k0_pay12 x7) (ix2 (row t n) o)
      = ∑ f : Fin 1536, ffn (blkTok x0 t) Wf s6 s7 n f * Wo (ix2 o f) := by
  rw [pay13_apply]
  refine Finset.sum_congr rfl fun f _ => ?_
  rw [pay11_apply, h6, h7, h8]
  unfold ffn proj
  have e : (∑ k : Fin 384, blkTok x0 t n k * x3 (ix2 k f)) = ∑ k : Fin 384, blkTok x0 t n k * Wf (ix2 (fcol f) k) :=
    Finset.sum_congr rfl fun k _ => by rw [h3]
  rw [e]

end Spec

end Cert.KernelBody

end
-- ==== Proof.KernelHead.lean ====
/-
  One attention head of the kernel body, read at an index.

  The body computes every head by the same chain of vector operations on three arrays laid out as
  [8 windows, 64 tokens, channels]: the queries, the keys (also the values) and the gate logits. For head `h` it
  cuts the 32 channels `32·h …` out of queries and keys, multiplies them per window (a batched product over the
  head's channels), scales, subtracts the row maximum, exponentiates, divides by the row sum, multiplies the
  weights with the values, and finally with the logistic of the head's gate logit.
  `headK_apply` says: at window `t`, token `n`, channel `d` of the head this is the specification's `head` of the
  window's queries and keys, times the logistic of the gate logit.
-/
import proofs.«127096_j46669114638476_2_alg».proof.Proof.Gen.KernelIdeal.Skeleton
import proofs.«127096_j46669114638476_2_alg».proof.Proof.Spec
import Idealize.ShloMosaic.Lib.Pipeline.Value
import Idealize.ShloMosaic.Lib.ValueIdx
import Idealize.ShloMosaic.PureOps.Ideal.Laws

noncomputable section

namespace Cert.KernelBody

open Cert.KernelIdeal Cert.KernelIdeal.Gen Idealize.ShloMosaic Idealize.ShloMosaic.ValueIdx Cert.WinAttn

/-! ## The pieces of a head, as the body spells them -/

/-- The batched product of queries and keys over a head's channels, and of weights and values over the tokens. -/
abbrev dQK := dot_S8x64x32_S8x64x32_S8x64x64_2_2_1_1_0_0
abbrev dAV := dot_S8x64x64_S8x64x32_S8x64x32_2_1_1_2_0_0

/-- 32 channels from channel `o` on. -/
def sl (o : ℕ) (hs : S8x64x384.Slices ![0, 0, o] S8x64x32) (v : FVec Ideal S8x64x384 .f32) : FVec Ideal S8x64x32 .f32 :=
  extractStridedSlice S8x64x32 ![0, 0, o] v hs

def tr32 (v : FVec Ideal S8x64x32 .f32) : FVec Ideal S8x64x32 .bf16 := truncf .bf16 v bitsLt_bf16_f32

/-- The scaled scores. -/
def scK (q kv : FVec Ideal S8x64x32 .bf16) : FVec Ideal S8x64x64 .f32 :=
  mulf (matmul dQK none q kv (constant S8x64x64 .f32 0x00000000#32)) (broadcast S8x64x64 (Scalar.ofBits .f32 0x3E3504F3#32))

/-- The exponentials of the scores less their row maximum. -/
def exK (s : FVec Ideal S8x64x64 .f32) : FVec Ideal S8x64x64 .f32 :=
  exp (subf s (broadcastTo S8x64x64 (shapeCast S8x64x1 (multiReduction .maximumf [2] S8x64 s 0xFF800000#32 reduces_S8x64x64_S8x64 (.inl rfl) rfl) shapeCasts_S8x64_S8x64x1) broadcasts_S8x64x1_S8x64x64))

/-- The exponentials over their row sum. -/
def nmK (e : FVec Ideal S8x64x64 .f32) : FVec Ideal S8x64x64 .bf16 :=
  truncf .bf16 (divf e (broadcastTo S8x64x64 (shapeCast S8x64x1 (multiReduction .add [2] S8x64 e 0x00000000#32 reduces_S8x64x64_S8x64 (.inl rfl) rfl) shapeCasts_S8x64_S8x64x1) broadcasts_S8x64x1_S8x64x64)) bitsLt_bf16_f32

/-- The weights times the values. -/
def avK (a : FVec Ideal S8x64x64 .bf16) (kv : FVec Ideal S8x64x32 .bf16) : FVec Ideal S8x64x32 .f32 :=
  matmul dAV none a kv (constant S8x64x32 .f32 0x00000000#32)

/-- Gate logit `g` of every token. -/
def gsl (g : ℕ) (hg : S8x64x12.Slices ![0, 0, g] S8x64x1) (v : FVec Ideal S8x64x12 .f32) : FVec Ideal S8x64x1 .f32 :=
  extractStridedSlice S8x64x1 ![0, 0, g] v hg

/-- Times the logistic of the gate logit. -/
def gmK (av : FVec Ideal S8x64x32 .f32) (gs : FVec Ideal S8x64x1 .f32) : FVec Ideal S8x64x32 .f32 :=
  mulf av (broadcastTo S8x64x32 (logistic gs) broadcasts_S8x64x1_S8x64x32)

/-- One head. -/
def headK (o : ℕ) (hs : S8x64x384.Slices ![0, 0, o] S8x64x32) (g : ℕ) (hg : S8x64x12.Slices ![0, 0, g] S8x64x1)
    (v39 v40 : FVec Ideal S8x64x384 .f32) (v41 : FVec Ideal S8x64x12 .f32) : FVec Ideal S8x64x32 .f32 :=
  gmK (avK (nmK (exK (scK (tr32 (sl o hs v39)) (tr32 (sl o hs v40))))) (tr32 (sl o hs v40))) (gsl g hg v41)

/-! ## Each piece at an index -/

theorem sl_apply (o : ℕ) (hs : S8x64x384.Slices ![0, 0, o] S8x64x32) (v : FVec Ideal S8x64x384 .f32) (t : Fin 8) (n : Fin 64)
    (d : Fin 32) (j : Fin 384) (hj : j.val = o + d.val) : tr32 (sl o hs v) (ix3 t n d) = v (ix3 t n j) := by
  show extractStridedSlice S8x64x32 ![0, 0, o] v hs (ix3 t n d) = v (ix3 t n j)
  exact extractStridedSlice_apply _ v hs (ix3 t n d) (ix3 t n j) (fun a => by
    match a with
    | ⟨0, _⟩ => show t.val = 0 + t.val; omega
    | ⟨1, _⟩ => show n.val = 0 + n.val; omega
    | ⟨2, _⟩ => show j.val = o + d.val; exact hj)

theorem gsl_apply (g : ℕ) (hg : S8x64x12.Slices ![0, 0, g] S8x64x1) (v : FVec Ideal S8x64x12 .f32) (t : Fin 8) (n : Fin 64)
    (h : Fin 12) (hh : h.val = g) : gsl g hg v (ix3 t n (0 : Fin 1)) = v (ix3 t n h) := by
  show extractStridedSlice S8x64x1 ![0, 0, g] v hg (ix3 t n (0 : Fin 1)) = v (ix3 t n h)
  exact extractStridedSlice_apply _ v hg (ix3 t n (0 : Fin 1)) (ix3 t n h) (fun a => by
    match a with
    | ⟨0, _⟩ => show t.val = 0 + t.val; omega
    | ⟨1, _⟩ => show n.val = 0 + n.val; omega
    | ⟨2, _⟩ => show h.val = g + 0; omega)

/-- The index of a row with its column put back. -/
theorem lift_row (t : Fin 8) (n m : Fin 64) : reduces_S8x64x64_S8x64.lift (ix2 t n) m = ix3 t n m := by
  funext a
  match a with
  | ⟨0, _⟩ => exact Fin.ext rfl
  | ⟨1, _⟩ => exact Fin.ext rfl
  | ⟨2, _⟩ => exact Fin.ext rfl

/-- A per-row value spread over the row. -/
theorem row_spread (r : FVec Ideal S8x64 .f32) (t : Fin 8) (n m : Fin 64) :
    broadcastTo S8x64x64 (shapeCast S8x64x1 r shapeCasts_S8x64_S8x64x1) broadcasts_S8x64x1_S8x64x64 (ix3 t n m) = r (ix2 t n) := by
  refine (broadcastTo_apply _ broadcasts_S8x64x1_S8x64x64 (ix3 t n m) (ix3 t n (0 : Fin 1)) (fun a => by
    match a with
    | ⟨0, _⟩ => rfl
    | ⟨1, _⟩ => rfl
    | ⟨2, _⟩ => rfl)).trans ?_
  exact shapeCast_apply r shapeCasts_S8x64_S8x64x1 (ix3 t n (0 : Fin 1)) (ix2 t n) (by
    rewrite [Shape.rowMajor_val_two, Shape.rowMajor_val_three]
    show t.val * 64 + n.val = (t.val * 64 + n.val) * 1 + 0
    omega)

theorem dQK_lhs (i : S8x64x64.Idx) (q : dQK.contr.Idx) :
    dQK.lhsIdx i q = ix3 (i 0) (i 1) ⟨(q ⟨0, by decide⟩).val, (q ⟨0, by decide⟩).isLt⟩ := by
  funext a
  refine Fin.ext ?_
  match a with
  | ⟨0, _⟩ =>
    show (dQK.lhsIdx i q 0).val = (i 0).val
    unfold DotDims.lhsIdx
    rw [dif_pos (show (0 : Fin S8x64x32.rank) ∈ dQK.lhsBatch by decide)]
    rfl
  | ⟨1, _⟩ =>
    show (dQK.lhsIdx i q 1).val = (i 1).val
    unfold DotDims.lhsIdx
    rw [dif_neg (show ¬(1 : Fin S8x64x32.rank) ∈ dQK.lhsBatch by decide), dif_pos (show (1 : Fin S8x64x32.rank) ∈ dQK.lhsNonContracting by decide)]
    rfl
  | ⟨2, _⟩ => exact dQK.lhsIdx_val_of_single rfl i q

theorem dQK_rhs (i : S8x64x64.Idx) (q : dQK.contr.Idx) :
    dQK.rhsIdx i q = ix3 (i 0) (i 2) ⟨(q ⟨0, by decide⟩).val, (q ⟨0, by decide⟩).isLt⟩ := by
  funext a
  refine Fin.ext ?_
  match a with
  | ⟨0, _⟩ =>
    show (dQK.rhsIdx i q 0).val = (i 0).val
    unfold DotDims.rhsIdx
    rw [dif_pos (show (0 : Fin S8x64x32.rank) ∈ dQK.rhsBatch by decide)]
    rfl
  | ⟨1, _⟩ =>
    show (dQK.rhsIdx i q 1).val = (i 2).val
    unfold DotDims.rhsIdx
    rw [dif_neg (show ¬(1 : Fin S8x64x32.rank) ∈ dQK.rhsBatch by decide), dif_pos (show (1 : Fin S8x64x32.rank) ∈ dQK.rhsNonContracting by decide)]
    rfl
  | ⟨2, _⟩ => exact dQK.rhsIdx_val_of_single rfl i q

theorem dAV_lhs (i : S8x64x32.Idx) (q : dAV.contr.Idx) :
    dAV.lhsIdx i q = ix3 (i 0) (i 1) ⟨(q ⟨0, by decide⟩).val, (q ⟨0, by decide⟩).isLt⟩ := by
  funext a
  refine Fin.ext ?_
  match a with
  | ⟨0, _⟩ =>
    show (dAV.lhsIdx i q 0).val = (i 0).val
    unfold DotDims.lhsIdx
    rw [dif_pos (show (0 : Fin S8x64x64.rank) ∈ dAV.lhsBatch by decide)]
    rfl
  | ⟨1, _⟩ =>
    show (dAV.lhsIdx i q 1).val = (i 1).val
    unfold DotDims.lhsIdx
    rw [dif_neg (show ¬(1 : Fin S8x64x64.rank) ∈ dAV.lhsBatch by decide), dif_pos (show (1 : Fin S8x64x64.rank) ∈ dAV.lhsNonContracting by decide)]
    rfl
  | ⟨2, _⟩ => exact dAV.lhsIdx_val_of_single rfl i q

theorem dAV_rhs (i : S8x64x32.Idx) (q : dAV.contr.Idx) :
    dAV.rhsIdx i q = ix3 (i 0) ⟨(q ⟨0, by decide⟩).val, (q ⟨0, by decide⟩).isLt⟩ (i 2) := by
  funext a
  refine Fin.ext ?_
  match a with
  | ⟨0, _⟩ =>
    show (dAV.rhsIdx i q 0).val = (i 0).val
    unfold DotDims.rhsIdx
    rw [dif_pos (show (0 : Fin S8x64x32.rank) ∈ dAV.rhsBatch by decide)]
    rfl
  | ⟨1, _⟩ => exact dAV.rhsIdx_val_of_single rfl i q
  | ⟨2, _⟩ =>
    show (dAV.rhsIdx i q 2).val = (i 2).val
    unfold DotDims.rhsIdx
    rw [dif_neg (show ¬(2 : Fin S8x64x32.rank) ∈ dAV.rhsBatch by decide), dif_pos (show (2 : Fin S8x64x32.rank) ∈ dAV.rhsNonContracting by decide)]
    rfl

/-- The scores: per window, the sum over the head's channels of query times key, scaled. -/
theorem scK_apply (q kv : FVec Ideal S8x64x32 .bf16) (t : Fin 8) (n m : Fin 64) :
    scK q kv (ix3 t n m) = (∑ d : Fin 32, q (ix3 t n d) * kv (ix3 t m d)) * Ideal.ofBits .f32 0x3E3504F3#32 := by
  show matmul dQK none q kv (constant S8x64x64 .f32 0x00000000#32) (ix3 t n m) * _ = _
  refine congrArg (· * Ideal.ofBits .f32 0x3E3504F3#32) ?_
  refine (Ideal.matmul_constant_zero_apply dQK none q kv (ix3 t n m)).trans ?_
  rw [← Equiv.sum_comp (contrEquiv1 dQK 32 rfl rfl).symm]
  refine Finset.sum_congr rfl fun k _ => ?_
  have hk := contrEquiv1_symm_val dQK 32 rfl rfl k
  have el : dQK.lhsIdx (ix3 t n m) ((contrEquiv1 dQK 32 rfl rfl).symm k) = ix3 t n k :=
    (dQK_lhs _ _).trans (funext fun a => by
      match a with
      | ⟨0, _⟩ => rfl
      | ⟨1, _⟩ => rfl
      | ⟨2, _⟩ => exact Fin.ext hk)
  have er : dQK.rhsIdx (ix3 t n m) ((contrEquiv1 dQK 32 rfl rfl).symm k) = ix3 t m k :=
    (dQK_rhs _ _).trans (funext fun a => by
      match a with
      | ⟨0, _⟩ => rfl
      | ⟨1, _⟩ => rfl
      | ⟨2, _⟩ => exact Fin.ext hk)
  rw [el, er]

/-- The weighted values: per window, the sum over the tokens of weight times value. -/
theorem avK_apply (a : FVec Ideal S8x64x64 .bf16) (kv : FVec Ideal S8x64x32 .bf16) (t : Fin 8) (n : Fin 64) (d : Fin 32) :
    avK a kv (ix3 t n d) = ∑ m : Fin 64, a (ix3 t n m) * kv (ix3 t m d) := by
  refine (Ideal.matmul_constant_zero_apply dAV none a kv (ix3 t n d)).trans ?_
  rw [← Equiv.sum_comp (contrEquiv1 dAV 64 rfl rfl).symm]
  refine Finset.sum_congr rfl fun k _ => ?_
  have hk := contrEquiv1_symm_val dAV 64 rfl rfl k
  have el : dAV.lhsIdx (ix3 t n d) ((contrEquiv1 dAV 64 rfl rfl).symm k) = ix3 t n k :=
    (dAV_lhs _ _).trans (funext fun a => by
      match a with
      | ⟨0, _⟩ => rfl
      | ⟨1, _⟩ => rfl
      | ⟨2, _⟩ => exact Fin.ext hk)
  have er : dAV.rhsIdx (ix3 t n d) ((contrEquiv1 dAV 64 rfl rfl).symm k) = ix3 t k d :=
    (dAV_rhs _ _).trans (funext fun a => by
      match a with
      | ⟨0, _⟩ => rfl
      | ⟨1, _⟩ => exact Fin.ext hk
      | ⟨2, _⟩ => rfl)
  rw [el, er]

/-- The shifted exponentials. -/
theorem exK_apply (s : FVec Ideal S8x64x64 .f32) (t : Fin 8) (n m : Fin 64) :
    exK s (ix3 t n m) = Ideal.exp (s (ix3 t n m)
      - (Finset.univ : Finset (Fin 64)).fold max (Ideal.ofBits .f32 0xFF800000#32) (fun m' => s (ix3 t n m'))) := by
  show Ideal.exp (s (ix3 t n m) - broadcastTo S8x64x64 (shapeCast S8x64x1 (multiReduction .maximumf [2] S8x64 s 0xFF800000#32 reduces_S8x64x64_S8x64 (.inl rfl) rfl) shapeCasts_S8x64_S8x64x1) broadcasts_S8x64x1_S8x64x64 (ix3 t n m)) = _
  have hmax := Ideal.multiReduction_maximumf_single (a := (2 : Fin S8x64x64.rank)) s 0xFF800000#32 reduces_S8x64x64_S8x64 (.inl rfl) rfl (ix2 t n)
  rw [row_spread]
  refine congrArg (fun z => Ideal.exp (s (ix3 t n m) - z)) (hmax.trans ?_)
  refine Finset.fold_congr fun m' _ => ?_
  exact congrArg s (lift_row t n m')

/-- The normalised weights. -/
theorem nmK_apply (e : FVec Ideal S8x64x64 .f32) (t : Fin 8) (n m : Fin 64) :
    nmK e (ix3 t n m) = Ideal.div (e (ix3 t n m)) (∑ m' : Fin 64, e (ix3 t n m')) := by
  show Ideal.div (e (ix3 t n m)) (broadcastTo S8x64x64 (shapeCast S8x64x1 (multiReduction .add [2] S8x64 e 0x00000000#32 reduces_S8x64x64_S8x64 (.inl rfl) rfl) shapeCasts_S8x64_S8x64x1) broadcasts_S8x64x1_S8x64x64 (ix3 t n m)) = _
  have hsum := Ideal.multiReduction_add_single (a := (2 : Fin S8x64x64.rank)) e 0x00000000#32 reduces_S8x64x64_S8x64 (.inl rfl) rfl (ix2 t n)
  rw [row_spread]
  refine congrArg (Ideal.div (e (ix3 t n m))) (hsum.trans ?_)
  refine Finset.sum_congr rfl fun m' _ => ?_
  exact congrArg e (lift_row t n m')

/-- The gate. -/
theorem gmK_apply (av : FVec Ideal S8x64x32 .f32) (gs : FVec Ideal S8x64x1 .f32) (t : Fin 8) (n : Fin 64) (d : Fin 32) :
    gmK av gs (ix3 t n d) = av (ix3 t n d) * Ideal.logistic (gs (ix3 t n (0 : Fin 1))) := by
  show av (ix3 t n d) * broadcastTo S8x64x32 (logistic gs) broadcasts_S8x64x1_S8x64x32 (ix3 t n d) = _
  refine congrArg (av (ix3 t n d) * ·) ?_
  exact broadcastTo_apply (logistic gs) broadcasts_S8x64x1_S8x64x32 (ix3 t n d) (ix3 t n (0 : Fin 1)) (fun a => by
    match a with
    | ⟨0, _⟩ => rfl
    | ⟨1, _⟩ => rfl
    | ⟨2, _⟩ => rfl)

/-! ## The head -/

/-- Head `h` (channels from `o = 32·h`, gate logit `g = h`) at window `t`, token `n`, channel `d`: the specification's head of
    the window's rows of queries and keys, gated. -/
theorem headK_apply (h : Fin 12) (o : ℕ) (ho : o = 32 * h.val) (hs : S8x64x384.Slices ![0, 0, o] S8x64x32) (g : ℕ) (hgv : h.val = g)
    (hg : S8x64x12.Slices ![0, 0, g] S8x64x1) (v39 v40 : FVec Ideal S8x64x384 .f32) (v41 : FVec Ideal S8x64x12 .f32)
    (t : Fin 8) (n : Fin 64) (d : Fin 32) :
    headK o hs g hg v39 v40 v41 (ix3 t n d)
      = head (fun n j => v39 (ix3 t n j)) (fun n j => v40 (ix3 t n j)) h n d * Ideal.logistic (v41 (ix3 t n h)) := by
  have hq : ∀ (n' : Fin 64) (d' : Fin 32), tr32 (sl o hs v39) (ix3 t n' d') = v39 (ix3 t n' (hcol h d')) := fun n' d' =>
    sl_apply o hs v39 t n' d' (hcol h d') (by show 32 * h.val + d'.val = o + d'.val; omega)
  have hk : ∀ (n' : Fin 64) (d' : Fin 32), tr32 (sl o hs v40) (ix3 t n' d') = v40 (ix3 t n' (hcol h d')) := fun n' d' =>
    sl_apply o hs v40 t n' d' (hcol h d') (by show 32 * h.val + d'.val = o + d'.val; omega)
  have hsc : ∀ n' m' : Fin 64, scK (tr32 (sl o hs v39)) (tr32 (sl o hs v40)) (ix3 t n' m')
      = score (fun n j => v39 (ix3 t n j)) (fun n j => v40 (ix3 t n j)) h n' m' := fun n' m' => by
    rw [scK_apply]
    unfold score
    refine congrArg (· * Ideal.ofBits .f32 0x3E3504F3#32) (Finset.sum_congr rfl fun d' _ => ?_)
    rw [hq, hk]
  have hex : ∀ n' m' : Fin 64, exK (scK (tr32 (sl o hs v39)) (tr32 (sl o hs v40))) (ix3 t n' m')
      = pexp (fun n j => v39 (ix3 t n j)) (fun n j => v40 (ix3 t n j)) h n' m' := fun n' m' => by
    rw [exK_apply]
    unfold pexp smax
    rw [hsc]
    refine congrArg (fun z => Ideal.exp (_ - z)) (Finset.fold_congr fun m'' _ => hsc n' m'')
  have hnm : ∀ n' m' : Fin 64, nmK (exK (scK (tr32 (sl o hs v39)) (tr32 (sl o hs v40)))) (ix3 t n' m')
      = attn (fun n j => v39 (ix3 t n j)) (fun n j => v40 (ix3 t n j)) h n' m' := fun n' m' => by
    rw [nmK_apply]
    unfold attn psum
    rw [hex]
    refine congrArg (Ideal.div _) (Finset.sum_congr rfl fun m'' _ => hex n' m'')
  unfold headK
  rw [gmK_apply, avK_apply, gsl_apply g hg v41 t n h hgv]
  unfold head
  refine congrArg (· * Ideal.logistic (v41 (ix3 t n h))) (Finset.sum_congr rfl fun m' _ => ?_)
  rw [hnm, hk]

end Cert.KernelBody

end
-- ==== Proof.KernelTail.lean ====
/-
  The end of the kernel body, read at an index: the twelve heads set side by side along the channels, the
  attention output product added to the feed-forward branch, and the [512, 384] rows of tokens laid back as the
  [1, 384, 8, 64] block of pixels.
-/
import proofs.«127096_j46669114638476_2_alg».proof.Proof.KernelHead
import proofs.«127096_j46669114638476_2_alg».proof.Proof.KernelFlat

noncomputable section

namespace Cert.KernelBody

open Cert.KernelIdeal Cert.KernelIdeal.Gen Idealize.ShloMosaic Idealize.ShloMosaic.ValueIdx Cert.WinAttn

/-- Twelve heads of 32 channels side by side: 384 channels. -/
def catK (h0 h1 h2 h3 h4 h5 h6 h7 h8 h9 h10 h11 : FVec Ideal S8x64x32 .f32) : FVec Ideal S8x64x384 .f32 :=
  concatenate S8x64x384 2 [⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] concatenates_S8x64x32_S8x64x32_S8x64x32_S8x64x32_S8x64x32_S8x64x32_S8x64x32_S8x64x32_S8x64x32_S8x64x32_S8x64x32_S8x64x32_S8x64x384_d2

/-- Channel `d` of head `h` of the concatenation is channel `d` of the `h`-th piece. -/
theorem catK_apply (h0 h1 h2 h3 h4 h5 h6 h7 h8 h9 h10 h11 : FVec Ideal S8x64x32 .f32) (t : Fin 8) (n : Fin 64) (h : Fin 12) (d : Fin 32) :
    catK h0 h1 h2 h3 h4 h5 h6 h7 h8 h9 h10 h11 (ix3 t n (hcol h d)) = (![h0, h1, h2, h3, h4, h5, h6, h7, h8, h9, h10, h11] h) (ix3 t n d) := by
  unfold catK
  match h with
  | ⟨0, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨0, by omega⟩ d)) 0 (by show 0 < 12; omega) S8x64x32 h0 rfl rfl 0 (by rfl)
      (ix3 t n d) (fun b hb => by
        match b with
        | ⟨0, _⟩ => rfl
        | ⟨1, _⟩ => rfl
        | ⟨2, _⟩ => exact absurd rfl hb)
      (by show 0 + d.val = 32 * 0 + d.val; omega)
  | ⟨1, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨1, by omega⟩ d)) 1 (by show 1 < 12; omega) S8x64x32 h1 rfl rfl 32 (by rfl)
      (ix3 t n d) (fun b hb => by
        match b with
        | ⟨0, _⟩ => rfl
        | ⟨1, _⟩ => rfl
        | ⟨2, _⟩ => exact absurd rfl hb)
      (by show 32 + d.val = 32 * 1 + d.val; omega)
  | ⟨2, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨2, by omega⟩ d)) 2 (by show 2 < 12; omega) S8x64x32 h2 rfl rfl 64 (by rfl)
      (ix3 t n d) (fun b hb => by
        match b with
        | ⟨0, _⟩ => rfl
        | ⟨1, _⟩ => rfl
        | ⟨2, _⟩ => exact absurd rfl hb)
      (by show 64 + d.val = 32 * 2 + d.val; omega)
  | ⟨3, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨3, by omega⟩ d)) 3 (by show 3 < 12; omega) S8x64x32 h3 rfl rfl 96 (by rfl)
      (ix3 t n d) (fun b hb => by
        match b with
        | ⟨0, _⟩ => rfl
        | ⟨1, _⟩ => rfl
        | ⟨2, _⟩ => exact absurd rfl hb)
      (by show 96 + d.val = 32 * 3 + d.val; omega)
  | ⟨4, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨4, by omega⟩ d)) 4 (by show 4 < 12; omega) S8x64x32 h4 rfl rfl 128 (by rfl)
      (ix3 t n d) (fun b hb => by
        match b with
        | ⟨0, _⟩ => rfl
        | ⟨1, _⟩ => rfl
        | ⟨2, _⟩ => exact absurd rfl hb)
      (by show 128 + d.val = 32 * 4 + d.val; omega)
  | ⟨5, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨5, by omega⟩ d)) 5 (by show 5 < 12; omega) S8x64x32 h5 rfl rfl 160 (by rfl)
      (ix3 t n d) (fun b hb => by
        match b with
        | ⟨0, _⟩ => rfl
        | ⟨1, _⟩ => rfl
        | ⟨2, _⟩ => exact absurd rfl hb)
      (by show 160 + d.val = 32 * 5 + d.val; omega)
  | ⟨6, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨6, by omega⟩ d)) 6 (by show 6 < 12; omega) S8x64x32 h6 rfl rfl 192 (by rfl)
      (ix3 t n d) (fun b hb => by
        match b with
        | ⟨0, _⟩ => rfl
        | ⟨1, _⟩ => rfl
        | ⟨2, _⟩ => exact absurd rfl hb)
      (by show 192 + d.val = 32 * 6 + d.val; omega)
  | ⟨7, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨7, by omega⟩ d)) 7 (by show 7 < 12; omega) S8x64x32 h7 rfl rfl 224 (by rfl)
      (ix3 t n d) (fun b hb => by
        match b with
        | ⟨0, _⟩ => rfl
        | ⟨1, _⟩ => rfl
        | ⟨2, _⟩ => exact absurd rfl hb)
      (by show 224 + d.val = 32 * 7 + d.val; omega)
  | ⟨8, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨8, by omega⟩ d)) 8 (by show 8 < 12; omega) S8x64x32 h8 rfl rfl 256 (by rfl)
      (ix3 t n d) (fun b hb => by
        match b with
        | ⟨0, _⟩ => rfl
        | ⟨1, _⟩ => rfl
        | ⟨2, _⟩ => exact absurd rfl hb)
      (by show 256 + d.val = 32 * 8 + d.val; omega)
  | ⟨9, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨9, by omega⟩ d)) 9 (by show 9 < 12; omega) S8x64x32 h9 rfl rfl 288 (by rfl)
      (ix3 t n d) (fun b hb => by
        match b with
        | ⟨0, _⟩ => rfl
        | ⟨1, _⟩ => rfl
        | ⟨2, _⟩ => exact absurd rfl hb)
      (by show 288 + d.val = 32 * 9 + d.val; omega)
  | ⟨10, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨10, by omega⟩ d)) 10 (by show 10 < 12; omega) S8x64x32 h10 rfl rfl 320 (by rfl)
      (ix3 t n d) (fun b hb => by
        match b with
        | ⟨0, _⟩ => rfl
        | ⟨1, _⟩ => rfl
        | ⟨2, _⟩ => exact absurd rfl hb)
      (by show 320 + d.val = 32 * 10 + d.val; omega)
  | ⟨11, _⟩ =>
    exact concatenate_apply_piece (t := S8x64x384) (2 : Fin 3) ([⟨S8x64x32, h0⟩, ⟨S8x64x32, h1⟩, ⟨S8x64x32, h2⟩, ⟨S8x64x32, h3⟩, ⟨S8x64x32, h4⟩, ⟨S8x64x32, h5⟩, ⟨S8x64x32, h6⟩, ⟨S8x64x32, h7⟩, ⟨S8x64x32, h8⟩, ⟨S8x64x32, h9⟩, ⟨S8x64x32, h10⟩, ⟨S8x64x32, h11⟩] : List ((s : Shape) × (s.Idx → Ideal .f32))) concatenates_S8x64x32_S8x64x32_S8x64x32_S8x64x32_S8x64x32_S8x64x32_S8x64x32_S8x64x32_S8x64x32_S8x64x32_S8x64x32_S8x64x32_S8x64x384_d2 (ix3 t n (hcol ⟨11, by omega⟩ d)) 11 (by show 11 < 12; omega) S8x64x32 h11 rfl rfl 352 (by rfl)
      (ix3 t n d) (fun b hb => by
        match b with
        | ⟨0, _⟩ => rfl
        | ⟨1, _⟩ => rfl
        | ⟨2, _⟩ => exact absurd rfl hb)
      (by show 352 + d.val = 32 * 11 + d.val; omega)

/-- The attention output product added to the feed-forward branch, laid back as a block of pixels. -/
def tailK (v16 : FVec Ideal S384x384 .bf16) (v38 : FVec Ideal S512x384 .f32) (c : FVec Ideal S8x64x384 .f32) : FVec Ideal S1x384x8x64 .f32 :=
  shapeCast S1x384x8x64 (shapeCast S384x8x64 (transpose S384x1x8x8x8 [4, 0, 2, 1, 3]
    (shapeCast S1x8x8x8x384 (shapeCast S8x64x384
      (addf v38 (matmul dot_S512x384_S384x384_S512x384_1_0_0_1_n_n none
        (truncf .bf16 (shapeCast S512x384 c shapeCasts_S8x64x384_S512x384) bitsLt_bf16_f32) v16 (constant S512x384 .f32 0x00000000#32)))
      shapeCasts_S512x384_S8x64x384) shapeCasts_S8x64x384_S1x8x8x8x384)
    transposes_S1x8x8x8x384_p4_0_2_1_3_S384x1x8x8x8) shapeCasts_S384x1x8x8x8_S384x8x64) shapeCasts_S384x8x64_S1x384x8x64

/-- Pixel (p, x) of channel `c` of the block is channel `c` of token 8·p + x mod 8 of window x / 8: the feed-forward
    branch there plus the sum over the 384 attention channels against the output weight. -/
theorem tailK_apply (v16 : FVec Ideal S384x384 .bf16) (v38 : FVec Ideal S512x384 .f32) (cc : FVec Ideal S8x64x384 .f32)
    (c : Fin 384) (p : Fin 8) (x : Fin 64) (gx : Fin 8) (nn : Fin 64) (hgx : gx.val = x.val / 8) (hnn : nn.val = 8 * p.val + x.val % 8) :
    tailK v16 v38 cc (ix4 0 c p x)
      = v38 (ix2 (row gx nn) c) + ∑ j : Fin 384, cc (ix3 gx nn j) * v16 (ix2 j c) := by
  have hc := c.isLt
  have hp := p.isLt
  have hx := x.isLt
  unfold tailK
  refine (shapeCast_apply _ shapeCasts_S384x8x64_S1x384x8x64 (ix4 (0 : Fin 1) c p x) (ix3 c p x) (by
    rewrite [Shape.rowMajor_val_three, Shape.rowMajor_val_four]
    show (c.val * 8 + p.val) * 64 + x.val = ((0 * 384 + c.val) * 8 + p.val) * 64 + x.val
    omega)).trans ?_
  refine (shapeCast_apply _ shapeCasts_S384x1x8x8x8_S384x8x64 (ix3 c p x)
    (ix5 c (0 : Fin 1) p gx (⟨x.val % 8, by omega⟩ : Fin 8)) (by
    rewrite [Shape.rowMajor_val_five, Shape.rowMajor_val_three]
    show (((c.val * 1 + 0) * 8 + p.val) * 8 + gx.val) * 8 + x.val % 8 = (c.val * 8 + p.val) * 64 + x.val
    omega)).trans ?_
  refine (transpose_apply [4, 0, 2, 1, 3] _ transposes_S1x8x8x8x384_p4_0_2_1_3_S384x1x8x8x8
    (ix5 c (0 : Fin 1) p gx (⟨x.val % 8, by omega⟩ : Fin 8))
    (ix5 (0 : Fin 1) gx p (⟨x.val % 8, by omega⟩ : Fin 8) c) (fun b => by
    match b with
    | ⟨0, _⟩ => rfl
    | ⟨1, _⟩ => rfl
    | ⟨2, _⟩ => rfl
    | ⟨3, _⟩ => rfl
    | ⟨4, _⟩ => rfl)).trans ?_
  refine (shapeCast_apply _ shapeCasts_S8x64x384_S1x8x8x8x384
    (ix5 (0 : Fin 1) gx p (⟨x.val % 8, by omega⟩ : Fin 8) c) (ix3 gx nn c) (by
    rewrite [Shape.rowMajor_val_three, Shape.rowMajor_val_five]
    show (gx.val * 64 + nn.val) * 384 + c.val = (((0 * 8 + gx.val) * 8 + p.val) * 8 + x.val % 8) * 384 + c.val
    omega)).trans ?_
  refine (shapeCast_apply _ shapeCasts_S512x384_S8x64x384 (ix3 gx nn c) (ix2 (row gx nn) c) (by
    rewrite [Shape.rowMajor_val_two, Shape.rowMajor_val_three]
    show (64 * gx.val + nn.val) * 384 + c.val = (gx.val * 64 + nn.val) * 384 + c.val
    omega)).trans ?_
  show v38 (ix2 (row gx nn) c) + matmul dot_S512x384_S384x384_S512x384_1_0_0_1_n_n none
      (truncf .bf16 (shapeCast S512x384 cc shapeCasts_S8x64x384_S512x384) bitsLt_bf16_f32) v16 (constant S512x384 .f32 0x00000000#32) (ix2 (row gx nn) c) = _
  rw [mmK_apply]
  refine congrArg (v38 (ix2 (row gx nn) c) + ·) (Finset.sum_congr rfl fun j _ => ?_)
  refine congrArg (· * v16 (ix2 j c)) ?_
  exact shapeCast_apply cc shapeCasts_S8x64x384_S512x384 (ix2 (row gx nn) j) (ix3 gx nn j) (by
    rewrite [Shape.rowMajor_val_three, Shape.rowMajor_val_two]
    show (gx.val * 64 + nn.val) * 384 + j.val = (64 * gx.val + nn.val) * 384 + j.val
    omega)

end Cert.KernelBody

end
-- ==== Proof.KernelBody.lean ====
/-
  What the kernel body leaves in the output block, read at an index: the window function of the block's tokens.

  The body's stored value is, by unfolding, the end of the body applied to the twelve heads, each head the same
  chain on the queries, keys and gate logits of the block's eight windows. Reading it at pixel (p, x) of channel
  `c` gives token 8·p + x mod 8 of window x / 8: the feed-forward branch plus the attention branch, which are the
  two sums of the specification's `out` in the other order (addition of extended reals is commutative).
-/
import proofs.«127096_j46669114638476_2_alg».proof.Proof.Gen.KernelIdeal.Frame
import proofs.«127096_j46669114638476_2_alg».proof.Proof.KernelStages
import proofs.«127096_j46669114638476_2_alg».proof.Proof.KernelTail

noncomputable section

namespace Cert.KernelBody

open Cert.KernelIdeal Cert.KernelIdeal.Gen Idealize.ShloMosaic Idealize.ShloMosaic.ValueIdx Cert.WinAttn

/-- The stored value as the end of the body applied to the twelve heads. -/
theorem payload_eq (y0 : Vec Ideal S1x384x8x64 .f32) (y1 : Vec Ideal S384x512 .bf16) (y2 : Vec Ideal S384x384 .bf16)
    (y3 : Vec Ideal S384x1536 .bf16) (y4 : Vec Ideal S1x12 .f32) (y5 : Vec Ideal S384x384 .bf16)
    (y6 : Vec Ideal S1536x384 .bf16) (y7 y8 : Vec Ideal S1x1 .f32) :
    k0_pay2 (k0_pay4 y5) (k0_pay13 (k0_pay5 y6) (k0_pay6 y8) (k0_pay11 y0 y3) (k0_pay12 y7)) (k0_pay14 (k0_pay8 y0 y1)) (k0_pay15 (k0_pay10 y0 y2)) (k0_pay16 (k0_pay9 y0 y1 y4)) (k0_pay17 (k0_pay8 y0 y1) (k0_pay9 y0 y1 y4) (k0_pay10 y0 y2)) (k0_pay20 (k0_pay18 (k0_pay8 y0 y1) (k0_pay10 y0 y2)) (k0_pay19 (k0_pay9 y0 y1 y4))) (k0_pay21 (k0_pay14 (k0_pay8 y0 y1)) (k0_pay15 (k0_pay10 y0 y2)) (k0_pay16 (k0_pay9 y0 y1 y4))) (k0_pay22 (k0_pay14 (k0_pay8 y0 y1)) (k0_pay15 (k0_pay10 y0 y2)) (k0_pay16 (k0_pay9 y0 y1 y4))) (k0_pay25 (k0_pay16 (k0_pay9 y0 y1 y4)) (k0_pay23 (k0_pay14 (k0_pay8 y0 y1))) (k0_pay24 (k0_pay15 (k0_pay10 y0 y2)))) (k0_pay26 (k0_pay14 (k0_pay8 y0 y1)) (k0_pay15 (k0_pay10 y0 y2)) (k0_pay16 (k0_pay9 y0 y1 y4))) (k0_pay29 (k0_pay16 (k0_pay9 y0 y1 y4)) (k0_pay27 (k0_pay15 (k0_pay10 y0 y2))) (k0_pay28 (k0_pay14 (k0_pay8 y0 y1)) (k0_pay15 (k0_pay10 y0 y2)))) (k0_pay30 (k0_pay14 (k0_pay8 y0 y1)) (k0_pay15 (k0_pay10 y0 y2)) (k0_pay16 (k0_pay9 y0 y1 y4))) (k0_pay33 (k0_pay16 (k0_pay9 y0 y1 y4)) (k0_pay31 (k0_pay15 (k0_pay10 y0 y2))) (k0_pay32 (k0_pay14 (k0_pay8 y0 y1)) (k0_pay15 (k0_pay10 y0 y2)))) (k0_pay34 (k0_pay14 (k0_pay8 y0 y1)) (k0_pay15 (k0_pay10 y0 y2)) (k0_pay16 (k0_pay9 y0 y1 y4))) (k0_pay1 (k0_pay16 (k0_pay9 y0 y1 y4)) (k0_pay35 (k0_pay15 (k0_pay10 y0 y2))) (k0_pay36 (k0_pay14 (k0_pay8 y0 y1)) (k0_pay15 (k0_pay10 y0 y2))))
    = tailK (k0_pay4 y5) (k0_pay13 (k0_pay5 y6) (k0_pay6 y8) (k0_pay11 y0 y3) (k0_pay12 y7))
        (catK (headK 0 slices_S8x64x384_o0_0_0_S8x64x32 0 slices_S8x64x12_o0_0_0_S8x64x1 (k0_pay14 (k0_pay8 y0 y1)) (k0_pay15 (k0_pay10 y0 y2)) (k0_pay16 (k0_pay9 y0 y1 y4)))
          (headK 32 slices_S8x64x384_o0_0_32_S8x64x32 1 slices_S8x64x12_o0_0_1_S8x64x1 (k0_pay14 (k0_pay8 y0 y1)) (k0_pay15 (k0_pay10 y0 y2)) (k0_pay16 (k0_pay9 y0 y1 y4)))
          (headK 64 slices_S8x64x384_o0_0_64_S8x64x32 2 slices_S8x64x12_o0_0_2_S8x64x1 (k0_pay14 (k0_pay8 y0 y1)) (k0_pay15 (k0_pay10 y0 y2)) (k0_pay16 (k0_pay9 y0 y1 y4)))
          (headK 96 slices_S8x64x384_o0_0_96_S8x64x32 3 slices_S8x64x12_o0_0_3_S8x64x1 (k0_pay14 (k0_pay8 y0 y1)) (k0_pay15 (k0_pay10 y0 y2)) (k0_pay16 (k0_pay9 y0 y1 y4)))
          (headK 128 slices_S8x64x384_o0_0_128_S8x64x32 4 slices_S8x64x12_o0_0_4_S8x64x1 (k0_pay14 (k0_pay8 y0 y1)) (k0_pay15 (k0_pay10 y0 y2)) (k0_pay16 (k0_pay9 y0 y1 y4)))
          (headK 160 slices_S8x64x384_o0_0_160_S8x64x32 5 slices_S8x64x12_o0_0_5_S8x64x1 (k0_pay14 (k0_pay8 y0 y1)) (k0_pay15 (k0_pay10 y0 y2)) (k0_pay16 (k0_pay9 y0 y1 y4)))
          (headK 192 slices_S8x64x384_o0_0_192_S8x64x32 6 slices_S8x64x12_o0_0_6_S8x64x1 (k0_pay14 (k0_pay8 y0 y1)) (k0_pay15 (k0_pay10 y0 y2)) (k0_pay16 (k0_pay9 y0 y1 y4)))
          (headK 224 slices_S8x64x384_o0_0_224_S8x64x32 7 slices_S8x64x12_o0_0_7_S8x64x1 (k0_pay14 (k0_pay8 y0 y1)) (k0_pay15 (k0_pay10 y0 y2)) (k0_pay16 (k0_pay9 y0 y1 y4)))
          (headK 256 slices_S8x64x384_o0_0_256_S8x64x32 8 slices_S8x64x12_o0_0_8_S8x64x1 (k0_pay14 (k0_pay8 y0 y1)) (k0_pay15 (k0_pay10 y0 y2)) (k0_pay16 (k0_pay9 y0 y1 y4)))
          (headK 288 slices_S8x64x384_o0_0_288_S8x64x32 9 slices_S8x64x12_o0_0_9_S8x64x1 (k0_pay14 (k0_pay8 y0 y1)) (k0_pay15 (k0_pay10 y0 y2)) (k0_pay16 (k0_pay9 y0 y1 y4)))
          (headK 320 slices_S8x64x384_o0_0_320_S8x64x32 10 slices_S8x64x12_o0_0_10_S8x64x1 (k0_pay14 (k0_pay8 y0 y1)) (k0_pay15 (k0_pay10 y0 y2)) (k0_pay16 (k0_pay9 y0 y1 y4)))
          (headK 352 slices_S8x64x384_o0_0_352_S8x64x32 11 slices_S8x64x12_o0_0_11_S8x64x1 (k0_pay14 (k0_pay8 y0 y1)) (k0_pay15 (k0_pay10 y0 y2)) (k0_pay16 (k0_pay9 y0 y1 y4)))) := rfl

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Head `h` of the twelve, at window `t`, token `n`, channel `d` of the head. -/
theorem heads_apply (V39 V40 : FVec Ideal S8x64x384 .f32) (V41 : FVec Ideal S8x64x12 .f32) (t : Fin 8) (n : Fin 64) (h : Fin 12) (d : Fin 32) :
    (![headK 0 slices_S8x64x384_o0_0_0_S8x64x32 0 slices_S8x64x12_o0_0_0_S8x64x1 V39 V40 V41,
      headK 32 slices_S8x64x384_o0_0_32_S8x64x32 1 slices_S8x64x12_o0_0_1_S8x64x1 V39 V40 V41,
      headK 64 slices_S8x64x384_o0_0_64_S8x64x32 2 slices_S8x64x12_o0_0_2_S8x64x1 V39 V40 V41,
      headK 96 slices_S8x64x384_o0_0_96_S8x64x32 3 slices_S8x64x12_o0_0_3_S8x64x1 V39 V40 V41,
      headK 128 slices_S8x64x384_o0_0_128_S8x64x32 4 slices_S8x64x12_o0_0_4_S8x64x1 V39 V40 V41,
      headK 160 slices_S8x64x384_o0_0_160_S8x64x32 5 slices_S8x64x12_o0_0_5_S8x64x1 V39 V40 V41,
      headK 192 slices_S8x64x384_o0_0_192_S8x64x32 6 slices_S8x64x12_o0_0_6_S8x64x1 V39 V40 V41,
      headK 224 slices_S8x64x384_o0_0_224_S8x64x32 7 slices_S8x64x12_o0_0_7_S8x64x1 V39 V40 V41,
      headK 256 slices_S8x64x384_o0_0_256_S8x64x32 8 slices_S8x64x12_o0_0_8_S8x64x1 V39 V40 V41,
      headK 288 slices_S8x64x384_o0_0_288_S8x64x32 9 slices_S8x64x12_o0_0_9_S8x64x1 V39 V40 V41,
      headK 320 slices_S8x64x384_o0_0_320_S8x64x32 10 slices_S8x64x12_o0_0_10_S8x64x1 V39 V40 V41,
      headK 352 slices_S8x64x384_o0_0_352_S8x64x32 11 slices_S8x64x12_o0_0_11_S8x64x1 V39 V40 V41] h) (ix3 t n d)
      = head (fun n j => V39 (ix3 t n j)) (fun n j => V40 (ix3 t n j)) h n d * Ideal.logistic (V41 (ix3 t n h)) := by
  match h with
  | ⟨0, _⟩ => exact headK_apply ⟨0, by omega⟩ 0 rfl slices_S8x64x384_o0_0_0_S8x64x32 0 rfl slices_S8x64x12_o0_0_0_S8x64x1 V39 V40 V41 t n d
  | ⟨1, _⟩ => exact headK_apply ⟨1, by omega⟩ 32 rfl slices_S8x64x384_o0_0_32_S8x64x32 1 rfl slices_S8x64x12_o0_0_1_S8x64x1 V39 V40 V41 t n d
  | ⟨2, _⟩ => exact headK_apply ⟨2, by omega⟩ 64 rfl slices_S8x64x384_o0_0_64_S8x64x32 2 rfl slices_S8x64x12_o0_0_2_S8x64x1 V39 V40 V41 t n d
  | ⟨3, _⟩ => exact headK_apply ⟨3, by omega⟩ 96 rfl slices_S8x64x384_o0_0_96_S8x64x32 3 rfl slices_S8x64x12_o0_0_3_S8x64x1 V39 V40 V41 t n d
  | ⟨4, _⟩ => exact headK_apply ⟨4, by omega⟩ 128 rfl slices_S8x64x384_o0_0_128_S8x64x32 4 rfl slices_S8x64x12_o0_0_4_S8x64x1 V39 V40 V41 t n d
  | ⟨5, _⟩ => exact headK_apply ⟨5, by omega⟩ 160 rfl slices_S8x64x384_o0_0_160_S8x64x32 5 rfl slices_S8x64x12_o0_0_5_S8x64x1 V39 V40 V41 t n d
  | ⟨6, _⟩ => exact headK_apply ⟨6, by omega⟩ 192 rfl slices_S8x64x384_o0_0_192_S8x64x32 6 rfl slices_S8x64x12_o0_0_6_S8x64x1 V39 V40 V41 t n d
  | ⟨7, _⟩ => exact headK_apply ⟨7, by omega⟩ 224 rfl slices_S8x64x384_o0_0_224_S8x64x32 7 rfl slices_S8x64x12_o0_0_7_S8x64x1 V39 V40 V41 t n d
  | ⟨8, _⟩ => exact headK_apply ⟨8, by omega⟩ 256 rfl slices_S8x64x384_o0_0_256_S8x64x32 8 rfl slices_S8x64x12_o0_0_8_S8x64x1 V39 V40 V41 t n d
  | ⟨9, _⟩ => exact headK_apply ⟨9, by omega⟩ 288 rfl slices_S8x64x384_o0_0_288_S8x64x32 9 rfl slices_S8x64x12_o0_0_9_S8x64x1 V39 V40 V41 t n d
  | ⟨10, _⟩ => exact headK_apply ⟨10, by omega⟩ 320 rfl slices_S8x64x384_o0_0_320_S8x64x32 10 rfl slices_S8x64x12_o0_0_10_S8x64x1 V39 V40 V41 t n d
  | ⟨11, _⟩ => exact headK_apply ⟨11, by omega⟩ 352 rfl slices_S8x64x384_o0_0_352_S8x64x32 11 rfl slices_S8x64x12_o0_0_11_S8x64x1 V39 V40 V41 t n d

theorem body_eq (x0 : Vec Ideal S1x384x8x64 .f32) (x1 : Vec Ideal S384x512 .bf16) (x2 : Vec Ideal S384x384 .bf16)
    (x3 : Vec Ideal S384x1536 .bf16) (x4 : Vec Ideal S1x12 .f32) (x5 : Vec Ideal S384x384 .bf16)
    (x6 : Vec Ideal S1536x384 .bf16) (x7 x8 : Vec Ideal S1x1 .f32)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (s6 s7 : EReal)
    (h1q : ∀ (k j : Fin 384), x1 (ix2 k ⟨j.val, by have := j.isLt; omega⟩) = Wf (ix2 (qcol j) k))
    (h1g : ∀ (k : Fin 384) (h : Fin 12), x1 (ix2 k ⟨384 + h.val, by have := h.isLt; omega⟩) = Wg (ix2 h k))
    (h2 : ∀ k j : Fin 384, x2 (ix2 k j) = Wf (ix2 (kcol j) k))
    (h3 : ∀ (k : Fin 384) (f : Fin 1536), x3 (ix2 k f) = Wf (ix2 (fcol f) k))
    (h4 : ∀ h : Fin 12, x4 (ix2 0 h) = Bg (ix1 h))
    (h5 : ∀ j o : Fin 384, x5 (ix2 j o) = Wa (ix2 o j))
    (h6 : ∀ (f : Fin 1536) (o : Fin 384), x6 (ix2 f o) = Wo (ix2 o f))
    (h7 : x7 (ix2 0 0) = s6) (h8 : x8 (ix2 0 0) = s7)
    (c : Fin 384) (p : Fin 8) (x : Fin 64) :
    out0_9 x0 x1 x2 x3 x4 x5 x6 x7 x8 (ix4 0 c p x)
      = out (blkTok x0 ⟨x.val / 8, by have := x.isLt; omega⟩) Wf Wg Bg Wa Wo s6 s7
          ⟨8 * p.val + x.val % 8, by have := p.isLt; omega⟩ c := by
  unfold out0_9
  rw [View.canon_unit_zero hz4]
  simp only [View.ld_unit_zero (S := S1x384x8x64) hz4, View.ld_unit_zero (S := S384x512) hz2, View.ld_unit_zero (S := S384x384) hz2,
    View.ld_unit_zero (S := S384x1536) hz2, View.ld_unit_zero (S := S1x12) hz2, View.ld_unit_zero (S := S1536x384) hz2,
    View.ld_unit_zero (S := S1x1) hz2]
  rw [payload_eq, tailK_apply _ _ _ c p x ⟨x.val / 8, by have := x.isLt; omega⟩ ⟨8 * p.val + x.val % 8, by have := p.isLt; omega⟩ rfl rfl]
  rw [ff_eq x0 x3 x6 x7 x8 Wf Wo s6 s7 h3 h6 h7 h8]
  unfold out
  rw [add_comm]
  refine congrArg (· + _) (Finset.sum_congr rfl fun j _ => ?_)
  have hj : j = hcol (hOf j) (dOf j) := Fin.ext (by show j.val = 32 * (j.val / 32) + j.val % 32; omega)
  have e5 : k0_pay4 x5 (ix2 j c) = Wa (ix2 c j) := by
    show shapeCast S384x384 x5 shapeCasts_S384x384_S384x384 (ix2 j c) = _
    rw [shapeCast_self, h5]
  rw [e5]
  refine congrArg (· * Wa (ix2 c j)) ?_
  conv_lhs => rw [hj]
  rw [catK_apply, heads_apply, q_eq x0 x1 Wf h1q, k_eq x0 x2 Wf h2, g_eq x0 x1 x4 Wg Bg h1g h4]
  rfl

end Cert.KernelBody

end
-- ==== Proof.KernelGlue.lean ====
/-
  The arrays the kernel's region finds in its eight weight windows, read at an index, in terms of the argument arrays:
  the host operations before the region only slice, transpose, pad, concatenate and reshape the weights (and change their
  format, which is the identity on extended reals).
-/
import proofs.«127096_j46669114638476_2_alg».proof.Proof.Gen.KernelIdeal.Frame
import proofs.«127096_j46669114638476_2_alg».proof.Proof.Spec
import Idealize.ShloMosaic.Lib.Pipeline.Value
import Idealize.ShloMosaic.Lib.ValueIdx
import Idealize.ShloMosaic.Lib.KernelVsHost
import Idealize.ShloMosaic.Lib.ValueLayout

noncomputable section

namespace Cert.KernelGlue

open Cert.KernelIdeal Cert.KernelIdeal.Gen Idealize.ShloMosaic Idealize.ShloMosaic.TcCoe Idealize.SL.Sem
open Idealize.ShloMosaic.ValueIdx Cert.WinAttn

variable (m : (ℓ : Loc nD τ sig) → Buf (Elt Idealize.ShloMosaic.Ideal) ℓ) (c : Dev nD)

/-! ## The argument arrays, as functions of an index -/

/-- The image. -/
abbrev A0 : S16x384x64x64.Idx → EReal := m ((c : Thread nD τ).loc main_arg0)
/-- The fused weight: rows 0–383 queries, 384–767 keys, 768–2303 feed-forward. -/
abbrev A1 : S2304x384.Idx → EReal := m ((c : Thread nD τ).loc main_arg1)
/-- The gate weight. -/
abbrev A2 : S12x384.Idx → EReal := m ((c : Thread nD τ).loc main_arg2)
/-- The gate bias. -/
abbrev A3 : S12.Idx → EReal := m ((c : Thread nD τ).loc main_arg3)
/-- The attention output weight. -/
abbrev A4 : S384x384.Idx → EReal := m ((c : Thread nD τ).loc main_arg4)
/-- The feed-forward output weight. -/
abbrev A5 : S384x1536.Idx → EReal := m ((c : Thread nD τ).loc main_arg5)
/-- The activation's scale and bias. -/
abbrev A6 : S_.Idx → EReal := m ((c : Thread nD τ).loc main_arg6)
abbrev A7 : S_.Idx → EReal := m ((c : Thread nD τ).loc main_arg7)

/-! ## Each window's array as the host operations' term of the arguments -/

/-- Window 2's array: rows 384–767 of the fused weight, transposed. -/
theorem v4_term : (V m c main_v4 : S384x384.Idx → EReal)
    = truncf (F := Idealize.ShloMosaic.Ideal) .bf16 (transpose S384x384 [1, 0]
        (extractStridedSlice S384x384 ![384, 0] (A1 m c) slices_S2304x384_S384x384_384_0)
        transposes_S384x384_S384x384_1_0) bitsLt_bf16_f32 := by
  dsimp only [Gen.V]
  simp only [Gen.hostOps0, Gen.hostOps0_1, Gen.hostOps0_2, List.flatten_cons, List.flatten_nil, List.append_nil, List.cons_append, List.nil_append]
  after_results

/-- Window 3's array: rows 768–2303 of the fused weight, transposed. -/
theorem v7_term : (V m c main_v7 : S384x1536.Idx → EReal)
    = truncf (F := Idealize.ShloMosaic.Ideal) .bf16 (transpose S384x1536 [1, 0]
        (extractStridedSlice S1536x384 ![768, 0] (A1 m c) slices_S2304x384_S1536x384_768_0)
        transposes_S1536x384_S384x1536_1_0) bitsLt_bf16_f32 := by
  dsimp only [Gen.V]
  simp only [Gen.hostOps0, Gen.hostOps0_1, Gen.hostOps0_2, List.flatten_cons, List.flatten_nil, List.append_nil, List.cons_append, List.nil_append]
  after_results

/-- Window 1's array: rows 0–383 of the fused weight transposed, then the gate weight transposed and padded to 128 columns. -/
theorem v11_term : ∃ v : S_.Idx → EReal, (V m c main_v11 : S384x512.Idx → EReal)
    = truncf (F := Idealize.ShloMosaic.Ideal) .bf16 (concatenate S384x512 1
        [⟨S384x384, transpose S384x384 [1, 0]
            (extractStridedSlice S384x384 ![0, 0] (A1 m c) slices_S2304x384_S384x384_0_0)
            transposes_S384x384_S384x384_1_0⟩,
         ⟨S384x128, pad S384x128 ![0, 0] ![0, 116] ![0, 0]
            (transpose S384x12 [1, 0] (A2 m c) transposes_S12x384_S384x12_1_0) v
            pads_S384x12_S384x128_000_01160 h_S_⟩]
        concatenates_S384x384_S384x128_S384x512_d1) bitsLt_bf16_f32 := by
  refine ⟨sitofp (F := Idealize.ShloMosaic.Ideal) .f32 (constantI S_ 32 0#32), ?_⟩
  dsimp only [Gen.V]
  simp only [Gen.hostOps0, Gen.hostOps0_1, Gen.hostOps0_2, List.flatten_cons, List.flatten_nil, List.append_nil, List.cons_append, List.nil_append]
  after_results
  first | done | rfl

/-- Window 4's array: the gate bias as one row. -/
theorem v12_term : (V m c main_v12 : S1x12.Idx → EReal) = shapeCast S1x12 (A3 m c) shapeCasts_S12_S1x12 := by
  dsimp only [Gen.V]
  simp only [Gen.hostOps0, Gen.hostOps0_1, Gen.hostOps0_2, List.flatten_cons, List.flatten_nil, List.append_nil, List.cons_append, List.nil_append]
  after_results
  rfl

/-- Window 5's array: the attention output weight, transposed. -/
theorem v14_term : (V m c main_v14 : S384x384.Idx → EReal)
    = truncf (F := Idealize.ShloMosaic.Ideal) .bf16 (transpose S384x384 [1, 0] (A4 m c) transposes_S384x384_S384x384_1_0) bitsLt_bf16_f32 := by
  dsimp only [Gen.V]
  simp only [Gen.hostOps0, Gen.hostOps0_1, Gen.hostOps0_2, List.flatten_cons, List.flatten_nil, List.append_nil, List.cons_append, List.nil_append]
  after_results

/-- Window 6's array: the feed-forward output weight, transposed. -/
theorem v16_term : (V m c main_v16 : S1536x384.Idx → EReal)
    = truncf (F := Idealize.ShloMosaic.Ideal) .bf16 (transpose S1536x384 [1, 0] (A5 m c) transposes_S384x1536_S1536x384_1_0) bitsLt_bf16_f32 := by
  dsimp only [Gen.V]
  simp only [Gen.hostOps0, Gen.hostOps0_1, Gen.hostOps0_2, List.flatten_cons, List.flatten_nil, List.append_nil, List.cons_append, List.nil_append]
  after_results

/-- Windows 7 and 8's arrays: the two scalars as 1×1 arrays. -/
theorem v17_term : (V m c main_v17 : S1x1.Idx → EReal) = shapeCast S1x1 (A6 m c) shapeCasts_S_S1x1 := by
  dsimp only [Gen.V]
  simp only [Gen.hostOps0, Gen.hostOps0_1, Gen.hostOps0_2, List.flatten_cons, List.flatten_nil, List.append_nil, List.cons_append, List.nil_append]
  after_results
  rfl
theorem v18_term : (V m c main_v18 : S1x1.Idx → EReal) = shapeCast S1x1 (A7 m c) shapeCasts_S_S1x1 := by
  dsimp only [Gen.V]
  simp only [Gen.hostOps0, Gen.hostOps0_1, Gen.hostOps0_2, List.flatten_cons, List.flatten_nil, List.append_nil, List.cons_append, List.nil_append]
  after_results
  rfl

/-! ## The arrays read at an index -/

/-- Window 2's array at (k, j): row 384 + j of the fused weight, column k. -/
theorem v4_apply (k j : Fin 384) : (V m c main_v4 : S384x384.Idx → EReal) (ix2 k j) = A1 m c (ix2 (kcol j) k) := by
  rw [v4_term, truncf_apply]
  refine (transpose_apply _ _ _ (ix2 k j) (ix2 j k) fun b => ?_).trans ?_
  · match b with | ⟨0, _⟩ => rfl | ⟨1, _⟩ => rfl
  · refine extractStridedSlice_apply _ _ _ (ix2 j k) (ix2 (kcol j) k) fun a => ?_
    match a with
    | ⟨0, _⟩ => rfl
    | ⟨1, _⟩ => show k.val = 0 + k.val; omega

/-- Window 3's array at (k, f): row 768 + f of the fused weight, column k. -/
theorem v7_apply (k : Fin 384) (f : Fin 1536) : (V m c main_v7 : S384x1536.Idx → EReal) (ix2 k f) = A1 m c (ix2 (fcol f) k) := by
  rw [v7_term, truncf_apply]
  refine (transpose_apply _ _ _ (ix2 k f) (ix2 f k) fun b => ?_).trans ?_
  · match b with | ⟨0, _⟩ => rfl | ⟨1, _⟩ => rfl
  · refine extractStridedSlice_apply _ _ _ (ix2 f k) (ix2 (fcol f) k) fun a => ?_
    match a with
    | ⟨0, _⟩ => rfl
    | ⟨1, _⟩ => show k.val = 0 + k.val; omega

/-- Window 1's array at (k, j), j below 384: row j of the fused weight, column k. -/
theorem v11_apply_left (k j : Fin 384) :
    (V m c main_v11 : S384x512.Idx → EReal) (ix2 k ⟨j.val, by have := j.isLt; omega⟩) = A1 m c (ix2 (qcol j) k) := by
  obtain ⟨v, e⟩ := v11_term m c
  rw [e, truncf_apply]
  refine (concatenate_pair_apply_left (t := S384x512) (s₁ := S384x384) (s₂ := S384x128) 1 _ _ _ _ (show (2 : Nat) = 2 from rfl) (ix2 k j) fun b => ?_).trans ?_
  · match b with | ⟨0, _⟩ => rfl | ⟨1, _⟩ => rfl
  refine (transpose_apply _ _ _ (ix2 k j) (ix2 j k) fun b => ?_).trans ?_
  · match b with | ⟨0, _⟩ => rfl | ⟨1, _⟩ => rfl
  · refine extractStridedSlice_apply _ _ _ (ix2 j k) (ix2 (qcol j) k) fun a => ?_
    match a with
    | ⟨0, _⟩ => show j.val = 0 + j.val; omega
    | ⟨1, _⟩ => show k.val = 0 + k.val; omega

/-- Window 1's array at (k, 384 + h), h below 12: row h of the gate weight, column k (inside the padding's operand). -/
theorem v11_apply_right (k : Fin 384) (h : Fin 12) :
    (V m c main_v11 : S384x512.Idx → EReal) (ix2 k ⟨384 + h.val, by have := h.isLt; omega⟩) = A2 m c (ix2 h k) := by
  obtain ⟨v, e⟩ := v11_term m c
  rw [e, truncf_apply]
  refine (concatenate_pair_apply_right (t := S384x512) (s₁ := S384x384) (s₂ := S384x128) 1 _ _ _ _ (show (2 : Nat) = 2 from rfl) (show (2 : Nat) = 2 from rfl) (ix2 k (⟨h.val, by have := h.isLt; omega⟩ : Fin 128)) (fun b hb => ?_) ?_).trans ?_
  · match b with
    | ⟨0, _⟩ => rfl
    | ⟨1, _⟩ => exact absurd rfl hb
  · show h.val + 384 = 384 + h.val; omega
  refine (pad_apply_of_inside _ _ _ _ _ _ _ _ (ix2 k h) fun a => ?_).trans ?_
  · match a with
    | ⟨0, _⟩ => show k.val = 0 + k.val * (0 + 1); omega
    | ⟨1, _⟩ => show h.val = 0 + h.val * (0 + 1); omega
  · refine transpose_apply _ _ _ (ix2 k h) (ix2 h k) fun b => ?_
    match b with | ⟨0, _⟩ => rfl | ⟨1, _⟩ => rfl

/-- Window 4's array at (0, h): entry h of the gate bias. -/
theorem v12_apply (h : Fin 12) : (V m c main_v12 : S1x12.Idx → EReal) (ix2 0 h) = A3 m c (ix1 h) := by
  rw [v12_term]
  exact shapeCast_a_1a_apply _ _ 0 h

/-- Window 5's array at (j, o): the attention output weight at (o, j). -/
theorem v14_apply (j o : Fin 384) : (V m c main_v14 : S384x384.Idx → EReal) (ix2 j o) = A4 m c (ix2 o j) := by
  rw [v14_term, truncf_apply]
  refine transpose_apply _ _ _ (ix2 j o) (ix2 o j) fun b => ?_
  match b with | ⟨0, _⟩ => rfl | ⟨1, _⟩ => rfl

/-- Window 6's array at (f, o): the feed-forward output weight at (o, f). -/
theorem v16_apply (f : Fin 1536) (o : Fin 384) : (V m c main_v16 : S1536x384.Idx → EReal) (ix2 f o) = A5 m c (ix2 o f) := by
  rw [v16_term, truncf_apply]
  refine transpose_apply _ _ _ (ix2 f o) (ix2 o f) fun b => ?_
  match b with | ⟨0, _⟩ => rfl | ⟨1, _⟩ => rfl

/-- A scalar cast to a 1×1 array reads the scalar. -/
theorem shapeCast_scalar_1x1 (x : S_.Idx → EReal) (h : S_.ShapeCasts S1x1) (j : S1x1.Idx) : shapeCast S1x1 x h j = x ix0 := by
  unfold shapeCast
  exact congrArg x (funext fun a => a.elim0)

/-- Windows 7 and 8's arrays at (0, 0): the two scalars. -/
theorem v17_apply : (V m c main_v17 : S1x1.Idx → EReal) (ix2 0 0) = A6 m c ix0 := by
  rw [v17_term]; exact shapeCast_scalar_1x1 _ _ _
theorem v18_apply : (V m c main_v18 : S1x1.Idx → EReal) (ix2 0 0) = A7 m c ix0 := by
  rw [v18_term]; exact shapeCast_scalar_1x1 _ _ _

end Cert.KernelGlue

end
-- ==== Proof.KernelFinal.lean ====
/-
  From the kernel's blocks to its result array: at grid point (b, r) the body is run on rows 8r … 8r+7 of image b and on the
  re-laid weights, so what it leaves is block (b, 0, r, 0) of the specification's function of the argument arrays; the 128
  blocks cover the result array, which therefore ends holding that function.
-/
import proofs.«127096_j46669114638476_2_alg».proof.Proof.Gen.KernelIdeal.Value
import proofs.«127096_j46669114638476_2_alg».proof.Proof.KernelBody
import proofs.«127096_j46669114638476_2_alg».proof.Proof.KernelGlue
import proofs.«127096_j46669114638476_2_alg».proof.Proof.Spec
import Idealize.ShloMosaic.Lib.Pipeline.Value
import Idealize.ShloMosaic.Lib.ValueIdx

noncomputable section

namespace Cert.KernelFinal

open Cert.KernelIdeal Cert.KernelIdeal.Gen Idealize.ShloMosaic Idealize.ShloMosaic.TcCoe Idealize.SL.Sem
open Idealize.ShloMosaic.ValueIdx Cert.WinAttn Cert.KernelBody
open Idealize.ShloMosaic.Pipeline (Dat)

/-! ## One block of the result, over plain variables -/

/-- The window function depends on the tokens and on the token's number only through their values. -/
theorem out_congr {xw xw' : Fin 64 → Fin 384 → EReal} (hx : ∀ n k, xw n k = xw' n k)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (s6 s7 : EReal) {n n' : Fin 64} (hn : n.val = n'.val) (o : Fin 384) :
    out xw Wf Wg Bg Wa Wo s6 s7 n o = out xw' Wf Wg Bg Wa Wo s6 s7 n' o := by
  obtain rfl : xw = xw' := funext fun n => funext fun k => hx n k
  obtain rfl : n = n' := Fin.ext hn
  rfl

/-- What the body leaves in the output block whose input block is rows 8r … 8r+7 of image b (`h0`) and whose weight blocks
    are the re-laid weights (`h1q` … `h8`), at the block index `y`, is the result function at the array index `i` with
    the same channel and column, image b and row 8r + (the block's row). -/
theorem block_value (X : (⟨4, ![16, 384, 64, 64]⟩ : Shape).Idx → EReal)
    (Wf : (⟨2, ![2304, 384]⟩ : Shape).Idx → EReal) (Wg : (⟨2, ![12, 384]⟩ : Shape).Idx → EReal)
    (Bg : (⟨1, ![12]⟩ : Shape).Idx → EReal) (Wa : (⟨2, ![384, 384]⟩ : Shape).Idx → EReal)
    (Wo : (⟨2, ![384, 1536]⟩ : Shape).Idx → EReal) (S6 S7 : (⟨0, ![]⟩ : Shape).Idx → EReal)
    (x0 : Vec Idealize.ShloMosaic.Ideal S1x384x8x64 .f32) (x1 : Vec Idealize.ShloMosaic.Ideal S384x512 .bf16)
    (x2 : Vec Idealize.ShloMosaic.Ideal S384x384 .bf16) (x3 : Vec Idealize.ShloMosaic.Ideal S384x1536 .bf16)
    (x4 : Vec Idealize.ShloMosaic.Ideal S1x12 .f32) (x5 : Vec Idealize.ShloMosaic.Ideal S384x384 .bf16)
    (x6 : Vec Idealize.ShloMosaic.Ideal S1536x384 .bf16) (x7 x8 : Vec Idealize.ShloMosaic.Ideal S1x1 .f32)
    (b : Fin 16) (r : Fin 8)
    (h0 : ∀ (k : Fin 384) (p : Fin 8) (x : Fin 64),
      x0 (ix4 0 k p x) = X (ix4 b k ⟨8 * r.val + p.val, by have := r.isLt; have := p.isLt; omega⟩ x))
    (h1q : ∀ (k j : Fin 384), x1 (ix2 k ⟨j.val, by have := j.isLt; omega⟩) = Wf (ix2 (qcol j) k))
    (h1g : ∀ (k : Fin 384) (h : Fin 12), x1 (ix2 k ⟨384 + h.val, by have := h.isLt; omega⟩) = Wg (ix2 h k))
    (h2 : ∀ k j : Fin 384, x2 (ix2 k j) = Wf (ix2 (kcol j) k))
    (h3 : ∀ (k : Fin 384) (f : Fin 1536), x3 (ix2 k f) = Wf (ix2 (fcol f) k))
    (h4 : ∀ h : Fin 12, x4 (ix2 0 h) = Bg (ix1 h))
    (h5 : ∀ j o : Fin 384, x5 (ix2 j o) = Wa (ix2 o j))
    (h6 : ∀ (f : Fin 1536) (o : Fin 384), x6 (ix2 f o) = Wo (ix2 o f))
    (h7 : x7 (ix2 0 0) = S6 ix0) (h8 : x8 (ix2 0 0) = S7 ix0)
    (y : S1x384x8x64.Idx) (i : S16x384x64x64.Idx)
    (hi0 : (i 0).val = b.val) (hi1 : (i 1).val = (y 1).val) (hi2 : (i 2).val = 8 * r.val + (y 2).val)
    (hi3 : (i 3).val = (y 3).val) :
    out0_9 x0 x1 x2 x3 x4 x5 x6 x7 x8 y = G X Wf Wg Bg Wa Wo S6 S7 i := by
  obtain ⟨u, ch, p, x, rfl⟩ : ∃ (u : Fin 1) (ch : Fin 384) (p : Fin 8) (x : Fin 64), y = ix4 u ch p x :=
    ⟨y 0, y 1, y 2, y 3, eq_ix4 y⟩
  obtain rfl : u = 0 := Fin.ext (by have := u.isLt; omega)
  obtain ⟨ib, ic, iy, jx, rfl⟩ : ∃ (ib : Fin 16) (ic : Fin 384) (iy : Fin 64) (jx : Fin 64), i = ix4 ib ic iy jx :=
    ⟨i 0, i 1, i 2, i 3, eq_ix4 i⟩
  obtain rfl : ib = b := Fin.ext hi0
  obtain rfl : ic = ch := Fin.ext hi1
  obtain rfl : jx = x := Fin.ext hi3
  have hp := p.isLt
  have hr := r.isLt
  have hy : iy.val = 8 * r.val + p.val := hi2
  rw [G_ix4, body_eq x0 x1 x2 x3 x4 x5 x6 x7 x8 Wf Wg Bg Wa Wo (S6 ix0) (S7 ix0) h1q h1g h2 h3 h4 h5 h6 h7 h8 ic p jx]
  unfold outAt
  refine out_congr (fun n k => ?_) Wf Wg Bg Wa Wo (S6 ix0) (S7 ix0) (by show 8 * p.val + jx.val % 8 = 8 * (iy.val % 8) + jx.val % 8; omega) ic
  show x0 (ix4 0 k ⟨n.val / 8, _⟩ ⟨8 * (jx.val / 8) + n.val % 8, _⟩)
    = X (ix4 ib k ⟨8 * (iy.val / 8) + n.val / 8, _⟩ ⟨8 * (jx.val / 8) + n.val % 8, _⟩)
  rw [h0]
  have e : (⟨8 * r.val + (⟨n.val / 8, by have := n.isLt; omega⟩ : Fin 8).val, by have := n.isLt; omega⟩ : Fin 64)
      = ⟨8 * (iy.val / 8) + n.val / 8, by have := n.isLt; have := iy.isLt; omega⟩ :=
    Fin.ext (by show 8 * r.val + n.val / 8 = 8 * (iy.val / 8) + n.val / 8; omega)
  rw [e]

/-! ## The printed index maps over the grid -/

/-- The input block and the output block move together: block (b, 0, r, 0) at point (b, r); every weight block is block (0, 0). -/
theorem idx_facts : ∀ t : Fin cfg0.N,
    win0_0.index t (0 : Fin 4) = win0_9.index t (0 : Fin 4) ∧ win0_0.index t (1 : Fin 4) = 0
    ∧ win0_0.index t (2 : Fin 4) = win0_9.index t (2 : Fin 4) ∧ win0_0.index t (3 : Fin 4) = 0
    ∧ win0_9.index t (1 : Fin 4) = 0 ∧ win0_9.index t (3 : Fin 4) = 0
    ∧ win0_9.index t (0 : Fin 4) < 16 ∧ win0_9.index t (2 : Fin 4) < 8 :=
  (by decide +kernel : ∀ t : Fin grid0.N, _)

theorem idx_weights : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Every block (b, 0, r, 0) of the result is some point's. -/
theorem idx_onto : ∀ (b : Fin 16) (r : Fin 8), ∃ t : Fin cfg0.N, win0_9.index t = ![b.val, 0, r.val, 0] :=
  (by decide +kernel : ∀ (b : Fin 16) (r : Fin 8), ∃ t : Fin grid0.N, win0_9.index t = ![b.val, 0, r.val, 0])

/-- An index of the result array is in point `t`'s block iff each coordinate is in the block's range on its axis. -/
theorem mem_blk (t : Fin cfg0.N) (i : S16x384x64x64.Idx) :
    i ∈ ((cfg0.win 9).blk t).view.set ↔ ∀ a : Fin 4, win0_9.index t a * S1x384x8x64.size a ≤ (i a).val ∧ (i a).val < win0_9.index t a * S1x384x8x64.size a + S1x384x8x64.size a := by
  show i ∈ ((View.whole main_v19).slice (win0_9.rect t)).set ↔ _
  rw [View.set_slice_whole, Rect.mem_set_unit]
  exact Iff.rfl

/-- Every index (b, c, y, x) of the result is in the block of the point whose block index is (b, 0, y / 8, 0). -/
theorem cover (i : S16x384x64x64.Idx) : ∃ t : Fin cfg0.N, (cfg0.win 9).flush t = true ∧ i ∈ ((cfg0.win 9).blk t).view.set := by
  have hi0 : (i 0).val < 16 := (i 0).isLt
  have hi1 : (i 1).val < 384 := (i 1).isLt
  have hi2 : (i 2).val < 64 := (i 2).isLt
  have hi3 : (i 3).val < 64 := (i 3).isLt
  obtain ⟨t, ht⟩ := idx_onto ⟨(i 0).val, hi0⟩ ⟨(i 2).val / 8, by omega⟩
  have q0 : win0_9.index t (0 : Fin 4) = (i 0).val := congrFun ht 0
  have q1 : win0_9.index t (1 : Fin 4) = 0 := congrFun ht 1
  have q2 : win0_9.index t (2 : Fin 4) = (i 2).val / 8 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 384 ≤ (i 1).val ∧ (i 1).val < win0_9.index t (1 : Fin 4) * 384 + 384; omega
  | ⟨2, _⟩ => show win0_9.index t (2 : Fin 4) * 8 ≤ (i 2).val ∧ (i 2).val < win0_9.index t (2 : Fin 4) * 8 + 8; omega
  | ⟨3, _⟩ => show win0_9.index t (3 : Fin 4) * 64 ≤ (i 3).val ∧ (i 3).val < win0_9.index t (3 : Fin 4) * 64 + 64; omega

/-! ## The blocks the body is run on, read off the arrays -/

variable (m : (ℓ : Loc nD τ sig) → Buf (Elt Idealize.ShloMosaic.Ideal) ℓ) (ρ : Dev nD → PrngReg) (c : Dev nD)

open Cert.KernelGlue

/-- The result array as the specification's function of the argument arrays. -/
abbrev Gm : S16x384x64x64.Idx → EReal :=
  G (A0 m c) (A1 m c) (A2 m c) (A3 m c) (A4 m c) (A5 m c) (A6 m c) (A7 m c)

/-! Each weight window's block is its whole array at every point: its block index is (0, 0). -/

theorem iblk1_eq (t : Fin cfg0.N) (y : S384x512.Idx) :
    (iblk m c 1 t : Vec Idealize.ShloMosaic.Ideal S384x512 .bf16) y = (V m c main_v11 : S384x512.Idx → EReal) y := by
  obtain ⟨⟨e0, e1⟩, -, -, -, -, -, -, -⟩ := idx_weights t
  unfold iblk
  rw [View.read_apply]
  show V m c main_v11 _ = V m c main_v11 y
  congr 1
  funext a
  apply Fin.ext
  match a with
  | ⟨0, _⟩ => show win0_1.index t (0 : Fin 2) * 384 + 1 * (y 0).val = (y 0).val; rw [e0]; omega
  | ⟨1, _⟩ => show win0_1.index t (1 : Fin 2) * 512 + 1 * (y 1).val = (y 1).val; rw [e1]; omega

theorem iblk2_eq (t : Fin cfg0.N) (y : S384x384.Idx) :
    (iblk m c 2 t : Vec Idealize.ShloMosaic.Ideal S384x384 .bf16) y = (V m c main_v4 : S384x384.Idx → EReal) y := by
  obtain ⟨-, ⟨e0, e1⟩, -, -, -, -, -, -⟩ := idx_weights t
  unfold iblk
  rw [View.read_apply]
  show V m c main_v4 _ = V m c main_v4 y
  congr 1
  funext a
  apply Fin.ext
  match a with
  | ⟨0, _⟩ => show win0_2.index t (0 : Fin 2) * 384 + 1 * (y 0).val = (y 0).val; rw [e0]; omega
  | ⟨1, _⟩ => show win0_2.index t (1 : Fin 2) * 384 + 1 * (y 1).val = (y 1).val; rw [e1]; omega

theorem iblk3_eq (t : Fin cfg0.N) (y : S384x1536.Idx) :
    (iblk m c 3 t : Vec Idealize.ShloMosaic.Ideal S384x1536 .bf16) y = (V m c main_v7 : S384x1536.Idx → EReal) y := by
  obtain ⟨-, -, ⟨e0, e1⟩, -, -, -, -, -⟩ := idx_weights t
  unfold iblk
  rw [View.read_apply]
  show V m c main_v7 _ = V m c main_v7 y
  congr 1
  funext a
  apply Fin.ext
  match a with
  | ⟨0, _⟩ => show win0_3.index t (0 : Fin 2) * 384 + 1 * (y 0).val = (y 0).val; rw [e0]; omega
  | ⟨1, _⟩ => show win0_3.index t (1 : Fin 2) * 1536 + 1 * (y 1).val = (y 1).val; rw [e1]; omega

theorem iblk4_eq (t : Fin cfg0.N) (y : S1x12.Idx) :
    (iblk m c 4 t : Vec Idealize.ShloMosaic.Ideal S1x12 .f32) y = (V m c main_v12 : S1x12.Idx → EReal) y := by
  obtain ⟨-, -, -, ⟨e0, e1⟩, -, -, -, -⟩ := idx_weights t
  unfold iblk
  rw [View.read_apply]
  show V m c main_v12 _ = V m c main_v12 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 12 + 1 * (y 1).val = (y 1).val; rw [e1]; omega

theorem iblk5_eq (t : Fin cfg0.N) (y : S384x384.Idx) :
    (iblk m c 5 t : Vec Idealize.ShloMosaic.Ideal S384x384 .bf16) y = (V m c main_v14 : S384x384.Idx → EReal) y := by
  obtain ⟨-, -, -, -, ⟨e0, e1⟩, -, -, -⟩ := idx_weights t
  unfold iblk
  rw [View.read_apply]
  show V m c main_v14 _ = V m c main_v14 y
  congr 1
  funext a
  apply Fin.ext
  match a with
  | ⟨0, _⟩ => show win0_5.index t (0 : Fin 2) * 384 + 1 * (y 0).val = (y 0).val; rw [e0]; omega
  | ⟨1, _⟩ => show win0_5.index t (1 : Fin 2) * 384 + 1 * (y 1).val = (y 1).val; rw [e1]; omega

theorem iblk6_eq (t : Fin cfg0.N) (y : S1536x384.Idx) :
    (iblk m c 6 t : Vec Idealize.ShloMosaic.Ideal S1536x384 .bf16) y = (V m c main_v16 : S1536x384.Idx → EReal) y := by
  obtain ⟨-, -, -, -, -, ⟨e0, e1⟩, -, -⟩ := idx_weights t
  unfold iblk
  rw [View.read_apply]
  show V m c main_v16 _ = V m c main_v16 y
  congr 1
  funext a
  apply Fin.ext
  match a with
  | ⟨0, _⟩ => show win0_6.index t (0 : Fin 2) * 1536 + 1 * (y 0).val = (y 0).val; rw [e0]; omega
  | ⟨1, _⟩ => show win0_6.index t (1 : Fin 2) * 384 + 1 * (y 1).val = (y 1).val; rw [e1]; omega

theorem iblk7_eq (t : Fin cfg0.N) (y : S1x1.Idx) :
    (iblk m c 7 t : Vec Idealize.ShloMosaic.Ideal S1x1 .f32) y = (V m c main_v17 : S1x1.Idx → EReal) y := by
  obtain ⟨-, -, -, -, -, -, ⟨e0, e1⟩, -⟩ := idx_weights t
  unfold iblk
  rw [View.read_apply]
  show V m c main_v17 _ = V m c main_v17 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

theorem iblk8_eq (t : Fin cfg0.N) (y : S1x1.Idx) :
    (iblk m c 8 t : Vec Idealize.ShloMosaic.Ideal S1x1 .f32) y = (V m c main_v18 : S1x1.Idx → EReal) y := by
  obtain ⟨-, -, -, -, -, -, -, ⟨e0, e1⟩⟩ := idx_weights t
  unfold iblk
  rw [View.read_apply]
  show V m c main_v18 _ = V m c main_v18 y
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

/-- The input block at point `t` is rows 8r … 8r+7 of image b, all channels and columns, (b, 0, r, 0) being the output's
    block index there. -/
theorem iblk0_apply (t : Fin cfg0.N) (k : Fin 384) (p : Fin 8) (x : Fin 64)
    (hb : win0_9.index t (0 : Fin 4) < 16) (hr : win0_9.index t (2 : Fin 4) < 8) :
    (iblk m c 0 t : Vec Idealize.ShloMosaic.Ideal S1x384x8x64 .f32) (ix4 0 k p x)
      = A0 m c (ix4 (⟨win0_9.index t (0 : Fin 4), hb⟩ : Fin 16) k
          (⟨8 * win0_9.index t (2 : Fin 4) + p.val, by have := p.isLt; omega⟩ : Fin 64) x) := by
  obtain ⟨e0, e1, e2, e3, -⟩ := idx_facts t
  unfold iblk
  rw [View.read_apply]
  show V m c main_arg0 _ = _
  rw [V_main_arg0]
  show A0 m c _ = A0 m c _
  congr 1
  funext a
  apply Fin.ext
  match a with
  | ⟨0, _⟩ => show win0_0.index t (0 : Fin 4) * 1 + 1 * 0 = win0_9.index t (0 : Fin 4); rw [e0]; omega
  | ⟨1, _⟩ => show win0_0.index t (1 : Fin 4) * 384 + 1 * k.val = k.val; rw [e1]; omega
  | ⟨2, _⟩ => show win0_0.index t (2 : Fin 4) * 8 + 1 * p.val = 8 * win0_9.index t (2 : Fin 4) + p.val; rw [e2]; omega
  | ⟨3, _⟩ => show win0_0.index t (3 : Fin 4) * 64 + 1 * x.val = x.val; rw [e3]; omega

/-! ## From blocks to the array -/

/-- What point `t` writes back is block `t` of the result function of the argument arrays. -/
theorem flushed_eq (t : Fin cfg0.N) :
    (dats m 0 c).flushed 9 t = ((cfg0.win 9).blk t).view.read (Elt Idealize.ShloMosaic.Ideal) (Gm m c) := by
  obtain ⟨e0, e1, e2, e3, e4, e5, hb, hr⟩ := idx_facts t
  rw [Value.flushed9]
  funext y
  rw [View.read_apply]
  have hy0 : (y 0).val < 1 := (y 0).isLt
  have hy2 : (y 2).val < 8 := (y 2).isLt
  refine block_value (A0 m c) (A1 m c) (A2 m c) (A3 m c) (A4 m c) (A5 m c) (A6 m c) (A7 m c)
    (iblk m c 0 t) (iblk m c 1 t) (iblk m c 2 t) (iblk m c 3 t) (iblk m c 4 t) (iblk m c 5 t) (iblk m c 6 t)
    (iblk m c 7 t) (iblk m c 8 t)
    ⟨win0_9.index t (0 : Fin 4), hb⟩ ⟨win0_9.index t (2 : Fin 4), hr⟩
    (fun k p x => iblk0_apply m c t k p x hb hr)
    (fun k j => (iblk1_eq m c t _).trans (v11_apply_left m c k j))
    (fun k h => (iblk1_eq m c t _).trans (v11_apply_right m c k h))
    (fun k j => (iblk2_eq m c t _).trans (v4_apply m c k j))
    (fun k f => (iblk3_eq m c t _).trans (v7_apply m c k f))
    (fun h => (iblk4_eq m c t _).trans (v12_apply m c h))
    (fun j o => (iblk5_eq m c t _).trans (v14_apply m c j o))
    (fun f o => (iblk6_eq m c t _).trans (v16_apply m c f o))
    ((iblk7_eq m c t _).trans (v17_apply m c))
    ((iblk8_eq m c t _).trans (v18_apply m c))
    y (((cfg0.win 9).blk t).view.emb y) ?_ ?_ ?_ ?_
  · show win0_9.index t (0 : Fin 4) * 1 + 1 * (y 0).val = win0_9.index t (0 : Fin 4); omega
  · show win0_9.index t (1 : Fin 4) * 384 + 1 * (y 1).val = (y 1).val; rw [e4]; omega
  · show win0_9.index t (2 : Fin 4) * 8 + 1 * (y 2).val = 8 * win0_9.index t (2 : Fin 4) + (y 2).val; omega
  · show win0_9.index t (3 : Fin 4) * 64 + 1 * (y 3).val = (y 3).val; rw [e5]; omega

/-- The blocks cover the result array, so it ends holding the result function of the argument arrays. -/
theorem final : (dats m 0 c).arrAt 9 cfg0.N = Gm m c :=
  (dats m 0 c).arrAt_eq_of_cover 9 (Gm m c) (fun t _ => flushed_eq m c t) cover

/-! ## The run, read -/

/-- Every execution of the kernel program ends with the result array at the specification's function of the argument arrays,
    the arguments unchanged. -/
theorem run : θ_run defs (onTc (τ := τ) (main (F := Idealize.ShloMosaic.Ideal))) ⟨m, fun _ => 0, ρ⟩ fun r => ∀ c : Dev nD,
      r.2.mem ((c : Thread nD τ).loc main_v19) = Cert.WinAttn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelFinal

end
-- ==== Proof.lean ====
/-
  The certificate: a windowed attention block with gated heads and a squared-rectifier feed-forward branch, as one
  tiled kernel, against its array-level reference.

  Both programs cut the image into 8×8 windows of 64 tokens with 384 channels and compute, per window, the function
  `Cert.WinAttn.out` of the window's tokens and the weights (Proof/Spec.lean): fused projections to queries, keys
  (which are also the values) and feed-forward pre-activations; per head the scaled scores, their softmax along the
  keys (maximum from −∞, exponentials, sum, quotient) and the weighted values; each head times the logistic of its
  gate logit; the two output projections added. At the extended reals a change of float format is the identity and
  a matrix product is a plain sum, so the kernel's tiling (one row of eight windows per grid point, the twelve heads
  one after the other) and the reference's whole-array operations are the same sums; the only algebraic law used is
  the commutativity of the final addition. The precondition is never opened.

  * the reference's last stage is `Cert.WinAttn.G` of the arguments: Proof/RefSide.lean (over the generated
    read-at-an-index lemmas);
  * the kernel's result array is `Cert.WinAttn.G` of the arguments: Proof/KernelFinal.lean (blocks to array, the
    weights as the region finds them) over Proof/KernelBody.lean (the body's stored value at an index);
  * the three frames are the generated ones; the ideal pass rewrote nothing, so `preserves` is `True`.
-/
import proofs.«127096_j46669114638476_2_alg».proof.Defs
import proofs.«127096_j46669114638476_2_alg».proof.Proof.Gen.Kernel
import proofs.«127096_j46669114638476_2_alg».proof.Proof.Gen.Kernel.Skeleton
import proofs.«127096_j46669114638476_2_alg».proof.Proof.Gen.Kernel.Launch
import proofs.«127096_j46669114638476_2_alg».proof.Proof.Gen.Kernel.Points
import proofs.«127096_j46669114638476_2_alg».proof.Proof.Gen.Kernel.Frame
import proofs.«127096_j46669114638476_2_alg».proof.Proof.Gen.KernelIdeal
import proofs.«127096_j46669114638476_2_alg».proof.Proof.Gen.KernelIdeal.Skeleton
import proofs.«127096_j46669114638476_2_alg».proof.Proof.Gen.KernelIdeal.Launch
import proofs.«127096_j46669114638476_2_alg».proof.Proof.Gen.KernelIdeal.Points
import proofs.«127096_j46669114638476_2_alg».proof.Proof.Gen.KernelIdeal.Frame
import proofs.«127096_j46669114638476_2_alg».proof.Proof.Gen.ReferenceIdeal
import proofs.«127096_j46669114638476_2_alg».proof.Proof.Gen.Pre_finite_inputs
import proofs.«127096_j46669114638476_2_alg».proof.Proof.Gen.KernelIdeal.Value
import proofs.«127096_j46669114638476_2_alg».proof.Proof.Gen.ReferenceIdeal.Run
import proofs.«127096_j46669114638476_2_alg».proof.Proof.Gen.ReferenceIdeal.Read
import proofs.«127096_j46669114638476_2_alg».proof.Proof.Spec
import proofs.«127096_j46669114638476_2_alg».proof.Proof.RefSide
import proofs.«127096_j46669114638476_2_alg».proof.Proof.KernelFinal
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the window function of the (agreeing) arguments. -/
theorem algebraic : Cert.algebraic_KernelIdeal_ReferenceIdeal := by
  intro m ρ m' ρ' _ hagree
  refine ⟨fun c => Cert.WinAttn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelFinal.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v53_eq, Cert.RefSide.ref_eq, a0, a1, a2, a3, a4, a5, a6, a7]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
